-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v2)) (v2 : (c : Dev Cert.KernelIdeal.nD) → Buf (Elt Ideal) ((c.tc : Thread Cert.KernelIdeal.nD Cert.KernelIdeal.τ).loc Cert.KernelIdeal.main_v3)) (v3 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_v3) = v2 c
          ∧ r.2.mem ((c.tc : Thread Cert.KernelIdeal.nD Cert.KernelIdeal.τ).loc Cert.KernelIdeal.main_v23) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_v44) = v2 c
          ∧ r.2.mem ((c.tc : Thread Cert.ReferenceIdeal.nD Cert.ReferenceIdeal.τ).loc Cert.ReferenceIdeal.main_v40) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x3x512x512 : Shape := ⟨4, ![16, 3, 512, 512]⟩
abbrev S_ : Shape := ⟨0, ![]⟩

class Facts : Prop where
  bcast_S_S16x3x512x512 : S_.BroadcastsInDim S16x3x512x512 (![] : Fin 0 → Fin S16x3x512x512.rank)
  reducesTo_S16x3x512x512_S_d0_1_2_3 : S16x3x512x512.ReducesTo [0, 1, 2, 3] S_
  h_S_ : 0 < S_.numel

variable [Facts]

def fn {F : FTy → Type} [FloatOps F] (main_arg0 : FVec F S16x3x512x512 .f32) : IVec S_ 1 :=
  let main_v0 : FVec F S16x3x512x512 .f32 := Host.absf main_arg0
  let main_cst : FVec F S_ .f32 := constant S_ .f32 0x7F800000#32
  let main_v1 : FVec F S16x3x512x512 .f32 := broadcastInDim S16x3x512x512 ![] bcast_S_S16x3x512x512 main_cst
  let main_v2 : IVec S16x3x512x512 1 := cmpf .olt main_v0 main_v1
  let main_c : IVec S_ 1 := constantI S_ 1 1#1
  let main_v3 : IVec S_ 1 := (fun x v => Host.reduce IntOp.andi x v reducesTo_S16x3x512x512_S_d0_1_2_3 h_S_) main_v2 main_c
  main_v3
-- ==== Kernel.lean ====
abbrev S16x3x512x512 : Shape := ⟨4, ![16, 3, 512, 512]⟩
abbrev S16x512x1536 : Shape := ⟨3, ![16, 512, 1536]⟩
abbrev S16x512x512 : Shape := ⟨3, ![16, 512, 512]⟩
abbrev S3x16x512x512 : Shape := ⟨4, ![3, 16, 512, 512]⟩
abbrev S1x3x64x512 : Shape := ⟨4, ![1, 3, 64, 512]⟩
abbrev S1x64x1536 : Shape := ⟨3, ![1, 64, 1536]⟩
abbrev S1x64x512 : Shape := ⟨3, ![1, 64, 512]⟩
abbrev S3x1x64x512 : Shape := ⟨4, ![3, 1, 64, 512]⟩
abbrev S3x64x512 : Shape := ⟨3, ![3, 64, 512]⟩
abbrev S64x512x3 : Shape := ⟨3, ![64, 512, 3]⟩
abbrev S64x1536 : Shape := ⟨2, ![64, 1536]⟩
abbrev S64x512 : Shape := ⟨2, ![64, 512]⟩
abbrev S1x1x64x512 : Shape := ⟨4, ![1, 1, 64, 512]⟩
abbrev S4194304x3 : Shape := ⟨2, ![4194304, 3]⟩
abbrev S4194304 : Shape := ⟨1, ![4194304]⟩
abbrev S3x4194304 : Shape := ⟨2, ![3, 4194304]⟩
abbrev S16x32x32 : Shape := ⟨3, ![16, 32, 32]⟩
abbrev S_ : Shape := ⟨0, ![]⟩
abbrev S1x16x32x32 : Shape := ⟨4, ![1, 16, 32, 32]⟩
abbrev S4x16x32x32 : Shape := ⟨4, ![4, 16, 32, 32]⟩
abbrev S4x16384 : Shape := ⟨2, ![4, 16384]⟩

abbrev nBuf : Space → Nat
  | .hbm => 33
  | .vmem => 8
  | .smem => 0
  | _ => 0

abbrev bufTy : (tb : Table) → Fin (tcTables nBuf tb) → BufTy
  | .hbm, ⟨0, _⟩ => ⟨S16x3x512x512, .f32⟩
  | .hbm, ⟨1, _⟩ => ⟨S16x512x1536, .f32⟩
  | .hbm, ⟨2, _⟩ => ⟨S16x512x512, .i32⟩
  | .hbm, ⟨3, _⟩ => ⟨S3x16x512x512, .i32⟩
  | .hbm, ⟨4, _⟩ => ⟨S4194304x3, .f32⟩
  | .hbm, ⟨5, _⟩ => ⟨S4194304, .i32⟩
  | .hbm, ⟨6, _⟩ => ⟨S3x4194304, .i32⟩
  | .hbm, ⟨7, _⟩ => ⟨S16x32x32, .i32⟩
  | .hbm, ⟨8, _⟩ => ⟨S16x32x32, .i32⟩
  | .hbm, ⟨9, _⟩ => ⟨S_, .i32⟩
  | .hbm, ⟨10, _⟩ => ⟨S16x32x32, .i32⟩
  | .hbm, ⟨11, _⟩ => ⟨S16x32x32, .i32⟩
  | .hbm, ⟨12, _⟩ => ⟨S_, .i32⟩
  | .hbm, ⟨13, _⟩ => ⟨S16x32x32, .i32⟩
  | .hbm, ⟨14, _⟩ => ⟨S16x32x32, .i32⟩
  | .hbm, ⟨15, _⟩ => ⟨S_, .i32⟩
  | .hbm, ⟨16, _⟩ => ⟨S16x32x32, .i32⟩
  | .hbm, ⟨17, _⟩ => ⟨S16x32x32, .i32⟩
  | .hbm, ⟨18, _⟩ => ⟨S_, .i32⟩
  | .hbm, ⟨19, _⟩ => ⟨S16x32x32, .i32⟩
  | .hbm, ⟨20, _⟩ => ⟨S16x32x32, .i32⟩
  | .hbm, ⟨21, _⟩ => ⟨S_, .i32⟩
  | .hbm, ⟨22, _⟩ => ⟨S16x32x32, .i32⟩
  | .hbm, ⟨23, _⟩ => ⟨S16x32x32, .i32⟩
  | .hbm, ⟨24, _⟩ => ⟨S_, .i32⟩
  | .hbm, ⟨25, _⟩ => ⟨S16x32x32, .i32⟩
  | .hbm, ⟨26, _⟩ => ⟨S16x32x32, .i32⟩
  | .hbm, ⟨27, _⟩ => ⟨S1x16x32x32, .i32⟩
  | .hbm, ⟨28, _⟩ => ⟨S1x16x32x32, .i32⟩
  | .hbm, ⟨29, _⟩ => ⟨S1x16x32x32, .i32⟩
  | .hbm, ⟨30, _⟩ => ⟨S1x16x32x32, .i32⟩
  | .hbm, ⟨31, _⟩ => ⟨S4x16x32x32, .i32⟩
  | .hbm, ⟨32, _⟩ => ⟨S4x16384, .i32⟩
  | .local _ .vmem, ⟨0, _⟩ => ⟨S1x3x64x512, .f32⟩
  | .local _ .vmem, ⟨1, _⟩ => ⟨S1x3x64x512, .f32⟩
  | .local _ .vmem, ⟨2, _⟩ => ⟨S1x64x1536, .f32⟩
  | .local _ .vmem, ⟨3, _⟩ => ⟨S1x64x1536, .f32⟩
  | .local _ .vmem, ⟨4, _⟩ => ⟨S1x64x512, .i32⟩
  | .local _ .vmem, ⟨5, _⟩ => ⟨S1x64x512, .i32⟩
  | .local _ .vmem, ⟨6, _⟩ => ⟨S3x1x64x512, .i32⟩
  | .local _ .vmem, ⟨7, _⟩ => ⟨S3x1x64x512, .i32⟩
  | _, _ => ⟨S16x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_v6 : Ref sig .tc := ⟨.hbm, 10, rfl⟩
abbrev main_v7 : Ref sig .tc := ⟨.hbm, 11, rfl⟩
abbrev main_c_0 : Ref sig .tc := ⟨.hbm, 12, rfl⟩
abbrev main_v8 : Ref sig .tc := ⟨.hbm, 13, rfl⟩
abbrev main_v9 : Ref sig .tc := ⟨.hbm, 14, rfl⟩
abbrev main_c_1 : Ref sig .tc := ⟨.hbm, 15, rfl⟩
abbrev main_v10 : Ref sig .tc := ⟨.hbm, 16, rfl⟩
abbrev main_v11 : Ref sig .tc := ⟨.hbm, 17, rfl⟩
abbrev main_c_2 : Ref sig .tc := ⟨.hbm, 18, rfl⟩
abbrev main_v12 : Ref sig .tc := ⟨.hbm, 19, rfl⟩
abbrev main_v13 : Ref sig .tc := ⟨.hbm, 20, rfl⟩
abbrev main_c_3 : Ref sig .tc := ⟨.hbm, 21, rfl⟩
abbrev main_v14 : Ref sig .tc := ⟨.hbm, 22, rfl⟩
abbrev main_v15 : Ref sig .tc := ⟨.hbm, 23, rfl⟩
abbrev main_c_4 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

abbrev stage0_0 : Fin 2 → Memref sig .tc .vmem S1x3x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S3x1x64x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S1x3x64x512_S1x3x64x512_0_0_0_0 : ∀ a, (![0, 0, 0, 0] : Fin 4 → Nat) a + S1x3x64x512.size a ≤ S1x3x64x512.size a
  h_S1x3x64x512 : 0 < S1x3x64x512.numel
  shapeCasts_S1x3x64x512_S3x64x512 : S1x3x64x512.ShapeCasts S3x64x512
  transposes_S3x64x512_p1_2_0_S64x512x3 : S3x64x512.Transposes [1, 2, 0] S64x512x3
  shapeCasts_S64x512x3_S64x1536 : S64x512x3.ShapeCasts S64x1536
  inb_S1x64x1536_S1x64x1536_0_0_0 : ∀ a, (![0, 0, 0] : Fin 3 → Nat) a + S1x64x1536.size a ≤ S1x64x1536.size a
  h_S1x64x1536 : 0 < S1x64x1536.numel
  shapeCasts_S1x64x1536_S64x1536 : S1x64x1536.ShapeCasts S64x1536
  shapeCasts_S64x1536_S1x64x1536 : S64x1536.ShapeCasts S1x64x1536
  iota_S64x512_d0_w32 : S64x512.Iotas .tc 32 [0]
  iota_S64x512_d1_w32 : S64x512.Iotas .tc 32 [1]
  natLt_1_32 : 1 < 32
  inb_S1x64x512_S1x64x512_0_0_0 : ∀ a, (![0, 0, 0] : Fin 3 → Nat) a + S1x64x512.size a ≤ S1x64x512.size a
  h_S1x64x512 : 0 < S1x64x512.numel
  shapeCasts_S1x64x512_S64x512 : S1x64x512.ShapeCasts S64x512
  shapeCasts_S64x512_S1x64x512 : S64x512.ShapeCasts S1x64x512
  inb_S3x1x64x512_S1x1x64x512_0_0_0_0 : ∀ a, (![0, 0, 0, 0] : Fin 4 → Nat) a + S1x1x64x512.size a ≤ S3x1x64x512.size a
  h_S1x1x64x512 : 0 < S1x1x64x512.numel
  shapeCasts_S1x1x64x512_S64x512 : S1x1x64x512.ShapeCasts S64x512
  shapeCasts_S64x512_S1x1x64x512 : S64x512.ShapeCasts S1x1x64x512
  inb_S3x1x64x512_S1x1x64x512_1_0_0_0 : ∀ a, (![1, 0, 0, 0] : Fin 4 → Nat) a + S1x1x64x512.size a ≤ S3x1x64x512.size a
  inb_S3x1x64x512_S1x1x64x512_2_0_0_0 : ∀ a, (![2, 0, 0, 0] : Fin 4 → Nat) a + S1x1x64x512.size a ≤ S3x1x64x512.size a
  shapeCasts_S16x512x1536_S4194304x3 : S16x512x1536.ShapeCasts S4194304x3
  shapeCasts_S16x512x512_S4194304 : S16x512x512.ShapeCasts S4194304
  shapeCasts_S3x16x512x512_S3x4194304 : S3x16x512x512.ShapeCasts S3x4194304
  bcast_S_S16x32x32 : S_.BroadcastsInDim S16x32x32 (![] : Fin 0 → Fin S16x32x32.rank)
  bcast_S16x32x32_S1x16x32x32_1_2_3 : S16x32x32.BroadcastsInDim S1x16x32x32 (![1, 2, 3] : Fin 3 → Fin S1x16x32x32.rank)
  concatenates_S1x16x32x32_S1x16x32x32_S1x16x32x32_S1x16x32x32_S4x16x32x32_d0 : Shape.Concatenates [S1x16x32x32, S1x16x32x32, S1x16x32x32, S1x16x32x32] S4x16x32x32 0
  shapeCasts_S4x16x32x32_S4x16384 : S4x16x32x32.ShapeCasts S4x16384
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x64x512.size a ≤ S16x3x512x512.size a
  hwx0_0 : ∀ i : grid0.Coords, EltTy.bits .f32 = 32 ∨ (Rect.block (s := S16x3x512x512) S1x3x64x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x1536.size a ≤ S16x512x1536.size a
  hwx0_1 : ∀ i : grid0.Coords, EltTy.bits .f32 = 32 ∨ (Rect.block (s := S16x512x1536) S1x64x1536.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x512.size a ≤ S16x512x512.size a
  hwx0_2 : ∀ i : grid0.Coords, EltTy.bits .i32 = 32 ∨ (Rect.block (s := S16x512x512) S1x64x512.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S3x1x64x512.size a ≤ S3x16x512x512.size a
  hwx0_3 : ∀ i : grid0.Coords, EltTy.bits .i32 = 32 ∨ (Rect.block (s := S3x16x512x512) S3x1x64x512.size (cc0_transform_3 i) (hinb0_3 i)).WholeWords (EltTy.packing .i32)

variable [Facts₀]

abbrev win0_0 : Pipeline.Window sig grid0 :=
  Pipeline.Window.ofSpec (Memref.whole main_arg0) S1x3x64x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1x64x1536.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x64x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_2) S3x1x64x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x3x512x512 : Shape := ⟨4, ![16, 3, 512, 512]⟩
abbrev S4194304 : Shape := ⟨1, ![4194304]⟩
abbrev S_ : Shape := ⟨0, ![]⟩
abbrev S16x512x512x3 : Shape := ⟨4, ![16, 512, 512, 3]⟩
abbrev S4194304x3 : Shape := ⟨2, ![4194304, 3]⟩
abbrev S16384 : Shape := ⟨1, ![16384]⟩
abbrev S4194304x1 : Shape := ⟨2, ![4194304, 1]⟩
abbrev S1x16384 : Shape := ⟨2, ![1, 16384]⟩
abbrev S4x16384 : Shape := ⟨2, ![4, 16384]⟩
abbrev S1x4194304 : Shape := ⟨2, ![1, 4194304]⟩
abbrev S3x4194304 : Shape := ⟨2, ![3, 4194304]⟩

abbrev nBuf : Space → Nat
  | .hbm => 217
  | .vmem => 0
  | .smem => 0
  | _ => 0

abbrev hbmTy0_0 (i : Nat) : BufTy := match i % 128 with
  | 0 => ⟨S16x3x512x512, .f32⟩
  | 1 => ⟨S4194304, .i32⟩
  | 2 => ⟨S_, .i32⟩
  | 3 => ⟨S_, .i32⟩
  | 4 => ⟨S4194304, .i32⟩
  | 5 => ⟨S4194304, .i32⟩
  | 6 => ⟨S4194304, .i32⟩
  | 7 => ⟨S_, .i32⟩
  | 8 => ⟨S4194304, .i32⟩
  | 9 => ⟨S4194304, .i1⟩
  | 10 => ⟨S4194304, .i32⟩
  | 11 => ⟨S4194304, .i32⟩
  | 12 => ⟨S_, .i32⟩
  | 13 => ⟨S4194304, .i32⟩
  | 14 => ⟨S4194304, .i1⟩
  | 15 => ⟨S4194304, .i1⟩
  | 16 => ⟨S_, .i32⟩
  | 17 => ⟨S4194304, .i32⟩
  | 18 => ⟨S4194304, .i32⟩
  | 19 => ⟨S4194304, .i32⟩
  | 20 => ⟨S_, .i32⟩
  | 21 => ⟨S_, .i1⟩
  | 22 => ⟨S_, .i32⟩
  | 23 => ⟨S_, .i32⟩
  | 24 => ⟨S4194304, .i32⟩
  | 25 => ⟨S4194304, .i32⟩
  | 26 => ⟨S_, .i32⟩
  | 27 => ⟨S4194304, .i32⟩
  | 28 => ⟨S4194304, .i1⟩
  | 29 => ⟨S_, .i32⟩
  | 30 => ⟨S4194304, .i32⟩
  | 31 => ⟨S4194304, .i1⟩
  | 32 => ⟨S_, .i32⟩
  | 33 => ⟨S_, .i1⟩
  | 34 => ⟨S4194304, .i1⟩
  | 35 => ⟨S4194304, .i1⟩
  | 36 => ⟨S4194304, .i1⟩
  | 37 => ⟨S4194304, .i32⟩
  | 38 => ⟨S4194304, .i32⟩
  | 39 => ⟨S4194304, .i32⟩
  | 40 => ⟨S_, .i32⟩
  | 41 => ⟨S_, .i32⟩
  | 42 => ⟨S4194304, .i32⟩
  | 43 => ⟨S4194304, .i32⟩
  | 44 => ⟨S4194304, .i32⟩
  | 45 => ⟨S_, .i32⟩
  | 46 => ⟨S4194304, .i32⟩
  | 47 => ⟨S4194304, .i1⟩
  | 48 => ⟨S4194304, .i32⟩
  | 49 => ⟨S4194304, .i32⟩
  | 50 => ⟨S_, .i32⟩
  | 51 => ⟨S4194304, .i32⟩
  | 52 => ⟨S4194304, .i1⟩
  | 53 => ⟨S4194304, .i1⟩
  | 54 => ⟨S_, .i32⟩
  | 55 => ⟨S4194304, .i32⟩
  | 56 => ⟨S4194304, .i32⟩
  | 57 => ⟨S4194304, .i32⟩
  | 58 => ⟨S_, .i32⟩
  | 59 => ⟨S_, .i1⟩
  | 60 => ⟨S_, .i32⟩
  | 61 => ⟨S_, .i32⟩
  | 62 => ⟨S4194304, .i32⟩
  | 63 => ⟨S4194304, .i32⟩
  | 64 => ⟨S_, .i32⟩
  | 65 => ⟨S4194304, .i32⟩
  | 66 => ⟨S4194304, .i1⟩
  | 67 => ⟨S_, .i32⟩
  | 68 => ⟨S4194304, .i32⟩
  | 69 => ⟨S4194304, .i1⟩
  | 70 => ⟨S_, .i32⟩
  | 71 => ⟨S_, .i1⟩
  | 72 => ⟨S4194304, .i1⟩
  | 73 => ⟨S4194304, .i1⟩
  | 74 => ⟨S4194304, .i1⟩
  | 75 => ⟨S4194304, .i32⟩
  | 76 => ⟨S4194304, .i32⟩
  | 77 => ⟨S4194304, .i32⟩
  | 78 => ⟨S_, .i32⟩
  | 79 => ⟨S_, .i32⟩
  | 80 => ⟨S4194304, .i32⟩
  | 81 => ⟨S4194304, .i32⟩
  | 82 => ⟨S4194304, .i32⟩
  | 83 => ⟨S_, .i32⟩
  | 84 => ⟨S4194304, .i32⟩
  | 85 => ⟨S4194304, .i1⟩
  | 86 => ⟨S4194304, .i32⟩
  | 87 => ⟨S4194304, .i32⟩
  | 88 => ⟨S_, .i32⟩
  | 89 => ⟨S4194304, .i32⟩
  | 90 => ⟨S4194304, .i1⟩
  | 91 => ⟨S4194304, .i1⟩
  | 92 => ⟨S_, .i32⟩
  | 93 => ⟨S4194304, .i32⟩
  | 94 => ⟨S4194304, .i32⟩
  | 95 => ⟨S4194304, .i32⟩
  | 96 => ⟨S_, .i32⟩
  | 97 => ⟨S_, .i1⟩
  | 98 => ⟨S_, .i32⟩
  | 99 => ⟨S_, .i32⟩
  | 100 => ⟨S4194304, .i32⟩
  | 101 => ⟨S4194304, .i32⟩
  | 102 => ⟨S_, .i32⟩
  | 103 => ⟨S4194304, .i32⟩
  | 104 => ⟨S4194304, .i1⟩
  | 105 => ⟨S_, .i32⟩
  | 106 => ⟨S4194304, .i32⟩
  | 107 => ⟨S4194304, .i1⟩
  | 108 => ⟨S_, .i32⟩
  | 109 => ⟨S_, .i1⟩
  | 110 => ⟨S4194304, .i1⟩
  | 111 => ⟨S4194304, .i1⟩
  | 112 => ⟨S4194304, .i1⟩
  | 113 => ⟨S4194304, .i32⟩
  | 114 => ⟨S4194304, .i32⟩
  | 115 => ⟨S4194304, .i32⟩
  | 116 => ⟨S_, .i32⟩
  | 117 => ⟨S4194304, .i32⟩
  | 118 => ⟨S4194304, .i1⟩
  | 119 => ⟨S_, .i32⟩
  | 120 => ⟨S4194304, .i32⟩
  | 121 => ⟨S4194304, .i1⟩
  | 122 => ⟨S_, .i32⟩
  | 123 => ⟨S_, .i32⟩
  | 124 => ⟨S4194304, .i32⟩
  | 125 => ⟨S4194304, .i32⟩
  | 126 => ⟨S_, .i32⟩
  | 127 => ⟨S_, .i32⟩
  | _ => ⟨S16x3x512x512, .f32⟩

abbrev hbmTy0_1 (i : Nat) : BufTy := match i % 128 with
  | 0 => ⟨S4194304, .i32⟩
  | 1 => ⟨S4194304, .i32⟩
  | 2 => ⟨S_, .i32⟩
  | 3 => ⟨S_, .i32⟩
  | 4 => ⟨S4194304, .i32⟩
  | 5 => ⟨S4194304, .i32⟩
  | 6 => ⟨S_, .i32⟩
  | 7 => ⟨S_, .i32⟩
  | 8 => ⟨S4194304, .i32⟩
  | 9 => ⟨S4194304, .i32⟩
  | 10 => ⟨S_, .i32⟩
  | 11 => ⟨S_, .i32⟩
  | 12 => ⟨S4194304, .i32⟩
  | 13 => ⟨S4194304, .i32⟩
  | 14 => ⟨S_, .i32⟩
  | 15 => ⟨S_, .i32⟩
  | 16 => ⟨S4194304, .i32⟩
  | 17 => ⟨S4194304, .i32⟩
  | 18 => ⟨S_, .i32⟩
  | 19 => ⟨S4194304, .i32⟩
  | 20 => ⟨S4194304, .i32⟩
  | 21 => ⟨S_, .i32⟩
  | 22 => ⟨S_, .i32⟩
  | 23 => ⟨S4194304, .i32⟩
  | 24 => ⟨S4194304, .i32⟩
  | 25 => ⟨S4194304, .i32⟩
  | 26 => ⟨S_, .i32⟩
  | 27 => ⟨S4194304, .i32⟩
  | 28 => ⟨S4194304, .i1⟩
  | 29 => ⟨S4194304, .i32⟩
  | 30 => ⟨S4194304, .i32⟩
  | 31 => ⟨S_, .i32⟩
  | 32 => ⟨S4194304, .i32⟩
  | 33 => ⟨S4194304, .i1⟩
  | 34 => ⟨S4194304, .i1⟩
  | 35 => ⟨S_, .i32⟩
  | 36 => ⟨S4194304, .i32⟩
  | 37 => ⟨S4194304, .i32⟩
  | 38 => ⟨S4194304, .i32⟩
  | 39 => ⟨S_, .i32⟩
  | 40 => ⟨S4194304, .i32⟩
  | 41 => ⟨S4194304, .i32⟩
  | 42 => ⟨S4194304, .i32⟩
  | 43 => ⟨S_, .i32⟩
  | 44 => ⟨S_, .i32⟩
  | 45 => ⟨S4194304, .i32⟩
  | 46 => ⟨S4194304, .i32⟩
  | 47 => ⟨S4194304, .i32⟩
  | 48 => ⟨S_, .i32⟩
  | 49 => ⟨S4194304, .i32⟩
  | 50 => ⟨S4194304, .i1⟩
  | 51 => ⟨S4194304, .i32⟩
  | 52 => ⟨S4194304, .i32⟩
  | 53 => ⟨S_, .i32⟩
  | 54 => ⟨S4194304, .i32⟩
  | 55 => ⟨S4194304, .i1⟩
  | 56 => ⟨S4194304, .i1⟩
  | 57 => ⟨S_, .i32⟩
  | 58 => ⟨S4194304, .i32⟩
  | 59 => ⟨S4194304, .i32⟩
  | 60 => ⟨S4194304, .i32⟩
  | 61 => ⟨S4194304, .i32⟩
  | 62 => ⟨S16x512x512x3, .f32⟩
  | 63 => ⟨S4194304x3, .f32⟩
  | 64 => ⟨S_, .i32⟩
  | 65 => ⟨S16384, .i32⟩
  | 66 => ⟨S4194304x1, .i32⟩
  | 67 => ⟨S16384, .i32⟩
  | 68 => ⟨S_, .i32⟩
  | 69 => ⟨S16384, .i32⟩
  | 70 => ⟨S4194304x1, .i32⟩
  | 71 => ⟨S16384, .i32⟩
  | 72 => ⟨S_, .i32⟩
  | 73 => ⟨S16384, .i32⟩
  | 74 => ⟨S4194304x1, .i32⟩
  | 75 => ⟨S16384, .i32⟩
  | 76 => ⟨S_, .i32⟩
  | 77 => ⟨S16384, .i32⟩
  | 78 => ⟨S4194304x1, .i32⟩
  | 79 => ⟨S16384, .i32⟩
  | 80 => ⟨S1x16384, .i32⟩
  | 81 => ⟨S1x16384, .i32⟩
  | 82 => ⟨S1x16384, .i32⟩
  | 83 => ⟨S1x16384, .i32⟩
  | 84 => ⟨S4x16384, .i32⟩
  | 85 => ⟨S1x4194304, .i32⟩
  | 86 => ⟨S1x4194304, .i32⟩
  | 87 => ⟨S1x4194304, .i32⟩
  | 88 => ⟨S3x4194304, .i32⟩
  | _ => ⟨S16x3x512x512, .f32⟩

abbrev hbmTy (i : Nat) : BufTy := match i / 128 with
  | 0 => hbmTy0_0 i
  | 1 => hbmTy0_1 i
  | _ => ⟨S16x3x512x512, .f32⟩

abbrev bufTy : (tb : Table) → Fin (tcTables nBuf tb) → BufTy
  | .hbm, ⟨i, _⟩ => hbmTy i
  | _, _ => ⟨S16x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_call0_v0 : Ref sig .tc := ⟨.hbm, 3, rfl⟩
abbrev main_call0_call0_v0 : Ref sig .tc := ⟨.hbm, 4, rfl⟩
abbrev main_call0_call0_v1 : Ref sig .tc := ⟨.hbm, 5, rfl⟩
abbrev main_call0_call0_v2 : Ref sig .tc := ⟨.hbm, 6, rfl⟩
abbrev main_call0_call0_v3 : Ref sig .tc := ⟨.hbm, 7, rfl⟩
abbrev main_call0_call0_v4 : Ref sig .tc := ⟨.hbm, 8, rfl⟩
abbrev main_call0_call0_v5 : Ref sig .tc := ⟨.hbm, 9, rfl⟩
abbrev main_call0_call0_v6 : Ref sig .tc := ⟨.hbm, 10, rfl⟩
abbrev main_call0_call0_v7 : Ref sig .tc := ⟨.hbm, 11, rfl⟩
abbrev main_call0_call0_c : Ref sig .tc := ⟨.hbm, 12, rfl⟩
abbrev main_call0_call0_v8 : Ref sig .tc := ⟨.hbm, 13, rfl⟩
abbrev main_call0_call0_v9 : Ref sig .tc := ⟨.hbm, 14, rfl⟩
abbrev main_call0_call0_v10 : Ref sig .tc := ⟨.hbm, 15, rfl⟩
abbrev main_call0_call0_c_0 : Ref sig .tc := ⟨.hbm, 16, rfl⟩
abbrev main_call0_call0_v11 : Ref sig .tc := ⟨.hbm, 17, rfl⟩
abbrev main_call0_call0_v12 : Ref sig .tc := ⟨.hbm, 18, rfl⟩
abbrev main_v1_0 : Ref sig .tc := ⟨.hbm, 19, rfl⟩
abbrev main_call0_call1_c : Ref sig .tc := ⟨.hbm, 20, rfl⟩
abbrev main_call0_call1_v0 : Ref sig .tc := ⟨.hbm, 21, rfl⟩
abbrev main_call0_call1_c_0 : Ref sig .tc := ⟨.hbm, 22, rfl⟩
abbrev main_call0_call1_v1 : Ref sig .tc := ⟨.hbm, 23, rfl⟩
abbrev main_call0_call1_v2 : Ref sig .tc := ⟨.hbm, 24, rfl⟩
abbrev main_call0_call1_v3 : Ref sig .tc := ⟨.hbm, 25, rfl⟩
abbrev main_call0_call1_c_1 : Ref sig .tc := ⟨.hbm, 26, rfl⟩
abbrev main_call0_call1_v4 : Ref sig .tc := ⟨.hbm, 27, rfl⟩
abbrev main_call0_call1_v5 : Ref sig .tc := ⟨.hbm, 28, rfl⟩
abbrev main_call0_call1_c_2 : Ref sig .tc := ⟨.hbm, 29, rfl⟩
abbrev main_call0_call1_v6 : Ref sig .tc := ⟨.hbm, 30, rfl⟩
abbrev main_call0_call1_v7 : Ref sig .tc := ⟨.hbm, 31, rfl⟩
abbrev main_call0_call1_c_3 : Ref sig .tc := ⟨.hbm, 32, rfl⟩
abbrev main_call0_call1_v8 : Ref sig .tc := ⟨.hbm, 33, rfl⟩
abbrev main_call0_call1_v9 : Ref sig .tc := ⟨.hbm, 34, rfl⟩
abbrev main_call0_call1_v10 : Ref sig .tc := ⟨.hbm, 35, rfl⟩
abbrev main_call0_call1_v11 : Ref sig .tc := ⟨.hbm, 36, rfl⟩
abbrev main_call0_call1_v12 : Ref sig .tc := ⟨.hbm, 37, rfl⟩
abbrev main_call0_call1_v13 : Ref sig .tc := ⟨.hbm, 38, rfl⟩
abbrev main_v1_1 : Ref sig .tc := ⟨.hbm, 39, rfl⟩
abbrev main_c_0 : Ref sig .tc := ⟨.hbm, 40, rfl⟩
abbrev main_call1_v0 : Ref sig .tc := ⟨.hbm, 41, rfl⟩
abbrev main_call1_call0_v0 : Ref sig .tc := ⟨.hbm, 42, rfl⟩
abbrev main_call1_call0_v1 : Ref sig .tc := ⟨.hbm, 43, rfl⟩
abbrev main_call1_call0_v2 : Ref sig .tc := ⟨.hbm, 44, rfl⟩
abbrev main_call1_call0_v3 : Ref sig .tc := ⟨.hbm, 45, rfl⟩
abbrev main_call1_call0_v4 : Ref sig .tc := ⟨.hbm, 46, rfl⟩
abbrev main_call1_call0_v5 : Ref sig .tc := ⟨.hbm, 47, rfl⟩
abbrev main_call1_call0_v6 : Ref sig .tc := ⟨.hbm, 48, rfl⟩
abbrev main_call1_call0_v7 : Ref sig .tc := ⟨.hbm, 49, rfl⟩
abbrev main_call1_call0_c : Ref sig .tc := ⟨.hbm, 50, rfl⟩
abbrev main_call1_call0_v8 : Ref sig .tc := ⟨.hbm, 51, rfl⟩
abbrev main_call1_call0_v9 : Ref sig .tc := ⟨.hbm, 52, rfl⟩
abbrev main_call1_call0_v10 : Ref sig .tc := ⟨.hbm, 53, rfl⟩
abbrev main_call1_call0_c_0 : Ref sig .tc := ⟨.hbm, 54, rfl⟩
abbrev main_call1_call0_v11 : Ref sig .tc := ⟨.hbm, 55, rfl⟩
abbrev main_call1_call0_v12 : Ref sig .tc := ⟨.hbm, 56, rfl⟩
abbrev main_v2_0 : Ref sig .tc := ⟨.hbm, 57, rfl⟩
abbrev main_call1_call1_c : Ref sig .tc := ⟨.hbm, 58, rfl⟩
abbrev main_call1_call1_v0 : Ref sig .tc := ⟨.hbm, 59, rfl⟩
abbrev main_call1_call1_c_0 : Ref sig .tc := ⟨.hbm, 60, rfl⟩
abbrev main_call1_call1_v1 : Ref sig .tc := ⟨.hbm, 61, rfl⟩
abbrev main_call1_call1_v2 : Ref sig .tc := ⟨.hbm, 62, rfl⟩
abbrev main_call1_call1_v3 : Ref sig .tc := ⟨.hbm, 63, rfl⟩
abbrev main_call1_call1_c_1 : Ref sig .tc := ⟨.hbm, 64, rfl⟩
abbrev main_call1_call1_v4 : Ref sig .tc := ⟨.hbm, 65, rfl⟩
abbrev main_call1_call1_v5 : Ref sig .tc := ⟨.hbm, 66, rfl⟩
abbrev main_call1_call1_c_2 : Ref sig .tc := ⟨.hbm, 67, rfl⟩
abbrev main_call1_call1_v6 : Ref sig .tc := ⟨.hbm, 68, rfl⟩
abbrev main_call1_call1_v7 : Ref sig .tc := ⟨.hbm, 69, rfl⟩
abbrev main_call1_call1_c_3 : Ref sig .tc := ⟨.hbm, 70, rfl⟩
abbrev main_call1_call1_v8 : Ref sig .tc := ⟨.hbm, 71, rfl⟩
abbrev main_call1_call1_v9 : Ref sig .tc := ⟨.hbm, 72, rfl⟩
abbrev main_call1_call1_v10 : Ref sig .tc := ⟨.hbm, 73, rfl⟩
abbrev main_call1_call1_v11 : Ref sig .tc := ⟨.hbm, 74, rfl⟩
abbrev main_call1_call1_v12 : Ref sig .tc := ⟨.hbm, 75, rfl⟩
abbrev main_call1_call1_v13 : Ref sig .tc := ⟨.hbm, 76, rfl⟩
abbrev main_v2_1 : Ref sig .tc := ⟨.hbm, 77, rfl⟩
abbrev main_c_1 : Ref sig .tc := ⟨.hbm, 78, rfl⟩
abbrev main_call2_v0 : Ref sig .tc := ⟨.hbm, 79, rfl⟩
abbrev main_call2_call0_v0 : Ref sig .tc := ⟨.hbm, 80, rfl⟩
abbrev main_call2_call0_v1 : Ref sig .tc := ⟨.hbm, 81, rfl⟩
abbrev main_call2_call0_v2 : Ref sig .tc := ⟨.hbm, 82, rfl⟩
abbrev main_call2_call0_v3 : Ref sig .tc := ⟨.hbm, 83, rfl⟩
abbrev main_call2_call0_v4 : Ref sig .tc := ⟨.hbm, 84, rfl⟩
abbrev main_call2_call0_v5 : Ref sig .tc := ⟨.hbm, 85, rfl⟩
abbrev main_call2_call0_v6 : Ref sig .tc := ⟨.hbm, 86, rfl⟩
abbrev main_call2_call0_v7 : Ref sig .tc := ⟨.hbm, 87, rfl⟩
abbrev main_call2_call0_c : Ref sig .tc := ⟨.hbm, 88, rfl⟩
abbrev main_call2_call0_v8 : Ref sig .tc := ⟨.hbm, 89, rfl⟩
abbrev main_call2_call0_v9 : Ref sig .tc := ⟨.hbm, 90, rfl⟩
abbrev main_call2_call0_v10 : Ref sig .tc := ⟨.hbm, 91, rfl⟩
abbrev main_call2_call0_c_0 : Ref sig .tc := ⟨.hbm, 92, rfl⟩
abbrev main_call2_call0_v11 : Ref sig .tc := ⟨.hbm, 93, rfl⟩
abbrev main_call2_call0_v12 : Ref sig .tc := ⟨.hbm, 94, rfl⟩
abbrev main_v3_0 : Ref sig .tc := ⟨.hbm, 95, rfl⟩
abbrev main_call2_call1_c : Ref sig .tc := ⟨.hbm, 96, rfl⟩
abbrev main_call2_call1_v0 : Ref sig .tc := ⟨.hbm, 97, rfl⟩
abbrev main_call2_call1_c_0 : Ref sig .tc := ⟨.hbm, 98, rfl⟩
abbrev main_call2_call1_v1 : Ref sig .tc := ⟨.hbm, 99, rfl⟩
abbrev main_call2_call1_v2 : Ref sig .tc := ⟨.hbm, 100, rfl⟩
abbrev main_call2_call1_v3 : Ref sig .tc := ⟨.hbm, 101, rfl⟩
abbrev main_call2_call1_c_1 : Ref sig .tc := ⟨.hbm, 102, rfl⟩
abbrev main_call2_call1_v4 : Ref sig .tc := ⟨.hbm, 103, rfl⟩
abbrev main_call2_call1_v5 : Ref sig .tc := ⟨.hbm, 104, rfl⟩
abbrev main_call2_call1_c_2 : Ref sig .tc := ⟨.hbm, 105, rfl⟩
abbrev main_call2_call1_v6 : Ref sig .tc := ⟨.hbm, 106, rfl⟩
abbrev main_call2_call1_v7 : Ref sig .tc := ⟨.hbm, 107, rfl⟩
abbrev main_call2_call1_c_3 : Ref sig .tc := ⟨.hbm, 108, rfl⟩
abbrev main_call2_call1_v8 : Ref sig .tc := ⟨.hbm, 109, rfl⟩
abbrev main_call2_call1_v9 : Ref sig .tc := ⟨.hbm, 110, rfl⟩
abbrev main_call2_call1_v10 : Ref sig .tc := ⟨.hbm, 111, rfl⟩
abbrev main_call2_call1_v11 : Ref sig .tc := ⟨.hbm, 112, rfl⟩
abbrev main_call2_call1_v12 : Ref sig .tc := ⟨.hbm, 113, rfl⟩
abbrev main_call2_call1_v13 : Ref sig .tc := ⟨.hbm, 114, rfl⟩
abbrev main_v3_1 : Ref sig .tc := ⟨.hbm, 115, rfl⟩
abbrev main_c_2 : Ref sig .tc := ⟨.hbm, 116, rfl⟩
abbrev main_v4 : Ref sig .tc := ⟨.hbm, 117, rfl⟩
abbrev main_v5 : Ref sig .tc := ⟨.hbm, 118, rfl⟩
abbrev main_c_3 : Ref sig .tc := ⟨.hbm, 119, rfl⟩
abbrev main_v6 : Ref sig .tc := ⟨.hbm, 120, rfl⟩
abbrev main_v7 : Ref sig .tc := ⟨.hbm, 121, rfl⟩
abbrev main_c_4 : Ref sig .tc := ⟨.hbm, 122, rfl⟩
abbrev main_call3_v0 : Ref sig .tc := ⟨.hbm, 123, rfl⟩
abbrev main_call3_v1 : Ref sig .tc := ⟨.hbm, 124, rfl⟩
abbrev main_v8 : Ref sig .tc := ⟨.hbm, 125, rfl⟩
abbrev main_c_5 : Ref sig .tc := ⟨.hbm, 126, rfl⟩
abbrev main_call4_v0 : Ref sig .tc := ⟨.hbm, 127, rfl⟩
abbrev main_call4_v1 : Ref sig .tc := ⟨.hbm, 128, rfl⟩
abbrev main_v9 : Ref sig .tc := ⟨.hbm, 129, rfl⟩
abbrev main_c_6 : Ref sig .tc := ⟨.hbm, 130, rfl⟩
abbrev main_call5_v0 : Ref sig .tc := ⟨.hbm, 131, rfl⟩
abbrev main_call5_v1 : Ref sig .tc := ⟨.hbm, 132, rfl⟩
abbrev main_v10 : Ref sig .tc := ⟨.hbm, 133, rfl⟩
abbrev main_c_7 : Ref sig .tc := ⟨.hbm, 134, rfl⟩
abbrev main_call6_v0 : Ref sig .tc := ⟨.hbm, 135, rfl⟩
abbrev main_call6_v1 : Ref sig .tc := ⟨.hbm, 136, rfl⟩
abbrev main_v11 : Ref sig .tc := ⟨.hbm, 137, rfl⟩
abbrev main_c_8 : Ref sig .tc := ⟨.hbm, 138, rfl⟩
abbrev main_call7_v0 : Ref sig .tc := ⟨.hbm, 139, rfl⟩
abbrev main_call7_v1 : Ref sig .tc := ⟨.hbm, 140, rfl⟩
abbrev main_v12 : Ref sig .tc := ⟨.hbm, 141, rfl⟩
abbrev main_c_9 : Ref sig .tc := ⟨.hbm, 142, rfl⟩
abbrev main_call8_v0 : Ref sig .tc := ⟨.hbm, 143, rfl⟩
abbrev main_call8_v1 : Ref sig .tc := ⟨.hbm, 144, rfl⟩
abbrev main_v13 : Ref sig .tc := ⟨.hbm, 145, rfl⟩
abbrev main_c_10 : Ref sig .tc := ⟨.hbm, 146, rfl⟩
abbrev main_v14 : Ref sig .tc := ⟨.hbm, 147, rfl⟩
abbrev main_v15 : Ref sig .tc := ⟨.hbm, 148, rfl⟩
abbrev main_c_11 : Ref sig .tc := ⟨.hbm, 149, rfl⟩
abbrev main_call9_v0 : Ref sig .tc := ⟨.hbm, 150, rfl⟩
abbrev main_call9_v1 : Ref sig .tc := ⟨.hbm, 151, rfl⟩
abbrev main_call9_v2 : Ref sig .tc := ⟨.hbm, 152, rfl⟩
abbrev main_call9_v3 : Ref sig .tc := ⟨.hbm, 153, rfl⟩
abbrev main_call9_v4 : Ref sig .tc := ⟨.hbm, 154, rfl⟩
abbrev main_call9_v5 : Ref sig .tc := ⟨.hbm, 155, rfl⟩
abbrev main_call9_v6 : Ref sig .tc := ⟨.hbm, 156, rfl⟩
abbrev main_call9_v7 : Ref sig .tc := ⟨.hbm, 157, rfl⟩
abbrev main_call9_v8 : Ref sig .tc := ⟨.hbm, 158, rfl⟩
abbrev main_call9_c : Ref sig .tc := ⟨.hbm, 159, rfl⟩
abbrev main_call9_v9 : Ref sig .tc := ⟨.hbm, 160, rfl⟩
abbrev main_call9_v10 : Ref sig .tc := ⟨.hbm, 161, rfl⟩
abbrev main_call9_v11 : Ref sig .tc := ⟨.hbm, 162, rfl⟩
abbrev main_call9_c_0 : Ref sig .tc := ⟨.hbm, 163, rfl⟩
abbrev main_call9_v12 : Ref sig .tc := ⟨.hbm, 164, rfl⟩
abbrev main_call9_v13 : Ref sig .tc := ⟨.hbm, 165, rfl⟩
abbrev main_v16 : Ref sig .tc := ⟨.hbm, 166, rfl⟩
abbrev main_c_12 : Ref sig .tc := ⟨.hbm, 167, rfl⟩
abbrev main_v17 : Ref sig .tc := ⟨.hbm, 168, rfl⟩
abbrev main_v18 : Ref sig .tc := ⟨.hbm, 169, rfl⟩
abbrev main_v19 : Ref sig .tc := ⟨.hbm, 170, rfl⟩
abbrev main_c_13 : Ref sig .tc := ⟨.hbm, 171, rfl⟩
abbrev main_call10_v0 : Ref sig .tc := ⟨.hbm, 172, rfl⟩
abbrev main_call10_v1 : Ref sig .tc := ⟨.hbm, 173, rfl⟩
abbrev main_call10_v2 : Ref sig .tc := ⟨.hbm, 174, rfl⟩
abbrev main_call10_v3 : Ref sig .tc := ⟨.hbm, 175, rfl⟩
abbrev main_call10_v4 : Ref sig .tc := ⟨.hbm, 176, rfl⟩
abbrev main_call10_v5 : Ref sig .tc := ⟨.hbm, 177, rfl⟩
abbrev main_call10_v6 : Ref sig .tc := ⟨.hbm, 178, rfl⟩
abbrev main_call10_v7 : Ref sig .tc := ⟨.hbm, 179, rfl⟩
abbrev main_call10_v8 : Ref sig .tc := ⟨.hbm, 180, rfl⟩
abbrev main_call10_c : Ref sig .tc := ⟨.hbm, 181, rfl⟩
abbrev main_call10_v9 : Ref sig .tc := ⟨.hbm, 182, rfl⟩
abbrev main_call10_v10 : Ref sig .tc := ⟨.hbm, 183, rfl⟩
abbrev main_call10_v11 : Ref sig .tc := ⟨.hbm, 184, rfl⟩
abbrev main_call10_c_0 : Ref sig .tc := ⟨.hbm, 185, rfl⟩
abbrev main_call10_v12 : Ref sig .tc := ⟨.hbm, 186, rfl⟩
abbrev main_call10_v13 : Ref sig .tc := ⟨.hbm, 187, rfl⟩
abbrev main_v20 : Ref sig .tc := ⟨.hbm, 188, rfl⟩
abbrev main_v21 : Ref sig .tc := ⟨.hbm, 189, rfl⟩
abbrev main_v22 : Ref sig .tc := ⟨.hbm, 190, rfl⟩
abbrev main_v23 : Ref sig .tc := ⟨.hbm, 191, rfl⟩
abbrev main_c_14 : Ref sig .tc := ⟨.hbm, 192, rfl⟩
abbrev main_v24 : Ref sig .tc := ⟨.hbm, 193, rfl⟩
abbrev main_v25 : Ref sig .tc := ⟨.hbm, 194, rfl⟩
abbrev main_v26 : Ref sig .tc := ⟨.hbm, 195, rfl⟩
abbrev main_c_15 : Ref sig .tc := ⟨.hbm, 196, rfl⟩
abbrev main_v27 : Ref sig .tc := ⟨.hbm, 197, rfl⟩
abbrev main_v28 : Ref sig .tc := ⟨.hbm, 198, rfl⟩
abbrev main_v29 : Ref sig .tc := ⟨.hbm, 199, rfl⟩
abbrev main_c_16 : Ref sig .tc := ⟨.hbm, 200, rfl⟩
abbrev main_v30 : Ref sig .tc := ⟨.hbm, 201, rfl⟩
abbrev main_v31 : Ref sig .tc := ⟨.hbm, 202, rfl⟩
abbrev main_v32 : Ref sig .tc := ⟨.hbm, 203, rfl⟩
abbrev main_c_17 : Ref sig .tc := ⟨.hbm, 204, rfl⟩
abbrev main_v33 : Ref sig .tc := ⟨.hbm, 205, rfl⟩
abbrev main_v34 : Ref sig .tc := ⟨.hbm, 206, rfl⟩
abbrev main_v35 : Ref sig .tc := ⟨.hbm, 207, rfl⟩
abbrev main_v36 : Ref sig .tc := ⟨.hbm, 208, rfl⟩
abbrev main_v37 : Ref sig .tc := ⟨.hbm, 209, rfl⟩
abbrev main_v38 : Ref sig .tc := ⟨.hbm, 210, rfl⟩
abbrev main_v39 : Ref sig .tc := ⟨.hbm, 211, rfl⟩
abbrev main_v40 : Ref sig .tc := ⟨.hbm, 212, rfl⟩
abbrev main_v41 : Ref sig .tc := ⟨.hbm, 213, rfl⟩
abbrev main_v42 : Ref sig .tc := ⟨.hbm, 214, rfl⟩
abbrev main_v43 : Ref sig .tc := ⟨.hbm, 215, rfl⟩
abbrev main_v44 : Ref sig .tc := ⟨.hbm, 216, rfl⟩

abbrev nD : Nat := 1
abbrev τ : Topo := Topo.v7x

variable {F : FTy → Type} [FloatOps F]

class Facts₀ : Prop where
  bcast_S_S4194304 : S_.BroadcastsInDim S4194304 (![] : Fin 0 → Fin S4194304.rank)
  transposes_S16x3x512x512_S16x512x512x3_0_2_3_1 : S16x3x512x512.Transposes [0, 2, 3, 1] S16x512x512x3
  shapeCasts_S16x512x512x3_S4194304x3 : S16x512x512x3.ShapeCasts S4194304x3
  bcast_S_S16384 : S_.BroadcastsInDim S16384 (![] : Fin 0 → Fin S16384.rank)
  bcast_S4194304_S4194304x1_0 : S4194304.BroadcastsInDim S4194304x1 (![0] : Fin 1 → Fin S4194304x1.rank)
  bcast_S16384_S1x16384_1 : S16384.BroadcastsInDim S1x16384 (![1] : Fin 1 → Fin S1x16384.rank)
  concatenates_S1x16384_S1x16384_S1x16384_S1x16384_S4x16384_d0 : Shape.Concatenates [S1x16384, S1x16384, S1x16384, S1x16384] S4x16384 0
  bcast_S4194304_S1x4194304_1 : S4194304.BroadcastsInDim S1x4194304 (![1] : Fin 1 → Fin S1x4194304.rank)
  concatenates_S1x4194304_S1x4194304_S1x4194304_S3x4194304_d0 : Shape.Concatenates [S1x4194304, S1x4194304, S1x4194304] S3x4194304 0
  scatter_S16384_S4194304x1_S4194304_n_0_0_1_wf : ScatterDims.WF S16384 S4194304x1 S4194304 [] [0] [0] 1

variable [Facts₀]

def scatter_S16384_S4194304x1_S4194304_n_0_0_1 : ScatterDims S16384 S4194304x1 S4194304 where
  updateWindowDims := []
  insertedWindowDims := [0]
  scatterDimsToOperandDims := [0]
  indexVectorDim := 1
  wf := scatter_S16384_S4194304x1_S4194304_n_0_0_1_wf

class Facts : Prop extends Facts₀ where

variable [Facts]
-- ==== Proof.KData.lean ====
/-
  The proof data of the one pipeline: what the region finds in each array, each window's block at a grid point, and
  what the kernel body leaves in each output window's buffer at a grid point `i = (b, h)`:
  * the image block [1,3,64,512] re-laid channel-last and flattened to [1,64,1536];
  * the patch numbers of the block's pixels [1,64,512];
  * the three coordinate slabs [3,1,64,512]: batch, row, column (three stores, one per slab).
-/
import proofs.«132806_j50629074485716_2_alg».proof.Proof.Gen.KernelIdeal.Launch
import proofs.«132806_j50629074485716_2_alg».proof.Proof.Gen.KernelIdeal.Skeleton
import proofs.«132806_j50629074485716_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

/-- Core `c`'s buffer contents when the region is entered: no host operation comes before it, so the launch memory. -/
abbrev V0 (c : Dev nD) : Valuation τ sig (Elt F) :=
  StableHlo.after (List.flatten ([] : List (List (HloOp τ sig (Elt F))))) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's rectangles: each access is a whole block or one slab of the coordinate block -/

abbrev rImg : Rect S1x3x64x512 := Rect.unit (s := S1x3x64x512) ![0, 0, 0, 0] S1x3x64x512.size inb_S1x3x64x512_S1x3x64x512_0_0_0_0
abbrev rFV : Rect S1x64x1536 := Rect.unit (s := S1x64x1536) ![0, 0, 0] S1x64x1536.size inb_S1x64x1536_S1x64x1536_0_0_0
abbrev rSeg : Rect S1x64x512 := Rect.unit (s := S1x64x512) ![0, 0, 0] S1x64x512.size inb_S1x64x512_S1x64x512_0_0_0
abbrev rB0 : Rect S3x1x64x512 := Rect.unit (s := S3x1x64x512) ![0, 0, 0, 0] S1x1x64x512.size inb_S3x1x64x512_S1x1x64x512_0_0_0_0
abbrev rB1 : Rect S3x1x64x512 := Rect.unit (s := S3x1x64x512) ![1, 0, 0, 0] S1x1x64x512.size inb_S3x1x64x512_S1x1x64x512_1_0_0_0
abbrev rB2 : Rect S3x1x64x512 := Rect.unit (s := S3x1x64x512) ![2, 0, 0, 0] S1x1x64x512.size inb_S3x1x64x512_S1x1x64x512_2_0_0_0

/-- The column numbers 0 … 511 of a [64,512] tile. -/
abbrev colIota : IVec S64x512 32 := iota .tc S64x512 32 [1] iota_S64x512_d1_w32

/-! ## What the body leaves in each output window's buffer -/

/-- The channel-last block: one store of the whole buffer. -/
def outFV (x0 : Vec F S1x3x64x512 .f32) : Vec F S1x64x1536 .f32 :=
  View.canon [⟨rFV, k0_pay2 (View.ld x0 rImg)⟩]

/-- The patch numbers at grid point `i`: one store of the whole buffer. -/
def outSeg (i : grid0.Coords) : Vec F S1x64x512 .i32 :=
  View.canon [⟨rSeg, k0_pay7 (BitVec.ofNat 32 (i 0).val) colIota (k0_pay4 i) 16#32 k0_pay5 k0_pay6⟩]

/-- The coordinate slabs at grid point `i`: three stores, the last first. -/
def outByx (i : grid0.Coords) : Vec F S3x1x64x512 .i32 :=
  View.canon [⟨rB2, k0_pay1 colIota⟩, ⟨rB1, k0_pay9 (k0_pay3 i)⟩, ⟨rB0, k0_pay8 (BitVec.ofNat 32 (i 0).val)⟩]

/-! ## The pipeline's proof data -/

/-- The arrays as the region finds them; after the body at point `t` the input's buffer at its block and each output's
    at what the body stores; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => outFV (iblk m c 0 t)
    | ⟨2, _⟩ => outSeg (grid0.coords t)
    | ⟨3, _⟩ => outByx (grid0.coords t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = outFV (iblk m c 0 t) := by dsimp only [dats]
theorem after0_2 (c : Dev nD) (t : Fin cfg0.N) : (dats m 0 c).after 2 t = outSeg (grid0.coords t) := by dsimp only [dats]
theorem after0_3 (c : Dev nD) (t : Fin cfg0.N) : (dats m 0 c).after 3 t = outByx (grid0.coords t) := by dsimp only [dats]

end Cert.KernelIdeal.Hand

end
-- ==== Proof.KFrame.lean ====
/-
  The frame of the program: @main is the region followed by host operations. The region runs to the end at every grid
  point — the body loads its image block, stores the re-laid block, the patch numbers and the three coordinate slabs —,
  the host operations after it write only buffers of their own, and the image is never written.
-/
import proofs.«132806_j50629074485716_2_alg».proof.Proof.KData

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The host operations after the region allocate nothing. -/
theorem hostOps1_fresh : (hostOps1 : List (HloOp τ sig (Elt F))).Forall fun op => op.fresh = ∅ := by
  simp only [List.Forall]; repeat' constructor

/-- @main is the region continued by the host operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] (by simp only [List.Forall])
    (by simp only [List.Forall]) main_chain

/-- The host operations touch the pipeline's arrays and the buffers that bypass the region only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)

theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop

/-- Each host operation writes only its own result buffer, which is no array of the pipeline. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.reshape_writes, StableHlo.nary_writes, Finset.mem_singleton] <;> exact StableHlo.devRef_ne_of_ne (by decide)

/-- The region finds the image as launched: nothing runs before it. -/
theorem V_main_arg0 (c : Dev nD) : V m c main_arg0 = m ((c : Thread nD τ).loc main_arg0) := rfl

/-! ## The image window's buffer holds its block at every point -/

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_0 (c : Dev nD) (t : Fin cfg0.N) (d) : (dats m 0 c).before 0 t d = iblk m c 0 t :=
  before0_0_of m (dats m 0 c) (A_eq m c 0) (after0_0 m c) t d

/-! ## The body's stores cover each output buffer -/

theorem storesCoverFV (p0 : Vec F S1x64x1536 .f32) (y : S1x64x1536.Idx) :
    ∃ pc ∈ ([⟨rFV, p0⟩] : List (View.Piece (Elt F) S1x64x1536 .f32)), y ∈ pc.1.set :=
  View.cover_of_tiled [⟨rFV, p0⟩] S1x64x1536.size (by rfl) y

theorem storesCoverSeg (p0 : Vec F S1x64x512 .i32) (y : S1x64x512.Idx) :
    ∃ pc ∈ ([⟨rSeg, p0⟩] : List (View.Piece (Elt F) S1x64x512 .i32)), y ∈ pc.1.set :=
  View.cover_of_tiled [⟨rSeg, p0⟩] S1x64x512.size (by rfl) y

theorem storesCoverByx (p0 p1 p2 : Vec F S1x1x64x512 .i32) (y : S3x1x64x512.Idx) :
    ∃ pc ∈ ([⟨rB2, p0⟩, ⟨rB1, p1⟩, ⟨rB0, p2⟩] : List (View.Piece (Elt F) S3x1x64x512 .i32)), y ∈ pc.1.set :=
  View.cover_of_tiled [⟨rB2, p0⟩, ⟨rB1, p1⟩, ⟨rB0, p2⟩] S1x1x64x512.size (by rfl) y

/-! ## The body's triple -/

set_option maxHeartbeats 1000000 in
/-- The body on whole staging memrefs, the image block's at contents `x0` and the outputs' at anything, runs to the
    continuation holding the image block's as it was and each output's at what its stores leave. -/
theorem sound_kernel (c : Dev nD) (E : Set ℕ) (i : grid0.Coords)
    (arg2 : Memref sig .tc .vmem S1x3x64x512 .f32) (harg2 : arg2.IsWhole) (arg3 : Memref sig .tc .vmem S1x64x1536 .f32) (harg3 : arg3.IsWhole)
    (arg4 : Memref sig .tc .vmem S1x64x512 .i32) (harg4 : arg4.IsWhole) (arg5 : Memref sig .tc .vmem S3x1x64x512 .i32) (harg5 : arg5.IsWhole)
    (x0 : Vec F S1x3x64x512 .f32) (K : PUnit → sProp 𝕄) :
    iprop(owns (c : Thread nD τ) arg2 fullShare x0 ∗ (∃ d, owns (c : Thread nD τ) arg3 fullShare d)
        ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare (outFV x0)
            ∗ owns (c : Thread nD τ) arg4 fullShare (outSeg (F := F) i) ∗ owns (c : Thread nD τ) arg5 fullShare (outByx (F := F) i)) -∗ K ⟨⟩))
      ⊢ wp frame (wpE (defs₀ (F := F)) Variants.none c none) E (cc0_tokenize_kernel i arg2 harg2 arg3 harg3 arg4 harg4 arg5 harg5) K := by
  simp only [cc0_tokenize_kernel_eq_skeleton]; unfold cc0_tokenize_kernel_skel
  simp only [k0_part1_eq_skeleton]; unfold k0_part1_skel
  simp only [k0_part2_eq_skeleton]; unfold k0_part2_skel
  unfold owns
  iintro ⟨⟨%f0, %hf0, H0⟩, ⟨%d1, %f1, -, H1⟩, ⟨%d2, %f2, -, H2⟩, ⟨%d3, %f3, -, H3⟩, Hk⟩
  subst hf0
  sl_exec
  sl_step
  iapply Hk
  isplitl [H0]
  · iexists f0; isplitr; · ipureintro; rfl
    iexact H0
  isplitl [H1]
  · iexists _; isplitr
    swap; · iexact H1
    ipureintro
    try dsimp only
    exact View.read_writes_eq_canon _ _ _ (storesCoverFV _)
  isplitl [H2]
  · iexists _; isplitr
    swap; · iexact H2
    ipureintro
    try dsimp only
    exact View.read_writes_eq_canon _ _ _ (storesCoverSeg _)
  iexists _; isplitr
  swap; · iexact H3
  ipureintro
  try dsimp only
  exact View.read_writes_eq_canon _ _ _ (storesCoverByx _ _ _)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the image window's memref holds its block, so the triple applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) _)
  isplitl [H0]; · iexact H0
  isplitl [H1]; · iexists _; iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, every array of the pipeline ends at what its write-backs leave and
    every other unscoped buffer as the host operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The program runs to the end, faults nowhere, and leaves the image as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).1 0).trans (((dats m 0 c).arrAt_in 0 rfl _).trans ((A_eq m c 0).trans (V_main_arg0 m c)))) (run_main m ρ)

end Cert.KernelIdeal.Hand

end
-- ==== Proof.KDataBits.lean ====
/-
  The proof data of the one pipeline: what the region finds in each array, each window's block at a grid point, and
  what the kernel body leaves in each output window's buffer at a grid point `i = (b, h)`:
  * the image block [1,3,64,512] re-laid channel-last and flattened to [1,64,1536];
  * the patch numbers of the block's pixels [1,64,512];
  * the three coordinate slabs [3,1,64,512]: batch, row, column (three stores, one per slab).
-/
import proofs.«132806_j50629074485716_2_alg».proof.Proof.Gen.Kernel.Launch
import proofs.«132806_j50629074485716_2_alg».proof.Proof.Gen.Kernel.Skeleton
import proofs.«132806_j50629074485716_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ) (ρ : Dev nD → PrngReg)

/-- Core `c`'s buffer contents when the region is entered: no host operation comes before it, so the launch memory. -/
abbrev V0 (c : Dev nD) : Valuation τ sig (Elt F) :=
  StableHlo.after (List.flatten ([] : List (List (HloOp τ sig (Elt F))))) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's rectangles: each access is a whole block or one slab of the coordinate block -/

abbrev rImg : Rect S1x3x64x512 := Rect.unit (s := S1x3x64x512) ![0, 0, 0, 0] S1x3x64x512.size inb_S1x3x64x512_S1x3x64x512_0_0_0_0
abbrev rFV : Rect S1x64x1536 := Rect.unit (s := S1x64x1536) ![0, 0, 0] S1x64x1536.size inb_S1x64x1536_S1x64x1536_0_0_0
abbrev rSeg : Rect S1x64x512 := Rect.unit (s := S1x64x512) ![0, 0, 0] S1x64x512.size inb_S1x64x512_S1x64x512_0_0_0
abbrev rB0 : Rect S3x1x64x512 := Rect.unit (s := S3x1x64x512) ![0, 0, 0, 0] S1x1x64x512.size inb_S3x1x64x512_S1x1x64x512_0_0_0_0
abbrev rB1 : Rect S3x1x64x512 := Rect.unit (s := S3x1x64x512) ![1, 0, 0, 0] S1x1x64x512.size inb_S3x1x64x512_S1x1x64x512_1_0_0_0
abbrev rB2 : Rect S3x1x64x512 := Rect.unit (s := S3x1x64x512) ![2, 0, 0, 0] S1x1x64x512.size inb_S3x1x64x512_S1x1x64x512_2_0_0_0

/-- The column numbers 0 … 511 of a [64,512] tile. -/
abbrev colIota : IVec S64x512 32 := iota .tc S64x512 32 [1] iota_S64x512_d1_w32

/-! ## What the body leaves in each output window's buffer -/

/-- The channel-last block: one store of the whole buffer. -/
def outFV (x0 : Vec F S1x3x64x512 .f32) : Vec F S1x64x1536 .f32 :=
  View.canon [⟨rFV, k0_pay2 (View.ld x0 rImg)⟩]

/-- The patch numbers at grid point `i`: one store of the whole buffer. -/
def outSeg (i : grid0.Coords) : Vec F S1x64x512 .i32 :=
  View.canon [⟨rSeg, k0_pay7 (BitVec.ofNat 32 (i 0).val) colIota (k0_pay4 i) 16#32 k0_pay5 k0_pay6⟩]

/-- The coordinate slabs at grid point `i`: three stores, the last first. -/
def outByx (i : grid0.Coords) : Vec F S3x1x64x512 .i32 :=
  View.canon [⟨rB2, k0_pay1 colIota⟩, ⟨rB1, k0_pay9 (k0_pay3 i)⟩, ⟨rB0, k0_pay8 (BitVec.ofNat 32 (i 0).val)⟩]

/-! ## The pipeline's proof data -/

/-- The arrays as the region finds them; after the body at point `t` the input's buffer at its block and each output's
    at what the body stores; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => outFV (iblk m c 0 t)
    | ⟨2, _⟩ => outSeg (grid0.coords t)
    | ⟨3, _⟩ => outByx (grid0.coords t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = outFV (iblk m c 0 t) := by dsimp only [dats]
theorem after0_2 (c : Dev nD) (t : Fin cfg0.N) : (dats m 0 c).after 2 t = outSeg (grid0.coords t) := by dsimp only [dats]
theorem after0_3 (c : Dev nD) (t : Fin cfg0.N) : (dats m 0 c).after 3 t = outByx (grid0.coords t) := by dsimp only [dats]

end Cert.Kernel.Hand

end
-- ==== Proof.KFrameBits.lean ====
/-
  The frame of the program: @main is the region followed by host operations. The region runs to the end at every grid
  point — the body loads its image block, stores the re-laid block, the patch numbers and the three coordinate slabs —,
  the host operations after it write only buffers of their own, and the image is never written.
-/
import proofs.«132806_j50629074485716_2_alg».proof.Proof.KDataBits

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The host operations after the region allocate nothing. -/
theorem hostOps1_fresh : (hostOps1 : List (HloOp τ sig (Elt F))).Forall fun op => op.fresh = ∅ := by
  simp only [List.Forall]; repeat' constructor

/-- @main is the region continued by the host operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] (by simp only [List.Forall])
    (by simp only [List.Forall]) main_chain

/-- The host operations touch the pipeline's arrays and the buffers that bypass the region only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)

theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop

/-- Each host operation writes only its own result buffer, which is no array of the pipeline. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.reshape_writes, StableHlo.nary_writes, Finset.mem_singleton] <;> exact StableHlo.devRef_ne_of_ne (by decide)

/-- The region finds the image as launched: nothing runs before it. -/
theorem V_main_arg0 (c : Dev nD) : V m c main_arg0 = m ((c : Thread nD τ).loc main_arg0) := rfl

/-! ## The image window's buffer holds its block at every point -/

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_0 (c : Dev nD) (t : Fin cfg0.N) (d) : (dats m 0 c).before 0 t d = iblk m c 0 t :=
  before0_0_of m (dats m 0 c) (A_eq m c 0) (after0_0 m c) t d

/-! ## The body's stores cover each output buffer -/

theorem storesCoverFV (p0 : Vec F S1x64x1536 .f32) (y : S1x64x1536.Idx) :
    ∃ pc ∈ ([⟨rFV, p0⟩] : List (View.Piece (Elt F) S1x64x1536 .f32)), y ∈ pc.1.set :=
  View.cover_of_tiled [⟨rFV, p0⟩] S1x64x1536.size (by rfl) y

theorem storesCoverSeg (p0 : Vec F S1x64x512 .i32) (y : S1x64x512.Idx) :
    ∃ pc ∈ ([⟨rSeg, p0⟩] : List (View.Piece (Elt F) S1x64x512 .i32)), y ∈ pc.1.set :=
  View.cover_of_tiled [⟨rSeg, p0⟩] S1x64x512.size (by rfl) y

theorem storesCoverByx (p0 p1 p2 : Vec F S1x1x64x512 .i32) (y : S3x1x64x512.Idx) :
    ∃ pc ∈ ([⟨rB2, p0⟩, ⟨rB1, p1⟩, ⟨rB0, p2⟩] : List (View.Piece (Elt F) S3x1x64x512 .i32)), y ∈ pc.1.set :=
  View.cover_of_tiled [⟨rB2, p0⟩, ⟨rB1, p1⟩, ⟨rB0, p2⟩] S1x1x64x512.size (by rfl) y

/-! ## The body's triple -/

set_option maxHeartbeats 1000000 in
/-- The body on whole staging memrefs, the image block's at contents `x0` and the outputs' at anything, runs to the
    continuation holding the image block's as it was and each output's at what its stores leave. -/
theorem sound_kernel (c : Dev nD) (E : Set ℕ) (i : grid0.Coords)
    (arg2 : Memref sig .tc .vmem S1x3x64x512 .f32) (harg2 : arg2.IsWhole) (arg3 : Memref sig .tc .vmem S1x64x1536 .f32) (harg3 : arg3.IsWhole)
    (arg4 : Memref sig .tc .vmem S1x64x512 .i32) (harg4 : arg4.IsWhole) (arg5 : Memref sig .tc .vmem S3x1x64x512 .i32) (harg5 : arg5.IsWhole)
    (x0 : Vec F S1x3x64x512 .f32) (K : PUnit → sProp 𝕄) :
    iprop(owns (c : Thread nD τ) arg2 fullShare x0 ∗ (∃ d, owns (c : Thread nD τ) arg3 fullShare d)
        ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare (outFV x0)
            ∗ owns (c : Thread nD τ) arg4 fullShare (outSeg (F := F) i) ∗ owns (c : Thread nD τ) arg5 fullShare (outByx (F := F) i)) -∗ K ⟨⟩))
      ⊢ wp frame (wpE (defs₀ (F := F)) Variants.none c none) E (cc0_tokenize_kernel i arg2 harg2 arg3 harg3 arg4 harg4 arg5 harg5) K := by
  simp only [cc0_tokenize_kernel_eq_skeleton]; unfold cc0_tokenize_kernel_skel
  simp only [k0_part1_eq_skeleton]; unfold k0_part1_skel
  simp only [k0_part2_eq_skeleton]; unfold k0_part2_skel
  unfold owns
  iintro ⟨⟨%f0, %hf0, H0⟩, ⟨%d1, %f1, -, H1⟩, ⟨%d2, %f2, -, H2⟩, ⟨%d3, %f3, -, H3⟩, Hk⟩
  subst hf0
  sl_exec
  sl_step
  iapply Hk
  isplitl [H0]
  · iexists f0; isplitr; · ipureintro; rfl
    iexact H0
  isplitl [H1]
  · iexists _; isplitr
    swap; · iexact H1
    ipureintro
    try dsimp only
    exact View.read_writes_eq_canon _ _ _ (storesCoverFV _)
  isplitl [H2]
  · iexists _; isplitr
    swap; · iexact H2
    ipureintro
    try dsimp only
    exact View.read_writes_eq_canon _ _ _ (storesCoverSeg _)
  iexists _; isplitr
  swap; · iexact H3
  ipureintro
  try dsimp only
  exact View.read_writes_eq_canon _ _ _ (storesCoverByx _ _ _)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the image window's memref holds its block, so the triple applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) _)
  isplitl [H0]; · iexact H0
  isplitl [H1]; · iexists _; iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, every array of the pipeline ends at what its write-backs leave and
    every other unscoped buffer as the host operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The program runs to the end, faults nowhere, and leaves the image as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).1 0).trans (((dats m 0 c).arrAt_in 0 rfl _).trans ((A_eq m c 0).trans (V_main_arg0 m c)))) (run_main m ρ)

end Cert.Kernel.Hand

end
-- ==== Proof.Spec.lean ====
/-
  The specification: each of the four results as ONE function of the image, index by index.

  A pixel number `e < 16·512·512` names the pixel (batch `e / 512²`, row `(e / 512) % 512`, column `e % 512`).
  * `G1`: the channel-last image, `fV[e, ch] = img[b, ch, y, x]`.
  * `G2`: the patch number of pixel `e`: `b·32² + (y / 16)·32 + x / 16`.
  * `G3`: the three coordinate rows `b`, `y`, `x` of pixel `e`.
  * `G4`: the bounding box of patch `s = b·32² + hp·32 + wp`: rows `16·hp`, `16·wp`, `16·hp + 15`, `16·wp + 15`.
-/
import Idealize.ShloMosaic.PureOps.Ideal
import Idealize.ShloMosaic.Lib.ValueIdx

noncomputable section

namespace Cert.Spec

open Idealize.ShloMosaic Idealize.ShloMosaic.ValueIdx

/-- The batch, row and column of pixel number `e`. -/
def pb (e : Nat) : Nat := e / 262144
def py (e : Nat) : Nat := (e / 512) % 512
def px (e : Nat) : Nat := e % 512

theorem pb_lt {e : Nat} (h : e < 4194304) : pb e < 16 := by unfold pb; omega
theorem py_lt (e : Nat) : py e < 512 := by unfold py; omega
theorem px_lt (e : Nat) : px e < 512 := by unfold px; omega

/-- Pixel `e` is its three coordinates. -/
theorem pix_eq (e : Nat) : e = pb e * 262144 + py e * 512 + px e := by unfold pb py px; omega

/-- The patch row and column of patch number `s`. -/
def php (s : Nat) : Nat := (s / 32) % 32
def pwp (s : Nat) : Nat := s % 32

/-- The channel-last image: entry `(e, ch)` is the image at batch, channel `ch`, row, column of pixel `e`. -/
def G1 {α : Type} (img : (⟨4, ![16, 3, 512, 512]⟩ : Shape).Idx → α) : (⟨2, ![4194304, 3]⟩ : Shape).Idx → α :=
  fun i => img (ix4 (⟨pb (i 0).val, pb_lt (i 0).isLt⟩ : Fin 16) (⟨(i 1).val, (i 1).isLt⟩ : Fin 3)
    (⟨py (i 0).val, py_lt _⟩ : Fin 512) (⟨px (i 0).val, px_lt _⟩ : Fin 512))

/-- The patch number of pixel `e` as a number. -/
def segN (e : Nat) : Nat := pb e * 1024 + (py e / 16) * 32 + px e / 16

theorem segN_lt {e : Nat} (h : e < 4194304) : segN e < 16384 := by
  have := pb_lt h; have := py_lt e; have := px_lt e; unfold segN; omega

/-- The patch number of each pixel, as a 32-bit word. -/
def G2 : (⟨1, ![4194304]⟩ : Shape).Idx → BitVec 32 :=
  fun i => BitVec.ofNat 32 (segN (i 0).val)

/-- Row 0, 1, 2 of the coordinate table: the batch, the row, the column of each pixel. -/
def byxN (r e : Nat) : Nat := if r = 0 then pb e else if r = 1 then py e else px e

def G3 : (⟨2, ![3, 4194304]⟩ : Shape).Idx → BitVec 32 :=
  fun i => BitVec.ofNat 32 (byxN (i 0).val (i 1).val)

/-- Row 0 … 3 of the bounding boxes: least row, least column, greatest row, greatest column of patch `s`. -/
def bbN (r s : Nat) : Nat :=
  if r = 0 then php s * 16 else if r = 1 then pwp s * 16 else if r = 2 then php s * 16 + 15 else pwp s * 16 + 15

def G4 : (⟨2, ![4, 16384]⟩ : Shape).Idx → BitVec 32 :=
  fun i => BitVec.ofNat 32 (bbN (i 0).val (i 1).val)

end Cert.Spec

end
-- ==== Proof.KSpec.lean ====
/-
  The kernel's three output arrays before the final reshapes, each as ONE function of the image, index by index:
  * `A1`: [16,512,1536]: entry `(b, y, l)` is the image at batch `b`, channel `l % 3`, row `y`, column `l / 3`;
  * `A2`: [16,512,512]: entry `(b, y, x)` is the patch number `b·1024 + (y / 16)·32 + x / 16`;
  * `A3`: [3,16,512,512]: entry `(r, b, y, x)` is `b`, `y` or `x` as `r` is 0, 1 or 2.
-/
import proofs.«132806_j50629074485716_2_alg».proof.Proof.Spec

noncomputable section

namespace Cert.Spec

open Idealize.ShloMosaic Idealize.ShloMosaic.ValueIdx

def A1 {α : Type} (img : (⟨4, ![16, 3, 512, 512]⟩ : Shape).Idx → α) : (⟨3, ![16, 512, 1536]⟩ : Shape).Idx → α :=
  fun j => img (ix4 (⟨(j 0).val, (j 0).isLt⟩ : Fin 16) (⟨(j 2).val % 3, Nat.mod_lt _ (by decide)⟩ : Fin 3)
    (⟨(j 1).val, (j 1).isLt⟩ : Fin 512) (⟨(j 2).val / 3, by have := (j 2).isLt; show (j 2).val / 3 < 512; have h : (j 2).val < 1536 := this; omega⟩ : Fin 512))

def A2 : (⟨3, ![16, 512, 512]⟩ : Shape).Idx → BitVec 32 :=
  fun j => BitVec.ofNat 32 ((j 0).val * 1024 + ((j 1).val / 16) * 32 + (j 2).val / 16)

def A3 : (⟨4, ![3, 16, 512, 512]⟩ : Shape).Idx → BitVec 32 :=
  fun j => BitVec.ofNat 32 (if (j 0).val = 0 then (j 1).val else if (j 0).val = 1 then (j 2).val else (j 3).val)

end Cert.Spec

end
-- ==== Proof.KValFVPay.lean ====
/-
  The re-laid image block at an entry. The body reads the image block [1,3,64,512] (one batch, three channels,
  64 rows, 512 columns), drops the unit axis, moves the channel axis last ([64,512,3]) and flattens each row's
  (column, channel) pairs into 1536 lanes ([64,1536], then [1,64,1536]). Lane `l` of row `y` is therefore
  column `l / 3`, channel `l % 3`: entry `(0, y, l)` of the stored block is the image block's entry
  `(0, l % 3, y, l / 3)`.
-/
import proofs.«132806_j50629074485716_2_alg».proof.Proof.Gen.KernelIdeal.Skeleton
import Idealize.ShloMosaic.Lib.Pipeline.Value
import Idealize.ShloMosaic.Lib.ValueIdx

noncomputable section

namespace Cert.KernelIdeal.Hand

open Idealize.ShloMosaic Idealize.ShloMosaic.ValueIdx
open Cert.KernelIdeal Cert.KernelIdeal.Gen

variable {F : FTy → Type} [FloatOps F]

/-- The stored block at `(0, y, l)` is the loaded block at `(0, l % 3, y, l / 3)`. -/
theorem pay2_ix (x0 : Vec F S1x3x64x512 .f32) (y : Fin 64) (l : Fin 1536) :
    k0_pay2 x0 (ix3 (0 : Fin 1) y l)
      = x0 (ix4 (0 : Fin 1) (⟨l.val % 3, Nat.mod_lt _ (by decide)⟩ : Fin 3) y (⟨l.val / 3, by have := l.isLt; omega⟩ : Fin 512)) := by
  let ch : Fin 3 := ⟨l.val % 3, Nat.mod_lt _ (by decide)⟩
  let x : Fin 512 := ⟨l.val / 3, by have := l.isLt; omega⟩
  show shapeCast S1x64x1536 (shapeCast S64x1536 (transpose S64x512x3 [1, 2, 0]
      (shapeCast S3x64x512 x0 shapeCasts_S1x3x64x512_S3x64x512) transposes_S3x64x512_p1_2_0_S64x512x3)
      shapeCasts_S64x512x3_S64x1536) shapeCasts_S64x1536_S1x64x1536 (ix3 (0 : Fin 1) y l) = x0 (ix4 (0 : Fin 1) ch y x)
  -- [64,1536] as [1,64,1536]
  refine (shapeCast_apply _ shapeCasts_S64x1536_S1x64x1536 (ix3 (0 : Fin 1) y l) (ix2 y l) ?_).trans ?_
  · rw [Shape.rowMajor_val_two, Shape.rowMajor_val_three]
    show y.val * 1536 + l.val = (0 * 64 + y.val) * 1536 + l.val
    omega
  -- [64,512,3] as [64,1536]: lane l is column l / 3, channel l % 3
  refine (shapeCast_apply _ shapeCasts_S64x512x3_S64x1536 (ix2 y l) (ix3 y x ch) ?_).trans ?_
  · rw [Shape.rowMajor_val_three, Shape.rowMajor_val_two]
    show (y.val * 512 + l.val / 3) * 3 + l.val % 3 = y.val * 1536 + l.val
    omega
  -- the channel axis moved last
  refine (transpose_apply _ _ transposes_S3x64x512_p1_2_0_S64x512x3 (ix3 y x ch) (ix3 ch y x) ?_).trans ?_
  · intro b
    match b with
    | ⟨0, _⟩ => rfl
    | ⟨1, _⟩ => rfl
    | ⟨2, _⟩ => rfl
  -- the unit axis dropped
  refine shapeCast_apply _ shapeCasts_S1x3x64x512_S3x64x512 (ix3 ch y x) (ix4 (0 : Fin 1) ch y x) ?_
  rw [Shape.rowMajor_val_four, Shape.rowMajor_val_three]
  show ((0 * 3 + ch.val) * 64 + y.val) * 512 + x.val = (ch.val * 64 + y.val) * 512 + x.val
  omega

/-- The same over any two indices with those coordinates. -/
theorem pay2_apply (x0 : Vec F S1x3x64x512 .f32) (j : S1x64x1536.Idx) (k : S1x3x64x512.Idx)
    (h1 : (k 1).val = (j 2).val % 3) (h2 : (k 2).val = (j 1).val) (h3 : (k 3).val = (j 2).val / 3) :
    k0_pay2 x0 j = x0 k := by
  have hj : j = ix3 (0 : Fin 1) (j 1 : Fin 64) (j 2 : Fin 1536) := by
    funext a
    match a with
    | ⟨0, _⟩ => exact Fin.ext (by have h : (j 0).val < 1 := (j 0).isLt; show (j 0).val = 0; omega)
    | ⟨1, _⟩ => rfl
    | ⟨2, _⟩ => rfl
  refine (congrArg (k0_pay2 x0) hj).trans ((pay2_ix x0 (j 1) (j 2)).trans ?_)
  refine congrArg x0 (funext fun a => Fin.ext ?_)
  match a with
  | ⟨0, _⟩ => have h : (k 0).val < 1 := (k 0).isLt; show 0 = (k 0).val; omega
  | ⟨1, _⟩ => exact h1.symm
  | ⟨2, _⟩ => exact h2.symm
  | ⟨3, _⟩ => exact h3.symm

end Cert.KernelIdeal.Hand

end
-- ==== Proof.KValFV.lean ====
/-
  The kernel's channel-last array [16,512,1536] after the region. Grid point (b, h) stores, as block (b, h, 0) of
  the array, the image's block (b, 0, h, 0) re-laid channel-last: entry (0, y, l) of the stored block is the
  image block's entry (0, l % 3, y, l / 3) (KValFVPay). A block's entry sits in its array at block index times
  block size plus the entry's coordinate, so entry (b, 64 h + y, l) of the array is the image at batch b,
  channel l % 3, row 64 h + y, column l / 3: the blocks are restrictions of one function of the image, and the
  128 blocks cover the array.
-/
import proofs.«132806_j50629074485716_2_alg».proof.Proof.KData
import proofs.«132806_j50629074485716_2_alg».proof.Proof.KSpec
import proofs.«132806_j50629074485716_2_alg».proof.Proof.KValFVPay
import Idealize.ShloMosaic.Lib.Pipeline.Value

noncomputable section

namespace Cert.KernelIdeal.Hand

open Idealize.ShloMosaic Idealize.ShloMosaic.TcCoe
open Idealize.SL Idealize.SL.Sem
open Idealize.ShloMosaic.Pipeline (Dat Cfg Window BodyObligation cellOf)
open Cert.KernelIdeal Cert.KernelIdeal.Gen
open Idealize.ShloMosaic.ValueIdx

variable (m : (ℓ : Loc nD τ sig) → Buf (Elt Ideal) ℓ)

theorem hzFV3 : (![0, 0, 0] : Fin 3 → Nat) = fun _ => 0 := funext fun a => by fin_cases a <;> rfl
theorem hzFV4 : (![0, 0, 0, 0] : Fin 4 → Nat) = fun _ => 0 := funext fun a => by fin_cases a <;> rfl

/-- The two windows' block indices at a grid point, decided over the grid: the image's block (b, 0, h, 0) goes
    with the array's block (b, h, 0), b < 16, h < 8. -/
theorem idx_facts1 : ∀ t : Fin cfg0.N,
    win0_0.index t (0 : Fin 4) = win0_1.index t (0 : Fin 3)
    ∧ win0_0.index t (1 : Fin 4) = 0
    ∧ win0_0.index t (2 : Fin 4) = win0_1.index t (1 : Fin 3)
    ∧ win0_0.index t (3 : Fin 4) = 0
    ∧ win0_1.index t (2 : Fin 3) = 0
    ∧ win0_1.index t (0 : Fin 3) ≤ 15
    ∧ win0_1.index t (1 : Fin 3) ≤ 7 :=
  (by decide +kernel : ∀ t : Fin grid0.N, _)

/-- Every block (b, h, 0) of the array is some grid point's. -/
theorem idx_onto1 : ∀ (q0 : Fin 16) (q1 : Fin 8), ∃ t : Fin cfg0.N, win0_1.index t = ![q0.val, q1.val, 0] :=
  (by decide +kernel : ∀ (q0 : Fin 16) (q1 : Fin 8), ∃ t : Fin grid0.N, win0_1.index t = ![q0.val, q1.val, 0])

/-- What a grid point writes back is its block of the channel-last image. -/
theorem flushed1_eq (c : Dev nD) (t : Fin cfg0.N) :
    (dats m 0 c).flushed 1 t
      = ((cfg0.win 1).blk t).view.read (Elt Ideal) (Cert.Spec.A1 (m ((c : Thread nD τ).loc main_arg0))) := by
  show (cfg0.win 1).cut (grid0.coords t) ((dats m 0 c).after 1 t) = _
  rw [after0_1]
  unfold outFV
  rw [View.canon_unit_zero hzFV3]
  simp only [View.ld_unit_zero (S := S1x3x64x512) hzFV4]
  obtain ⟨e0, e1, e2, e3, e4, e5, e6⟩ := idx_facts1 t
  funext j
  have hj0 : (j 0).val < 1 := (j 0).isLt
  have hj1 : (j 1).val < 64 := (j 1).isLt
  have hj2 : (j 2).val < 1536 := (j 2).isLt
  show k0_pay2 (iblk m c 0 t) j = Cert.Spec.A1 (m ((c : Thread nD τ).loc main_arg0)) (((cfg0.win 1).blk t).view.emb j)
  -- the image block's entry the stored entry is
  refine (pay2_apply (F := Ideal) (iblk m c 0 t) j
    (ix4 (0 : Fin 1) (⟨(j 2).val % 3, Nat.mod_lt _ (by decide)⟩ : Fin 3) (⟨(j 1).val, hj1⟩ : Fin 64)
      (⟨(j 2).val / 3, by omega⟩ : Fin 512)) rfl rfl rfl).trans ?_
  -- where that entry sits in the image, and where the stored entry sits in the array
  show V m c main_arg0 (((cfg0.win 0).blk t).view.emb (ix4 (0 : Fin 1) (⟨(j 2).val % 3, Nat.mod_lt _ (by decide)⟩ : Fin 3)
      (⟨(j 1).val, hj1⟩ : Fin 64) (⟨(j 2).val / 3, by omega⟩ : Fin 512))) = _
  unfold Cert.Spec.A1
  refine congrArg (m ((c : Thread nD τ).loc main_arg0)) (funext fun a => Fin.ext ?_)
  match a with
  | ⟨0, _⟩ =>
    show win0_0.index t (0 : Fin 4) * 1 + 1 * 0 = win0_1.index t (0 : Fin 3) * 1 + 1 * (j 0).val
    omega
  | ⟨1, _⟩ =>
    show win0_0.index t (1 : Fin 4) * 3 + 1 * ((j 2).val % 3) = (win0_1.index t (2 : Fin 3) * 1536 + 1 * (j 2).val) % 3
    omega
  | ⟨2, _⟩ =>
    show win0_0.index t (2 : Fin 4) * 64 + 1 * (j 1).val = win0_1.index t (1 : Fin 3) * 64 + 1 * (j 1).val
    omega
  | ⟨3, _⟩ =>
    show win0_0.index t (3 : Fin 4) * 512 + 1 * ((j 2).val / 3) = (win0_1.index t (2 : Fin 3) * 1536 + 1 * (j 2).val) / 3
    omega

/-- An entry of the array is in a grid point's block iff each coordinate is in the block's range on its axis. -/
theorem mem_blk1 (t : Fin cfg0.N) (i : S16x512x1536.Idx) :
    i ∈ ((cfg0.win 1).blk t).view.set ↔ ∀ a : Fin 3, win0_1.index t a * S1x64x1536.size a ≤ (i a).val
      ∧ (i a).val < win0_1.index t a * S1x64x1536.size a + S1x64x1536.size a := by
  show i ∈ ((View.whole main_v0_0).slice (win0_1.rect t)).set ↔ _
  rw [View.set_slice_whole, Rect.mem_set_unit]
  exact Iff.rfl

/-- Every entry (b, r, l) of the array is in the block of the grid point (b, r / 64). -/
theorem cover1 (i : S16x512x1536.Idx) :
    ∃ t : Fin cfg0.N, (cfg0.win 1).flush t = true ∧ i ∈ ((cfg0.win 1).blk t).view.set := by
  have hi0 : (i 0).val < 16 := (i 0).isLt
  have hi1 : (i 1).val < 512 := (i 1).isLt
  have hi2 : (i 2).val < 1536 := (i 2).isLt
  obtain ⟨t, ht⟩ := idx_onto1 ⟨(i 0).val, hi0⟩ ⟨(i 1).val / 64, by omega⟩
  have q0 : win0_1.index t (0 : Fin 3) = (i 0).val := congrFun ht 0
  have q1 : win0_1.index t (1 : Fin 3) = (i 1).val / 64 := congrFun ht 1
  have q2 : win0_1.index t (2 : Fin 3) = 0 := congrFun ht 2
  refine ⟨t, flush0_1 t, ?_⟩
  rw [mem_blk1]
  intro a
  match a with
  | ⟨0, _⟩ =>
    show win0_1.index t (0 : Fin 3) * 1 ≤ (i 0).val ∧ (i 0).val < win0_1.index t (0 : Fin 3) * 1 + 1
    omega
  | ⟨1, _⟩ =>
    show win0_1.index t (1 : Fin 3) * 64 ≤ (i 1).val ∧ (i 1).val < win0_1.index t (1 : Fin 3) * 64 + 64
    omega
  | ⟨2, _⟩ =>
    show win0_1.index t (2 : Fin 3) * 1536 ≤ (i 2).val ∧ (i 2).val < win0_1.index t (2 : Fin 3) * 1536 + 1536
    omega

/-- The array after the region is the channel-last image. -/
theorem final1 (c : Dev nD) : (dats m 0 c).arrAt 1 cfg0.N = Cert.Spec.A1 (m ((c : Thread nD τ).loc main_arg0)) :=
  (dats m 0 c).arrAt_eq_of_cover 1 (Cert.Spec.A1 (m ((c : Thread nD τ).loc main_arg0)))
    (fun t _ => flushed1_eq m c t) cover1

end Cert.KernelIdeal.Hand

end
-- ==== Proof.KValWord.lean ====
/-
  Word arithmetic of the kernel's integer payloads.

  Every integer word the kernel computes is a small non-negative number (a batch below 16, a row or a
  column below 512, a patch number below 16384). On such words the machine's signed division and remainder
  are the ones on natural numbers (no division corner is met), and the kernel's floor-division chain
  (the truncated quotient, less one where the signs of dividend and divisor differ and the remainder
  is not zero) never takes its correction: it denotes the quotient of the numbers.
-/
import proofs.«132806_j50629074485716_2_alg».proof.Proof.KData
import Idealize.ShloMosaic.Lib.Pipeline.Value
import Idealize.ShloMosaic.Lib.ValueIdx
import Idealize.ShloMosaic.Lib.ValueLayout

noncomputable section
namespace Cert.KernelIdeal.Hand
open Idealize.ShloMosaic Idealize.ShloMosaic.TcCoe Idealize.ShloMosaic.ValueIdx
open Cert.KernelIdeal Cert.KernelIdeal.Gen

/-! ### Small words -/

/-- A word below 2^31 has its sign bit clear. -/
theorem msb_small {x : BitVec 32} (h : x.toNat < 2 ^ 31) : x.msb = false := by
  rw [BitVec.msb_eq_false_iff_two_mul_lt]; omega

/-- A number below 2^32, as a word, denotes itself. -/
theorem toNat_ofNat_small {k : Nat} (hk : k < 2 ^ 32) : (BitVec.ofNat 32 k).toNat = k := by
  rw [BitVec.toNat_ofNat, Nat.mod_eq_of_lt hk]

/-- Non-negative dividend, positive divisor: no division corner. -/
theorem not_corner_small {x c : BitVec 32} (hx : x.toNat < 2 ^ 31) (hc : 0 < c.toNat) : ¬ IntOp.SDivCorner x c := by
  rintro (h | ⟨h, -⟩)
  · rw [h] at hc; simp at hc
  · rw [h] at hx; simp [BitVec.toNat_intMin] at hx

/-- The signed quotient of a non-negative word by a positive one is the quotient of the numbers. -/
theorem divsi_small (u : ArithUnit) {x c : BitVec 32} (hx : x.toNat < 2 ^ 31) (hc0 : 0 < c.toNat) (hc : c.toNat < 2 ^ 31) :
    IntOp.divsi u x c = BitVec.ofNat 32 (x.toNat / c.toNat) := by
  unfold IntOp.divsi
  rw [if_neg (not_corner_small hx hc0), BitVec.sdiv_eq, msb_small hx, msb_small hc]
  show x.udiv c = _
  rw [BitVec.udiv_eq]
  apply BitVec.eq_of_toNat_eq
  rw [BitVec.toNat_udiv, toNat_ofNat_small]
  exact lt_of_le_of_lt (Nat.div_le_self _ _) (by omega)

/-- The signed remainder of a non-negative word by a positive one is the remainder of the numbers. -/
theorem remsi_small (u : ArithUnit) {x c : BitVec 32} (hx : x.toNat < 2 ^ 31) (hc0 : 0 < c.toNat) (hc : c.toNat < 2 ^ 31) :
    IntOp.remsi u x c = BitVec.ofNat 32 (x.toNat % c.toNat) := by
  unfold IntOp.remsi
  rw [if_neg (not_corner_small hx hc0), BitVec.srem_eq, msb_small hx, msb_small hc]
  show x % c = _
  apply BitVec.eq_of_toNat_eq
  rw [BitVec.toNat_umod, toNat_ofNat_small]
  exact lt_of_le_of_lt (Nat.mod_le _ _) (by omega)

/-- A small word is not below zero. -/
theorem cmpi_slt_zero_small {x : BitVec 32} (hx : x.toNat < 2 ^ 31) : IntOp.cmpi .slt x 0#32 = 0#1 := by
  have hs : x.slt 0#32 = false := by
    rw [BitVec.slt_eq_decide, BitVec.toInt_eq_toNat_of_msb (msb_small hx)]; simp
  simp [IntOp.cmpi, hs]

/-- A small word is above zero exactly when it is not zero. -/
theorem cmpi_sgt_zero_small {x : BitVec 32} (hx : x.toNat < 2 ^ 31) :
    IntOp.cmpi .sgt x 0#32 = BitVec.ofBool (decide (0 < x.toNat)) := by
  have hs : (0#32 : BitVec 32).slt x = decide (0 < x.toNat) := by
    rw [BitVec.slt_eq_decide, BitVec.toInt_eq_toNat_of_msb (msb_small hx)]; simp
  simp [IntOp.cmpi, hs]

/-- The floor-division chain on a non-negative small dividend and a positive small divisor: the correction
    is never taken (a zero dividend has remainder zero; a positive one has the divisor's sign), and the
    truncated quotient is the quotient of the numbers. -/
theorem floordiv_small (u : ArithUnit) {x c : BitVec 32} (s : BitVec 1) (hs : s = IntOp.cmpi .sgt x 0#32)
    (hx : x.toNat < 2 ^ 31) (hc0 : 0 < c.toNat) (hc : c.toNat < 2 ^ 31) :
    Scalar.select (IntOp.andi (IntOp.cmpi .ne (IntOp.subi (s.setWidth 32) ((IntOp.cmpi .slt x 0#32).setWidth 32)) 1#32)
        (IntOp.cmpi .ne (IntOp.remsi u x c) 0#32))
      (IntOp.subi (IntOp.divsi u x c) 1#32) (IntOp.divsi u x c) = BitVec.ofNat 32 (x.toNat / c.toNat) := by
  subst hs
  rw [cmpi_slt_zero_small hx, cmpi_sgt_zero_small hx, divsi_small u hx hc0 hc, remsi_small u hx hc0 hc]
  have hsel : IntOp.andi (IntOp.cmpi .ne (IntOp.subi ((BitVec.ofBool (decide (0 < x.toNat))).setWidth 32) ((0#1 : BitVec 1).setWidth 32)) 1#32)
        (IntOp.cmpi .ne (BitVec.ofNat 32 (x.toNat % c.toNat)) 0#32) = 0#1 := by
    by_cases h0 : 0 < x.toNat
    · simp [h0, IntOp.cmpi, IntOp.andi, IntOp.subi]
    · have hx0 : x.toNat = 0 := by omega
      simp [hx0, IntOp.cmpi, IntOp.andi, IntOp.subi]
  rw [hsel, select_zero]

/-! ### The kernel's integer payloads at an index of the [64,512] tile -/

/-- The divisor's sign word (the bit of `16 > 0` less the bit of `16 < 0`, both widened to 32 bits): one. -/
theorem sgn16 : Scalar.subi (Scalar.extui (Scalar.cmpi .sgt 16#32 0#32)) (Scalar.extui (Scalar.cmpi .slt 16#32 0#32)) = 1#32 := by
  decide

/-- The column numbers of the tile: column `q` is number `q`. -/
theorem colIota_apply (p : Fin 64) (q : Fin 512) : colIota (ix2 p q) = BitVec.ofNat 32 q.val :=
  iota_single_apply .tc S64x512 32 1 iota_S64x512_d1_w32 (ix2 p q)

/-- The row numbers of the tile at grid point `i = (b, h)`: row `p` of the tile is row `h·64 + p` of the image. -/
theorem pay3_apply (i : grid0.Coords) (p : Fin 64) (q : Fin 512) :
    k0_pay3 i (ix2 p q) = BitVec.ofNat 32 ((i 1).val * 64 + p.val) := by
  have h1 : (i 1).val < 8 := (i 1).isLt
  have hp : p.val < 64 := p.isLt
  unfold k0_pay3
  show IntOp.addi (iota .tc S64x512 32 [0] iota_S64x512_d0_w32 (ix2 p q)) (Scalar.muli (BitVec.ofNat 32 (i 1).val) 64#32) = _
  rw [iota_single_apply]
  show BitVec.ofNat 32 p.val + BitVec.ofNat 32 (i 1).val * 64#32 = _
  apply BitVec.eq_of_toNat_eq
  simp only [BitVec.toNat_add, BitVec.toNat_mul, BitVec.toNat_ofNat]
  omega

/-- A row number is a small word. -/
theorem row_small (i : grid0.Coords) (p : Fin 64) : (BitVec.ofNat 32 ((i 1).val * 64 + p.val)).toNat = (i 1).val * 64 + p.val := by
  have h1 : (i 1).val < 8 := (i 1).isLt
  have hp : p.val < 64 := p.isLt
  exact toNat_ofNat_small (by omega)

/-- The patch row of each pixel of the tile: the row number's floor division by 16 is the quotient of the numbers. -/
theorem pay4_apply (i : grid0.Coords) (p : Fin 64) (q : Fin 512) :
    k0_pay4 i (ix2 p q) = BitVec.ofNat 32 (((i 1).val * 64 + p.val) / 16) := by
  have h1 : (i 1).val < 8 := (i 1).isLt
  have hp : p.val < 64 := p.isLt
  unfold k0_pay4
  show Scalar.select (IntOp.andi (IntOp.cmpi .ne (IntOp.subi ((IntOp.cmpi .sgt (k0_pay3 i (ix2 p q)) 0#32).setWidth 32)
          ((IntOp.cmpi .slt (k0_pay3 i (ix2 p q)) 0#32).setWidth 32))
        (Scalar.subi (Scalar.extui (Scalar.cmpi .sgt 16#32 0#32)) (Scalar.extui (Scalar.cmpi .slt 16#32 0#32))))
        (IntOp.cmpi .ne (IntOp.remsi .vector (k0_pay3 i (ix2 p q)) 16#32) 0#32))
      (IntOp.subi (IntOp.divsi .vector (k0_pay3 i (ix2 p q)) 16#32) 1#32) (IntOp.divsi .vector (k0_pay3 i (ix2 p q)) 16#32) = _
  rw [sgn16, pay3_apply]
  refine (floordiv_small .vector _ rfl ?_ (by decide) (by decide)).trans ?_
  · rw [row_small]; omega
  · rw [row_small]; rfl

/-- The patch column of each pixel of the tile: the column number's truncated quotient by 16. -/
theorem pay5_apply (p : Fin 64) (q : Fin 512) : k0_pay5 (ix2 p q) = BitVec.ofNat 32 (q.val / 16) := by
  have hq : q.val < 512 := q.isLt
  unfold k0_pay5
  show IntOp.divsi .vector (iota .tc S64x512 32 [1] iota_S64x512_d1_w32 (ix2 p q)) 16#32 = _
  rw [iota_single_apply]
  show IntOp.divsi .vector (BitVec.ofNat 32 q.val) 16#32 = _
  refine (divsi_small .vector ?_ (by decide) (by decide)).trans ?_
  · rw [toNat_ofNat_small (by omega)]; omega
  · rw [toNat_ofNat_small (by omega)]; rfl

/-- The column number's sign test. -/
theorem pay6_apply (p : Fin 64) (q : Fin 512) : k0_pay6 (ix2 p q) = IntOp.cmpi .sgt (BitVec.ofNat 32 q.val) 0#32 := by
  unfold k0_pay6
  show IntOp.cmpi .sgt (iota .tc S64x512 32 [1] iota_S64x512_d1_w32 (ix2 p q)) 0#32 = _
  rw [iota_single_apply]

/-- THE PATCH NUMBER of pixel `(p, q)` of the tile at grid point `(b, h)`: `b·1024 + ((h·64 + p) / 16)·32 + q / 16`. -/
theorem seg_apply (i : grid0.Coords) (z : Fin 1) (p : Fin 64) (q : Fin 512) :
    k0_pay7 (BitVec.ofNat 32 (i 0).val) colIota (k0_pay4 i) 16#32 k0_pay5 k0_pay6 (ix3 z p q)
      = BitVec.ofNat 32 ((i 0).val * 1024 + (((i 1).val * 64 + p.val) / 16) * 32 + q.val / 16) := by
  have h0 : (i 0).val < 16 := (i 0).isLt
  have h1 : (i 1).val < 8 := (i 1).isLt
  have hp : p.val < 64 := p.isLt
  have hq : q.val < 512 := q.isLt
  unfold k0_pay7
  dsimp only
  refine (shapeCast_ab_1ab_apply _ _ z p q).trans ?_
  show IntOp.addi (IntOp.addi (Scalar.muli (BitVec.ofNat 32 (i 0).val) 1024#32) (IntOp.muli (k0_pay4 i (ix2 p q)) 32#32))
      (Scalar.select (IntOp.andi (IntOp.cmpi .ne (IntOp.subi ((k0_pay6 (ix2 p q)).setWidth 32)
            ((IntOp.cmpi .slt (colIota (ix2 p q)) 0#32).setWidth 32))
          (Scalar.subi (Scalar.extui (Scalar.cmpi .sgt 16#32 0#32)) (Scalar.extui (Scalar.cmpi .slt 16#32 0#32))))
          (IntOp.cmpi .ne (IntOp.remsi .vector (colIota (ix2 p q)) 16#32) 0#32))
        (IntOp.subi (k0_pay5 (ix2 p q)) 1#32) (k0_pay5 (ix2 p q))) = _
  rw [sgn16, pay4_apply, pay6_apply, colIota_apply]
  have hd : k0_pay5 (ix2 p q) = IntOp.divsi .vector (BitVec.ofNat 32 q.val) 16#32 := by
    unfold k0_pay5
    show IntOp.divsi .vector (iota .tc S64x512 32 [1] iota_S64x512_d1_w32 (ix2 p q)) 16#32 = _
    rw [iota_single_apply]
  rw [hd, floordiv_small .vector _ rfl (by rw [toNat_ofNat_small (by omega)]; omega) (by decide) (by decide),
    toNat_ofNat_small (by omega)]
  show BitVec.ofNat 32 (i 0).val * 1024#32 + BitVec.ofNat 32 (((i 1).val * 64 + p.val) / 16) * 32#32
      + BitVec.ofNat 32 (q.val / (16#32 : BitVec 32).toNat) = _
  apply BitVec.eq_of_toNat_eq
  simp only [BitVec.toNat_add, BitVec.toNat_mul, BitVec.toNat_ofNat, Nat.reducePow, Nat.reduceMod]
  omega

end Cert.KernelIdeal.Hand
end
-- ==== Proof.KValSeg.lean ====
/-
  The patch-number array after the region.

  At grid point `(b, h)` the kernel writes back the [1,64,512] block of patch numbers of rows `h·64 … h·64 + 63` of
  batch `b`; the block sits in the [16,512,512] array at block index `(b, h, 0)`, so its entry `(0, p, q)` is the
  array's entry `(b, h·64 + p, q)`, and the word the kernel stores there, `b·1024 + ((h·64 + p) / 16)·32 + q / 16`,
  is the specification's patch number of that entry. The 128 blocks tile the array, so after the last point the array
  is the specification's, entry by entry.
-/
import proofs.«132806_j50629074485716_2_alg».proof.Proof.KData
import proofs.«132806_j50629074485716_2_alg».proof.Proof.KSpec
import proofs.«132806_j50629074485716_2_alg».proof.Proof.KValWord
import Idealize.ShloMosaic.Lib.Pipeline.Value

noncomputable section
namespace Cert.KernelIdeal.Hand
open Idealize.ShloMosaic Idealize.ShloMosaic.TcCoe Idealize.ShloMosaic.ValueIdx
open Idealize.SL Idealize.SL.Sem
open Idealize.ShloMosaic.Pipeline (Dat Cfg Window BodyObligation cellOf)
open Cert.KernelIdeal Cert.KernelIdeal.Gen

variable (m : (ℓ : Loc nD τ sig) → Buf (Elt Ideal) ℓ)

theorem hzSeg : (![0, 0, 0] : Fin 3 → Nat) = fun _ => 0 := funext fun a => by fin_cases a <;> rfl

/-- The patch-number window's index map, decided over the grid: the block index at point `t = (b, h)` is `(b, h, 0)`. -/
theorem idx_factsSeg : ∀ t : Fin cfg0.N, win0_2.index t (0 : Fin 3) = (grid0.coords t 0).val
    ∧ win0_2.index t (1 : Fin 3) = (grid0.coords t 1).val
    ∧ win0_2.index t (2 : Fin 3) = 0 :=
  (by decide +kernel : ∀ t : Fin grid0.N, _)

/-- Every block index `(b, h, 0)` is some point's. -/
theorem idx_ontoSeg : ∀ (q0 : Fin 16) (q1 : Fin 8), ∃ t : Fin cfg0.N, win0_2.index t = ![q0.val, q1.val, 0] :=
  (by decide +kernel : ∀ (q0 : Fin 16) (q1 : Fin 8), ∃ t : Fin grid0.N, win0_2.index t = ![q0.val, q1.val, 0])

/-- WHAT POINT `t` WRITES BACK is block `t` of the specification's patch-number array. -/
theorem flushedSeg_eq (c : Dev nD) (t : Fin cfg0.N) :
    (dats m 0 c).flushed 2 t = ((cfg0.win 2).blk t).view.read (Elt Ideal) Cert.Spec.A2 := by
  show (cfg0.win 2).cut (grid0.coords t) ((dats m 0 c).after 2 t) = _
  rw [after0_2]
  unfold outSeg
  rw [View.canon_unit_zero hzSeg]
  obtain ⟨e0, e1, e2⟩ := idx_factsSeg t
  funext j
  obtain ⟨z, p, q, rfl⟩ : ∃ (z : Fin 1) (p : Fin 64) (q : Fin 512), j = ix3 z p q := ⟨j 0, j 1, j 2, eq_ix3 j⟩
  show k0_pay7 (BitVec.ofNat 32 (grid0.coords t 0).val) colIota (k0_pay4 (grid0.coords t)) 16#32 k0_pay5 k0_pay6 (ix3 z p q)
    = Cert.Spec.A2 (((cfg0.win 2).blk t).view.emb (ix3 z p q))
  rw [seg_apply]
  unfold Cert.Spec.A2
  have hz : z.val = 0 := by omega
  have c0 : ((((cfg0.win 2).blk t).view.emb (ix3 z p q)) 0).val = (grid0.coords t 0).val := by
    show win0_2.index t (0 : Fin 3) * 1 + 1 * z.val = _; omega
  have c1 : ((((cfg0.win 2).blk t).view.emb (ix3 z p q)) 1).val = (grid0.coords t 1).val * 64 + p.val := by
    show win0_2.index t (1 : Fin 3) * 64 + 1 * p.val = _; omega
  have c2 : ((((cfg0.win 2).blk t).view.emb (ix3 z p q)) 2).val = q.val := by
    show win0_2.index t (2 : Fin 3) * 512 + 1 * q.val = _; omega
  show BitVec.ofNat 32 _ = BitVec.ofNat 32 _
  rw [c0, c1, c2]

/-- An index of the array is in point `t`'s block iff each coordinate is in the block's range on its axis. -/
theorem mem_blkSeg (t : Fin cfg0.N) (i : S16x512x512.Idx) :
    i ∈ ((cfg0.win 2).blk t).view.set ↔ ∀ a : Fin 3, win0_2.index t a * S1x64x512.size a ≤ (i a).val ∧ (i a).val < win0_2.index t a * S1x64x512.size a + S1x64x512.size a := by
  show i ∈ ((View.whole main_v0_1).slice (win0_2.rect t)).set ↔ _
  rw [View.set_slice_whole, Rect.mem_set_unit]
  exact Iff.rfl

/-- The blocks tile the array: entry `(b, y, x)` is in the block of the point with block index `(b, y / 64, 0)`. -/
theorem coverSeg (i : S16x512x512.Idx) :
    ∃ t : Fin cfg0.N, (cfg0.win 2).flush t = true ∧ i ∈ ((cfg0.win 2).blk t).view.set := by
  have hi0 : (i 0).val < 16 := (i 0).isLt
  have hi1 : (i 1).val < 512 := (i 1).isLt
  have hi2 : (i 2).val < 512 := (i 2).isLt
  obtain ⟨t, ht⟩ := idx_ontoSeg ⟨(i 0).val, hi0⟩ ⟨(i 1).val / 64, by omega⟩
  have q0 : win0_2.index t (0 : Fin 3) = (i 0).val := congrFun ht 0
  have q1 : win0_2.index t (1 : Fin 3) = (i 1).val / 64 := congrFun ht 1
  have q2 : win0_2.index t (2 : Fin 3) = 0 := congrFun ht 2
  refine ⟨t, flush0_2 t, ?_⟩
  rw [mem_blkSeg]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 64 ≤ (i 1).val ∧ (i 1).val < win0_2.index t (1 : Fin 3) * 64 + 64; omega
  | ⟨2, _⟩ => show win0_2.index t (2 : Fin 3) * 512 ≤ (i 2).val ∧ (i 2).val < win0_2.index t (2 : Fin 3) * 512 + 512; omega

/-- THE PATCH-NUMBER ARRAY after the run is the specification's. -/
theorem final2 (c : Dev nD) : (dats m 0 c).arrAt 2 cfg0.N = Cert.Spec.A2 :=
  (dats m 0 c).arrAt_eq_of_cover 2 Cert.Spec.A2 (fun t _ => flushedSeg_eq m c t) coverSeg

end Cert.KernelIdeal.Hand
end
-- ==== Proof.KValByx.lean ====
/-
  The kernel's coordinate array [3,16,512,512] after the region.

  At grid point (b, h) the body leaves in the window's buffer [3,1,64,512] three slabs, one store each: slab 0
  the batch word b at every entry, slab 1 the row numbers h * 64 + p, slab 2 the column numbers q. The window's
  block at (b, h) is the block [3,1,64,512] at block index (0, b, h, 0) of the array, so entry (r, 0, p, q) of
  the buffer lands at (r, b, h * 64 + p, q): the buffer is the block of ONE function of the array's index,
  (r, b, y, x) going to b, y or x as r is 0, 1 or 2. The blocks of the 16 x 8 grid points tile the array.
-/
import proofs.«132806_j50629074485716_2_alg».proof.Proof.KData
import proofs.«132806_j50629074485716_2_alg».proof.Proof.KSpec
import Idealize.ShloMosaic.Lib.Pipeline.Value
import Idealize.ShloMosaic.Lib.ValueIdx

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window BodyObligation cellOf)
open Cert.KernelIdeal Cert.KernelIdeal.Gen

/-! ### The three slabs at an entry -/

/-- A [64,512] tile stored as a [1,1,64,512] slab: entry (0, 0, p, q) is the tile's entry (p, q). -/
theorem slab_apply {α : Type} (v : S64x512.Idx → α) (h : S64x512.ShapeCasts S1x1x64x512) (a b : Fin 1) (p : Fin 64)
    (q : Fin 512) : shapeCast S1x1x64x512 v h (ix4 a b p q) = v (ix2 p q) := by
  refine shapeCast_apply v h (ix4 a b p q) (ix2 p q) ?_
  rw [Shape.rowMajor_val_four, Shape.rowMajor_val_two]
  show p.val * 512 + q.val = ((a.val * 1 + b.val) * 64 + p.val) * 512 + q.val
  have ha : a.val < 1 := a.isLt
  have hb : b.val < 1 := b.isLt
  omega

/-- The column slab: entry (0, 0, p, q) is the column number q. -/
theorem colSlab_apply (a b : Fin 1) (p : Fin 64) (q : Fin 512) :
    k0_pay1 colIota (ix4 a b p q) = BitVec.ofNat 32 q.val := by
  unfold k0_pay1
  refine (slab_apply _ _ a b p q).trans ?_
  exact iota_single_apply .tc S64x512 32 1 iota_S64x512_d1_w32 (ix2 p q)

/-- The row numbers of the tile at grid point (b, h): row p of the tile is row h * 64 + p of the image. -/
theorem rowTile_apply (i : grid0.Coords) (p : Fin 64) (q : Fin 512) :
    k0_pay3 i (ix2 p q) = BitVec.ofNat 32 ((i 1).val * 64 + p.val) := by
  have h1 : (i 1).val < 8 := (i 1).isLt
  have hp : p.val < 64 := p.isLt
  unfold k0_pay3
  show IntOp.addi (iota .tc S64x512 32 [0] iota_S64x512_d0_w32 (ix2 p q))
    (Scalar.muli (BitVec.ofNat 32 (i 1).val) 64#32) = _
  rw [iota_single_apply]
  show BitVec.ofNat 32 p.val + BitVec.ofNat 32 (i 1).val * 64#32 = _
  apply BitVec.eq_of_toNat_eq
  simp only [BitVec.toNat_add, BitVec.toNat_mul, BitVec.toNat_ofNat]
  omega

/-- The row slab: entry (0, 0, p, q) is the row number h * 64 + p. -/
theorem rowSlab_apply (i : grid0.Coords) (a b : Fin 1) (p : Fin 64) (q : Fin 512) :
    k0_pay9 (k0_pay3 i) (ix4 a b p q) = BitVec.ofNat 32 ((i 1).val * 64 + p.val) := by
  unfold k0_pay9
  refine (slab_apply _ _ a b p q).trans ?_
  exact rowTile_apply i p q

/-- The batch slab: every entry is the batch word. -/
theorem batSlab_apply (w : BitVec 32) (a b : Fin 1) (p : Fin 64) (q : Fin 512) :
    k0_pay8 w (ix4 a b p q) = w := by
  unfold k0_pay8
  exact slab_apply _ _ a b p q

/-! ### The buffer as one function of its index -/

/-- What the buffer [3,1,64,512] holds after the body at grid point (b, h): slab 0 the batch b, slab 1 the row
    numbers h * 64 + p, slab 2 the column numbers q. -/
def byxBlk (i : grid0.Coords) : S3x1x64x512.Idx → BitVec 32 := fun y =>
  BitVec.ofNat 32
    (if (y 0).val = 0 then (i 0).val else if (y 0).val = 1 then (i 1).val * 64 + (y 2).val else (y 3).val)

variable {F : FTy → Type} [FloatOps F]

/-- The body's three slab stores leave the buffer holding that function: each store's payload is the slab of it
    that the store's rectangle names, and the three slabs cover the buffer. -/
theorem outByx_eq (i : grid0.Coords) : outByx (F := F) i = byxBlk i := by
  funext y
  unfold outByx
  refine View.canon_apply_of_pieces (Val := Elt F) (e := .i32) (byxBlk i) _ ?_ y ?_
  · intro P hP x
    rcases List.mem_cons.1 hP with rfl | hP
    · obtain ⟨a, b, p, q, rfl⟩ : ∃ (a b : Fin 1) (p : Fin 64) (q : Fin 512), x = ix4 a b p q :=
        ⟨x 0, x 1, x 2, x 3, eq_ix4 x⟩
      show k0_pay1 colIota (ix4 a b p q) = byxBlk i (rB2.emb (ix4 a b p q))
      rw [colSlab_apply]
      unfold byxBlk
      have ha : a.val < 1 := a.isLt
      have e0 : ((rB2.emb (ix4 a b p q)) 0).val = 2 := by
        rw [Rect.emb_apply]; show 2 + 1 * a.val = 2; omega
      have e3 : ((rB2.emb (ix4 a b p q)) 3).val = q.val := by
        rw [Rect.emb_apply]; show 0 + 1 * q.val = q.val; omega
      rw [e0, e3, if_neg (by omega), if_neg (by omega)]
    rcases List.mem_cons.1 hP with rfl | hP
    · obtain ⟨a, b, p, q, rfl⟩ : ∃ (a b : Fin 1) (p : Fin 64) (q : Fin 512), x = ix4 a b p q :=
        ⟨x 0, x 1, x 2, x 3, eq_ix4 x⟩
      show k0_pay9 (k0_pay3 i) (ix4 a b p q) = byxBlk i (rB1.emb (ix4 a b p q))
      rw [rowSlab_apply]
      unfold byxBlk
      have ha : a.val < 1 := a.isLt
      have e0 : ((rB1.emb (ix4 a b p q)) 0).val = 1 := by
        rw [Rect.emb_apply]; show 1 + 1 * a.val = 1; omega
      have e2 : ((rB1.emb (ix4 a b p q)) 2).val = p.val := by
        rw [Rect.emb_apply]; show 0 + 1 * p.val = p.val; omega
      rw [e0, e2, if_neg (by omega), if_pos rfl]
    · obtain rfl := List.mem_singleton.1 hP
      obtain ⟨a, b, p, q, rfl⟩ : ∃ (a b : Fin 1) (p : Fin 64) (q : Fin 512), x = ix4 a b p q :=
        ⟨x 0, x 1, x 2, x 3, eq_ix4 x⟩
      show k0_pay8 (BitVec.ofNat 32 (i 0).val) (ix4 a b p q) = byxBlk i (rB0.emb (ix4 a b p q))
      rw [batSlab_apply]
      unfold byxBlk
      have ha : a.val < 1 := a.isLt
      have e0 : ((rB0.emb (ix4 a b p q)) 0).val = 0 := by
        rw [Rect.emb_apply]; show 0 + 1 * a.val = 0; omega
      rw [e0, if_pos rfl]
  · obtain ⟨r, z, p, q, rfl⟩ : ∃ (r : Fin 3) (z : Fin 1) (p : Fin 64) (q : Fin 512), y = ix4 r z p q :=
      ⟨y 0, y 1, y 2, y 3, eq_ix4 y⟩
    have hz : z.val < 1 := z.isLt
    have hp : p.val < 64 := p.isLt
    have hq : q.val < 512 := q.isLt
    match r with
    | ⟨0, _⟩ =>
      refine ⟨⟨rB0, k0_pay8 (BitVec.ofNat 32 (i 0).val)⟩,
        List.mem_cons_of_mem _ (List.mem_cons_of_mem _ List.mem_cons_self), ?_⟩
      show ix4 (⟨0, _⟩ : Fin 3) z p q ∈ rB0.set
      rw [Rect.mem_set_unit]
      intro a
      match a with
      | ⟨0, _⟩ => show 0 ≤ 0 ∧ 0 < 0 + 1; omega
      | ⟨1, _⟩ => show 0 ≤ z.val ∧ z.val < 0 + 1; omega
      | ⟨2, _⟩ => show 0 ≤ p.val ∧ p.val < 0 + 64; omega
      | ⟨3, _⟩ => show 0 ≤ q.val ∧ q.val < 0 + 512; omega
    | ⟨1, _⟩ =>
      refine ⟨⟨rB1, k0_pay9 (k0_pay3 i)⟩, List.mem_cons_of_mem _ List.mem_cons_self, ?_⟩
      show ix4 (⟨1, _⟩ : Fin 3) z p q ∈ rB1.set
      rw [Rect.mem_set_unit]
      intro a
      match a with
      | ⟨0, _⟩ => show 1 ≤ 1 ∧ 1 < 1 + 1; omega
      | ⟨1, _⟩ => show 0 ≤ z.val ∧ z.val < 0 + 1; omega
      | ⟨2, _⟩ => show 0 ≤ p.val ∧ p.val < 0 + 64; omega
      | ⟨3, _⟩ => show 0 ≤ q.val ∧ q.val < 0 + 512; omega
    | ⟨2, _⟩ =>
      refine ⟨⟨rB2, k0_pay1 colIota⟩, List.mem_cons_self, ?_⟩
      show ix4 (⟨2, _⟩ : Fin 3) z p q ∈ rB2.set
      rw [Rect.mem_set_unit]
      intro a
      match a with
      | ⟨0, _⟩ => show 2 ≤ 2 ∧ 2 < 2 + 1; omega
      | ⟨1, _⟩ => show 0 ≤ z.val ∧ z.val < 0 + 1; omega
      | ⟨2, _⟩ => show 0 ≤ p.val ∧ p.val < 0 + 64; omega
      | ⟨3, _⟩ => show 0 ≤ q.val ∧ q.val < 0 + 512; omega

/-! ### From the blocks to the array -/

/-- The buffer's function at (r, 0, p, q) is the array's function at the entry (r, b, h * 64 + p, q) the block
    puts it at. -/
theorem byxBlk_eq_A3 (i : grid0.Coords) (y : S3x1x64x512.Idx) (k : S3x16x512x512.Idx)
    (h0 : (k 0).val = (y 0).val) (h1 : (k 1).val = (i 0).val) (h2 : (k 2).val = (i 1).val * 64 + (y 2).val)
    (h3 : (k 3).val = (y 3).val) : byxBlk i y = Cert.Spec.A3 k := by
  show BitVec.ofNat 32
      (if (y 0).val = 0 then (i 0).val else if (y 0).val = 1 then (i 1).val * 64 + (y 2).val else (y 3).val)
    = BitVec.ofNat 32 (if (k 0).val = 0 then (k 1).val else if (k 0).val = 1 then (k 2).val else (k 3).val)
  rw [h0, h1, h2, h3]

/-- The window's printed index map, decided over the grid: the block index at point t = (b, h) is (0, b, h, 0). -/
theorem byx_index : ∀ t : Fin cfg0.N, win0_3.index t (0 : Fin 4) = 0
    ∧ win0_3.index t (1 : Fin 4) = (grid0.coords t 0).val
    ∧ win0_3.index t (2 : Fin 4) = (grid0.coords t 1).val
    ∧ win0_3.index t (3 : Fin 4) = 0 :=
  (by decide +kernel : ∀ t : Fin grid0.N, _)

/-- Every block index (0, b, h, 0) is some grid point's. -/
theorem byx_index_onto : ∀ (q1 : Fin 16) (q2 : Fin 8), ∃ t : Fin cfg0.N, win0_3.index t = ![0, q1.val, q2.val, 0] :=
  (by decide +kernel : ∀ (q1 : Fin 16) (q2 : Fin 8), ∃ t : Fin grid0.N, win0_3.index t = ![0, q1.val, q2.val, 0])

variable (m : (ℓ : Loc nD τ sig) → Buf (Elt F) ℓ)

/-- What grid point t writes back is its block of the one function A3. -/
theorem byx_flushed (c : Dev nD) (t : Fin cfg0.N) :
    (dats m 0 c).flushed 3 t = ((cfg0.win 3).blk t).view.read (Elt F) Cert.Spec.A3 := by
  show (cfg0.win 3).cut (grid0.coords t) ((dats m 0 c).after 3 t) = _
  rw [after0_3, outByx_eq]
  obtain ⟨e0, e1, e2, e3⟩ := byx_index t
  funext j
  show byxBlk (grid0.coords t) ((cfg0.win 3).xinj (grid0.coords t) j)
    = Cert.Spec.A3 (((cfg0.win 3).blk t).view.emb j)
  refine byxBlk_eq_A3 (grid0.coords t) _ _ ?_ ?_ ?_ ?_
  · show win0_3.index t (0 : Fin 4) * 3 + 1 * (j 0).val = (j 0).val
    rw [e0]; omega
  · show win0_3.index t (1 : Fin 4) * 1 + 1 * (j 1).val = (grid0.coords t 0).val
    have hj : (j 1).val < 1 := (j 1).isLt
    rw [e1]; omega
  · show win0_3.index t (2 : Fin 4) * 64 + 1 * (j 2).val = (grid0.coords t 1).val * 64 + (j 2).val
    rw [e2]; omega
  · show win0_3.index t (3 : Fin 4) * 512 + 1 * (j 3).val = (j 3).val
    rw [e3]; omega

/-- An index of the array is in point t's block iff each coordinate is in the block's range on its axis. -/
theorem byx_mem_blk (t : Fin cfg0.N) (i : S3x16x512x512.Idx) :
    i ∈ ((cfg0.win 3).blk t).view.set ↔ ∀ a : Fin 4, win0_3.index t a * S3x1x64x512.size a ≤ (i a).val
      ∧ (i a).val < win0_3.index t a * S3x1x64x512.size a + S3x1x64x512.size a := by
  show i ∈ ((View.whole main_v0_2).slice (win0_3.rect t)).set ↔ _
  rw [View.set_slice_whole, Rect.mem_set_unit]
  exact Iff.rfl

/-- The blocks tile the array: entry (r, b, y, x) is in the block of the grid point (b, y / 64). -/
theorem byx_cover (i : S3x16x512x512.Idx) :
    ∃ t : Fin cfg0.N, (cfg0.win 3).flush t = true ∧ i ∈ ((cfg0.win 3).blk t).view.set := by
  have hi0 : (i 0).val < 3 := (i 0).isLt
  have hi1 : (i 1).val < 16 := (i 1).isLt
  have hi2 : (i 2).val < 512 := (i 2).isLt
  have hi3 : (i 3).val < 512 := (i 3).isLt
  obtain ⟨t, ht⟩ := byx_index_onto ⟨(i 1).val, hi1⟩ ⟨(i 2).val / 64, by omega⟩
  have q0 : win0_3.index t (0 : Fin 4) = 0 := congrFun ht 0
  have q1 : win0_3.index t (1 : Fin 4) = (i 1).val := congrFun ht 1
  have q2 : win0_3.index t (2 : Fin 4) = (i 2).val / 64 := congrFun ht 2
  have q3 : win0_3.index t (3 : Fin 4) = 0 := congrFun ht 3
  refine ⟨t, flush0_3 t, ?_⟩
  rw [byx_mem_blk]
  intro a
  match a with
  | ⟨0, _⟩ =>
    show win0_3.index t (0 : Fin 4) * 3 ≤ (i 0).val ∧ (i 0).val < win0_3.index t (0 : Fin 4) * 3 + 3
    omega
  | ⟨1, _⟩ =>
    show win0_3.index t (1 : Fin 4) * 1 ≤ (i 1).val ∧ (i 1).val < win0_3.index t (1 : Fin 4) * 1 + 1
    omega
  | ⟨2, _⟩ =>
    show win0_3.index t (2 : Fin 4) * 64 ≤ (i 2).val ∧ (i 2).val < win0_3.index t (2 : Fin 4) * 64 + 64
    omega
  | ⟨3, _⟩ =>
    show win0_3.index t (3 : Fin 4) * 512 ≤ (i 3).val ∧ (i 3).val < win0_3.index t (3 : Fin 4) * 512 + 512
    omega

/-- THE COORDINATE ARRAY after the run: entry (r, b, y, x) is b, y or x as r is 0, 1 or 2. -/
theorem final3 (c : Dev nD) : (dats m 0 c).arrAt 3 cfg0.N = Cert.Spec.A3 :=
  (dats m 0 c).arrAt_eq_of_cover 3 Cert.Spec.A3 (fun t _ => byx_flushed m c t) byx_cover

end Cert.KernelIdeal.Hand

end
-- ==== Proof.KTailG1.lean ====
/-
  The first result: the channel-last array [16,512,1536] flattened to [4194304,3] is the specification's
  channel-last image, index by index. Row e of the flattened array is pixel e = (b·512 + y)·512 + x; its entry ch
  sits at row-major position e·3 + ch, which in [16,512,1536] is (b, y, x·3 + ch), where the array holds the image
  at batch b, channel (x·3 + ch) % 3 = ch, row y, column (x·3 + ch) / 3 = x.
-/
import proofs.«132806_j50629074485716_2_alg».proof.Proof.KSpec
import Idealize.ShloMosaic.Lib.Pipeline.Value

noncomputable section
namespace Cert.KernelIdeal.Hand
open Idealize.ShloMosaic Idealize.ShloMosaic.ValueIdx
open Cert.Spec

theorem reshape_A1 {α : Type} (img : (⟨4, ![16, 3, 512, 512]⟩ : Shape).Idx → α)
    (h : (⟨3, ![16, 512, 1536]⟩ : Shape).ShapeCasts ⟨2, ![4194304, 3]⟩) :
    shapeCast ⟨2, ![4194304, 3]⟩ (A1 img) h = G1 img := by
  funext i
  have he : (i 0).val < 4194304 := (i 0).isLt
  have hc : (i 1).val < 3 := (i 1).isLt
  have hx := px_lt (i 0).val
  refine (shapeCast_apply (A1 img) h i
    (ix3 (⟨pb (i 0).val, pb_lt he⟩ : Fin 16) (⟨py (i 0).val, py_lt _⟩ : Fin 512)
      (⟨px (i 0).val * 3 + (i 1).val, by omega⟩ : Fin 1536)) ?_).trans ?_
  · rw [Shape.rowMajor_val_three, Shape.rowMajor_val_two]
    show (pb (i 0).val * 512 + py (i 0).val) * 1536 + (px (i 0).val * 3 + (i 1).val) = (i 0).val * 3 + (i 1).val
    unfold pb py px; omega
  · unfold A1 G1
    refine congrArg img ?_
    funext a
    match a with
    | ⟨0, _⟩ => rfl
    | ⟨1, _⟩ => exact Fin.ext (by show (px (i 0).val * 3 + (i 1).val) % 3 = (i 1).val; omega)
    | ⟨2, _⟩ => rfl
    | ⟨3, _⟩ => exact Fin.ext (by show (px (i 0).val * 3 + (i 1).val) / 3 = px (i 0).val; omega)

end Cert.KernelIdeal.Hand
end
-- ==== Proof.KTailG2.lean ====
/-
  The second result: the patch-number array [16,512,512] flattened to [4194304] is the specification's, index by
  index: pixel e sits at (b, y, x) with b = e / 512², y = (e / 512) % 512, x = e % 512.
-/
import proofs.«132806_j50629074485716_2_alg».proof.Proof.KSpec
import Idealize.ShloMosaic.Lib.Pipeline.Value

noncomputable section
namespace Cert.KernelIdeal.Hand
open Idealize.ShloMosaic Idealize.ShloMosaic.ValueIdx
open Cert.Spec

theorem reshape_A2 (h : (⟨3, ![16, 512, 512]⟩ : Shape).ShapeCasts ⟨1, ![4194304]⟩) :
    shapeCast ⟨1, ![4194304]⟩ A2 h = G2 := by
  funext i
  have he : (i 0).val < 4194304 := (i 0).isLt
  refine (shapeCast_apply A2 h i
    (ix3 (⟨pb (i 0).val, pb_lt he⟩ : Fin 16) (⟨py (i 0).val, py_lt _⟩ : Fin 512)
      (⟨px (i 0).val, px_lt _⟩ : Fin 512)) ?_).trans ?_
  · rw [Shape.rowMajor_val_three, Shape.rowMajor_val_one]
    show (pb (i 0).val * 512 + py (i 0).val) * 512 + px (i 0).val = (i 0).val
    unfold pb py px; omega
  · rfl

end Cert.KernelIdeal.Hand
end
-- ==== Proof.KTailG3.lean ====
/-
  The third result: the coordinate array [3,16,512,512] flattened to [3,4194304] is the specification's, index by
  index: row r keeps its place, and pixel e sits at (b, y, x) with b = e / 512², y = (e / 512) % 512, x = e % 512.
-/
import proofs.«132806_j50629074485716_2_alg».proof.Proof.KSpec
import Idealize.ShloMosaic.Lib.Pipeline.Value

noncomputable section
namespace Cert.KernelIdeal.Hand
open Idealize.ShloMosaic Idealize.ShloMosaic.ValueIdx
open Cert.Spec

theorem reshape_A3 (h : (⟨4, ![3, 16, 512, 512]⟩ : Shape).ShapeCasts ⟨2, ![3, 4194304]⟩) :
    shapeCast ⟨2, ![3, 4194304]⟩ A3 h = G3 := by
  funext i
  have hr : (i 0).val < 3 := (i 0).isLt
  have he : (i 1).val < 4194304 := (i 1).isLt
  refine (shapeCast_apply A3 h i
    (ix4 (⟨(i 0).val, hr⟩ : Fin 3) (⟨pb (i 1).val, pb_lt he⟩ : Fin 16) (⟨py (i 1).val, py_lt _⟩ : Fin 512)
      (⟨px (i 1).val, px_lt _⟩ : Fin 512)) ?_).trans ?_
  · rw [Shape.rowMajor_val_four, Shape.rowMajor_val_two]
    show (((i 0).val * 16 + pb (i 1).val) * 512 + py (i 1).val) * 512 + px (i 1).val = (i 0).val * 4194304 + (i 1).val
    unfold pb py px; omega
  · rfl

end Cert.KernelIdeal.Hand
end
-- ==== Proof.KTailG4.lean ====
/-
  The fourth result: the bounding boxes of the 16·32·32 patches. The host chain builds, over the patch grid [16,32,32]
  (batch, patch row hp, patch column wp), the four arrays hp·16, wp·16, hp·16 + 15, wp·16 + 15, gives each a leading
  unit axis, stacks them along it and flattens [4,16,32,32] to [4,16384]. Read at (r, s): position r·16384 + s of the
  stack is (r, s / 1024, (s / 32) % 32, s % 32), the r-th array at patch row (s / 32) % 32 and patch column s % 32.
-/
import proofs.«132806_j50629074485716_2_alg».proof.Proof.Gen.KernelIdeal
import proofs.«132806_j50629074485716_2_alg».proof.Proof.KSpec
import Idealize.ShloMosaic.Lib.Pipeline.Value
import Idealize.ShloMosaic.Lib.IdealHost

noncomputable section
namespace Cert.KernelIdeal.Hand
open Idealize.ShloMosaic Idealize.ShloMosaic.ValueIdx
open Cert.KernelIdeal Cert.KernelIdeal.Gen
open Cert.Spec

/-- The word k at every patch. -/
def splat (k : BitVec 32) : IVec S16x32x32 32 := broadcastInDim S16x32x32 ![] bcast_S_S16x32x32 (constantI S_ 32 k)
/-- Sixteen times the patch's coordinate on axis d: the least pixel coordinate of the patch. -/
def boxLo (d : Fin S16x32x32.rank) : IVec S16x32x32 32 := muli (iotaInDim S16x32x32 32 d) (splat 16#32)
/-- Fifteen more: the greatest. -/
def boxHi (d : Fin S16x32x32.rank) : IVec S16x32x32 32 := addi (muli (iotaInDim S16x32x32 32 d) (splat 16#32)) (splat 15#32)
/-- An array over the patch grid under a leading unit axis. -/
def lead (x : IVec S16x32x32 32) : IVec S1x16x32x32 32 :=
  broadcastInDim S1x16x32x32 ![1, 2, 3] bcast_S16x32x32_S1x16x32x32_1_2_3 x

/-- The four arrays stacked and flattened, as the host chain spells them. -/
def boxChain : IVec S4x16384 32 :=
  shapeCast S4x16384
    (concatenate S4x16x32x32 0 [⟨S1x16x32x32, lead (boxLo 1)⟩, ⟨S1x16x32x32, lead (boxLo 2)⟩,
      ⟨S1x16x32x32, lead (boxHi 1)⟩, ⟨S1x16x32x32, lead (boxHi 2)⟩]
      concatenates_S1x16x32x32_S1x16x32x32_S1x16x32x32_S1x16x32x32_S4x16x32x32_d0)
    shapeCasts_S4x16x32x32_S4x16384

theorem boxLo_apply (d : Fin S16x32x32.rank) (j : S16x32x32.Idx) : boxLo d j = BitVec.ofNat 32 ((j d).val * 16) := by
  show BitVec.ofNat 32 (j d).val * BitVec.ofNat 32 16 = _
  exact (BitVec.ofNat_mul _ _).symm

theorem boxHi_apply (d : Fin S16x32x32.rank) (j : S16x32x32.Idx) : boxHi d j = BitVec.ofNat 32 ((j d).val * 16 + 15) := by
  show BitVec.ofNat 32 (j d).val * BitVec.ofNat 32 16 + BitVec.ofNat 32 15 = _
  rw [← BitVec.ofNat_mul, ← BitVec.ofNat_add]

theorem lead_apply (x : IVec S16x32x32 32) (z : Fin 1) (b : Fin 16) (hp wp : Fin 32) :
    lead x (ix4 z b hp wp) = x (ix3 b hp wp) := by
  unfold lead
  refine broadcastInDim_apply _ _ x (ix4 z b hp wp) (ix3 b hp wp) fun a => ?_
  match a with
  | ⟨0, _⟩ => rfl
  | ⟨1, _⟩ => rfl
  | ⟨2, _⟩ => rfl

/-- Entry (r, s) of the flattened stack is the r-th array at batch s / 1024, patch row (s / 32) % 32, patch column
    s % 32. -/
theorem boxChain_row (r : Fin 4) (s : Fin 16384) :
    boxChain (ix2 r s)
      = (![lead (boxLo 1), lead (boxLo 2), lead (boxHi 1), lead (boxHi 2)] : Fin 4 → IVec S1x16x32x32 32) r
          (ix4 (0 : Fin 1) (⟨s.val / 1024, by have := s.isLt; omega⟩ : Fin 16) (⟨php s.val, by unfold php; omega⟩ : Fin 32)
            (⟨pwp s.val, by unfold pwp; omega⟩ : Fin 32)) := by
  have hs : s.val < 16384 := s.isLt
  unfold boxChain
  refine (shapeCast_apply _ _ (ix2 r s)
    (ix4 r (⟨s.val / 1024, by omega⟩ : Fin 16) (⟨php s.val, by unfold php; omega⟩ : Fin 32)
      (⟨pwp s.val, by unfold pwp; omega⟩ : Fin 32)) ?_).trans ?_
  · rw [Shape.rowMajor_val_four, Shape.rowMajor_val_two]
    show ((r.val * 16 + s.val / 1024) * 32 + php s.val) * 32 + pwp s.val = r.val * 16384 + s.val
    unfold php pwp; omega
  · refine concatenate_ofFn_unit_apply (t := S4x16x32x32) (s₁ := S1x16x32x32) 0
      (![lead (boxLo 1), lead (boxLo 2), lead (boxHi 1), lead (boxHi 2)] : Fin 4 → IVec S1x16x32x32 32) _ rfl rfl _ r rfl _ ?_
    intro b hb
    match b with
    | ⟨0, _⟩ => exact absurd rfl hb
    | ⟨1, _⟩ => rfl
    | ⟨2, _⟩ => rfl
    | ⟨3, _⟩ => rfl

/-- The host chain's table is the specification's bounding boxes. -/
theorem boxChain_eq : boxChain = G4 := by
  funext i
  obtain ⟨r, s, rfl⟩ : ∃ (r : Fin 4) (s : Fin 16384), i = ix2 r s := ⟨i 0, i 1, eq_ix2 i⟩
  rw [boxChain_row]
  match r with
  | ⟨0, _⟩ => exact (lead_apply _ _ _ _ _).trans ((boxLo_apply _ _).trans rfl)
  | ⟨1, _⟩ => exact (lead_apply _ _ _ _ _).trans ((boxLo_apply _ _).trans rfl)
  | ⟨2, _⟩ => exact (lead_apply _ _ _ _ _).trans ((boxHi_apply _ _).trans rfl)
  | ⟨3, _⟩ => exact (lead_apply _ _ _ _ _).trans ((boxHi_apply _ _).trans rfl)

end Cert.KernelIdeal.Hand
end
-- ==== Proof.KTailOps.lean ====
/-
  The host lines after the region, read off the region's exit contents: the three reshapes of the output arrays, and the
  bounding-box chain, which reads no array at all. Each line's result is stated first over ANY contents W the lines start
  from, and then at the region's exit contents, where the output arrays hold what the region left in them.
-/
import proofs.«132806_j50629074485716_2_alg».proof.Proof.KData
import proofs.«132806_j50629074485716_2_alg».proof.Proof.KTailG4
import Idealize.ShloMosaic.Lib.Pipeline.Value

noncomputable section
namespace Cert.KernelIdeal.Hand
open Idealize.ShloMosaic Idealize.ShloMosaic.TcCoe
open Idealize.SL Idealize.SL.Sem
open Idealize.ShloMosaic.Pipeline (Dat Cfg Window BodyObligation cellOf)
open Cert.KernelIdeal Cert.KernelIdeal.Gen
open StableHlo

variable (m : (ℓ : Loc nD τ sig) → Buf (Elt Ideal) ℓ) (ρ : Dev nD → PrngReg)

/-! ## The lines' results over any starting contents -/

theorem after_v1 (W : Valuation τ sig (Elt Ideal)) :
    StableHlo.after (hostOps1 (F := Ideal)) W (Proc.devRef .tc main_v1)
      = shapeCast S4194304x3 (W (Proc.devRef .tc main_v0_0)) shapeCasts_S16x512x1536_S4194304x3 := by
  after_results
  rfl

theorem after_v2 (W : Valuation τ sig (Elt Ideal)) :
    StableHlo.after (hostOps1 (F := Ideal)) W (Proc.devRef .tc main_v2)
      = shapeCast S4194304 (W (Proc.devRef .tc main_v0_1)) shapeCasts_S16x512x512_S4194304 := by
  after_results
  rfl

theorem after_v3 (W : Valuation τ sig (Elt Ideal)) :
    StableHlo.after (hostOps1 (F := Ideal)) W (Proc.devRef .tc main_v3)
      = shapeCast S3x4194304 (W (Proc.devRef .tc main_v0_2)) shapeCasts_S3x16x512x512_S3x4194304 := by
  after_results
  rfl

/-- The last line's result is the bounding-box chain, whatever the lines start from: the stack's four operands are read
    each at its own buffer, then every line's result at its own buffer is its function of its operands' results. -/
theorem after_v23 (W : Valuation τ sig (Elt Ideal)) :
    StableHlo.after (hostOps1 (F := Ideal)) W (Proc.devRef .tc main_v23) = boxChain := by
  simp only [after_cons, after_nil]
  rw [reshape_result, nary4_result]
  simp (disch := decide) only [nullary_result', unary_result', binary_result',
    nullary_result_ne', unary_result_ne', binary_result_ne', reshape_result_ne', nary_result_ne']
  rfl

/-! ## The same at the region's exit contents -/

theorem tail_v1 (c : Dev nD) :
    Pipeline.afterTail₀ cfgs (dats m) 0 (V0 m) [hostOps1] c main_v1
      = shapeCast S4194304x3 ((dats m 0 c).arrAt 1 cfg0.N) shapeCasts_S16x512x1536_S4194304x3 := by
  unfold Pipeline.afterTail₀
  show StableHlo.after hostOps1 _ (Proc.devRef .tc main_v1) = _
  refine (after_v1 _).trans ?_
  exact congrArg (fun X => shapeCast S4194304x3 X shapeCasts_S16x512x1536_S4194304x3)
    (Pipeline.withArrays_arr spec0 launch0.win.arr_inj c _ _ 1)

theorem tail_v2 (c : Dev nD) :
    Pipeline.afterTail₀ cfgs (dats m) 0 (V0 m) [hostOps1] c main_v2
      = shapeCast S4194304 ((dats m 0 c).arrAt 2 cfg0.N) shapeCasts_S16x512x512_S4194304 := by
  unfold Pipeline.afterTail₀
  show StableHlo.after hostOps1 _ (Proc.devRef .tc main_v2) = _
  refine (after_v2 _).trans ?_
  exact congrArg (fun X => shapeCast S4194304 X shapeCasts_S16x512x512_S4194304)
    (Pipeline.withArrays_arr spec0 launch0.win.arr_inj c _ _ 2)

theorem tail_v3 (c : Dev nD) :
    Pipeline.afterTail₀ cfgs (dats m) 0 (V0 m) [hostOps1] c main_v3
      = shapeCast S3x4194304 ((dats m 0 c).arrAt 3 cfg0.N) shapeCasts_S3x16x512x512_S3x4194304 := by
  unfold Pipeline.afterTail₀
  show StableHlo.after hostOps1 _ (Proc.devRef .tc main_v3) = _
  refine (after_v3 _).trans ?_
  exact congrArg (fun X => shapeCast S3x4194304 X shapeCasts_S3x16x512x512_S3x4194304)
    (Pipeline.withArrays_arr spec0 launch0.win.arr_inj c _ _ 3)

theorem tail_v23 (c : Dev nD) :
    Pipeline.afterTail₀ cfgs (dats m) 0 (V0 m) [hostOps1] c main_v23 = boxChain := by
  unfold Pipeline.afterTail₀
  show StableHlo.after hostOps1 _ (Proc.devRef .tc main_v23) = _
  exact after_v23 _

end Cert.KernelIdeal.Hand
end
-- ==== Proof.KTail.lean ====
/-
  The kernel program's four results. The frame run leaves every output array at what the region wrote and every other
  buffer at what the host lines after the region compute from those arrays; each result is then one reshape of one
  array (or, for the bounding boxes, a chain that reads no array), read index by index against the specification.
  The image itself is an input of the region, never written back, so it ends as launched.
-/
import proofs.«132806_j50629074485716_2_alg».proof.Proof.KData
import proofs.«132806_j50629074485716_2_alg».proof.Proof.KSpec
import proofs.«132806_j50629074485716_2_alg».proof.Proof.KTailG1
import proofs.«132806_j50629074485716_2_alg».proof.Proof.KTailG2
import proofs.«132806_j50629074485716_2_alg».proof.Proof.KTailG3
import proofs.«132806_j50629074485716_2_alg».proof.Proof.KTailOps
import Idealize.ShloMosaic.Lib.Pipeline.Value

noncomputable section
namespace Cert.KernelIdeal.Hand
open Idealize.ShloMosaic Idealize.ShloMosaic.TcCoe
open Idealize.SL Idealize.SL.Sem
open Idealize.ShloMosaic.Pipeline (Dat Cfg Window BodyObligation cellOf)
open Cert.KernelIdeal Cert.KernelIdeal.Gen

variable (m : (ℓ : Loc nD τ sig) → Buf (Elt Ideal) ℓ) (ρ : Dev nD → PrngReg)

theorem krun_of
    (hrun : θ_run (defs (F := Ideal)) (onTc (τ := τ) (main (F := Ideal))) (s₀ m ρ)
      (Pipeline.FramePost cfgs (dats m) 0 (Pipeline.afterTail₀ cfgs (dats m) 0 (V0 m) [hostOps1])))
    (h1 : ∀ c : Dev nD, (dats m 0 c).arrAt 1 cfg0.N = Cert.Spec.A1 (m ((c : Thread nD τ).loc main_arg0)))
    (h2 : ∀ c : Dev nD, (dats m 0 c).arrAt 2 cfg0.N = Cert.Spec.A2)
    (h3 : ∀ c : Dev nD, (dats m 0 c).arrAt 3 cfg0.N = Cert.Spec.A3) :
    θ_run (defs (F := Ideal)) (onTc (τ := τ) (main (F := Ideal))) ⟨m, fun _ => 0, ρ⟩ (fun r => ∀ c : Dev nD,
      r.2.mem ((c.tc : Thread nD τ).loc main_v1) = Cert.Spec.G1 (m ((c.tc : Thread nD τ).loc main_arg0))
      ∧ r.2.mem ((c.tc : Thread nD τ).loc main_v2) = Cert.Spec.G2
      ∧ r.2.mem ((c.tc : Thread nD τ).loc main_v3) = Cert.Spec.G3
      ∧ r.2.mem ((c.tc : Thread nD τ).loc main_v23) = Cert.Spec.G4
      ∧ r.2.mem ((c.tc : Thread nD τ).loc main_arg0) = m ((c.tc : Thread nD τ).loc main_arg0)) :=
  (θ_run (defs (F := Ideal)) _ _).mono (fun _ h c =>
    ⟨((h c).2 main_v1 (Pipeline.mem_restRefs_of main_v1 (by decide) (by decide))).trans
        ((tail_v1 m c).trans ((congrArg (fun X => shapeCast S4194304x3 X shapeCasts_S16x512x1536_S4194304x3) (h1 c)).trans
          (reshape_A1 _ _))),
      ((h c).2 main_v2 (Pipeline.mem_restRefs_of main_v2 (by decide) (by decide))).trans
        ((tail_v2 m c).trans ((congrArg (fun X => shapeCast S4194304 X shapeCasts_S16x512x512_S4194304) (h2 c)).trans
          (reshape_A2 _))),
      ((h c).2 main_v3 (Pipeline.mem_restRefs_of main_v3 (by decide) (by decide))).trans
        ((tail_v3 m c).trans ((congrArg (fun X => shapeCast S3x4194304 X shapeCasts_S3x16x512x512_S3x4194304) (h3 c)).trans
          (reshape_A3 _))),
      ((h c).2 main_v23 (Pipeline.mem_restRefs_of main_v23 (by decide) (by decide))).trans
        ((tail_v23 m c).trans boxChain_eq),
      ((h c).1 0).trans (((dats m 0 c).arrAt_in 0 rfl _).trans ((A_eq m c 0).trans rfl))⟩) hrun

end Cert.KernelIdeal.Hand
end
-- ==== Proof.RTerms.lean ====
/-
  The reference's results as pure terms: its host operations composed, the outlined functions (floor division,
  remainder, the coordinate clipping of unravel_index) each ONE function of its operands.
-/
import proofs.«132806_j50629074485716_2_alg».proof.ReferenceIdeal

noncomputable section

namespace Cert.ReferenceIdeal.Hand

open Idealize.ShloMosaic Cert.ReferenceIdeal Cert.ReferenceIdeal.Facts₀

variable [Facts]

/-- A scalar word repeated at every pixel. -/
abbrev rep (c : IVec S_ 32) : IVec S4194304 32 := broadcastInDim S4194304 ![] bcast_S_S4194304 c

/-- jnp's floor division of every entry of `x` by the scalar `c`: the quotient rounded toward zero, less one where the
    signs differ and the remainder is not zero. -/
def fdiv (x : IVec S4194304 32) (c : IVec S_ 32) : IVec S4194304 32 :=
  select
    (andi (cmpi .ne (signi x) (rep (signi c)))
          (cmpi .ne (Host.remsi x (rep c)) (rep (constantI S_ 32 0#32))))
    (subi (Host.divsi x (rep c)) (rep (constantI S_ 32 1#32)))
    (Host.divsi x (rep c))

/-- The divisor jnp's remainder really divides by: `1` in place of `0`. -/
def safeDiv (c : IVec S_ 32) : IVec S_ 32 :=
  select (cmpi .eq c (constantI S_ 32 0#32)) (constantI S_ 32 1#32) c

/-- jnp's remainder of every entry of `x` by the scalar `c`: the remainder of the dividend's sign, plus the divisor
    where it is not zero and its sign differs from the divisor's. -/
def rem (x : IVec S4194304 32) (c : IVec S_ 32) : IVec S4194304 32 :=
  select
    (andi (cmpi .ne (cmpi .slt (Host.remsi x (rep (safeDiv c))) (rep (constantI S_ 32 0#32)))
                    (broadcastInDim S4194304 ![] bcast_S_S4194304 (cmpi .slt (safeDiv c) (constantI S_ 32 0#32))))
          (cmpi .ne (Host.remsi x (rep (safeDiv c))) (rep (constantI S_ 32 0#32))))
    (addi (Host.remsi x (rep (safeDiv c))) (rep (safeDiv c)))
    (Host.remsi x (rep (safeDiv c)))

/-- `where p, c, x`: the scalar `c` where `p`, else `x`. -/
def pick (p : IVec S4194304 1) (c : IVec S_ 32) (x : IVec S4194304 32) : IVec S4194304 32 :=
  select p (rep c) x

/-- The pixel numbers `0 … 16·512·512 − 1`. -/
def pix : IVec S4194304 32 := iotaInDim S4194304 32 0

def c512 : IVec S_ 32 := constantI S_ 32 512#32
def c16 : IVec S_ 32 := constantI S_ 32 16#32

/-- unravel_index's three divmods: quotients `q1 q2 q3`, remainders column, row, batch. -/
def q1 : IVec S4194304 32 := fdiv pix c512
def colR : IVec S4194304 32 := rem pix c512
def q2 : IVec S4194304 32 := fdiv q1 c512
def rowR : IVec S4194304 32 := rem q1 c512
def q3 : IVec S4194304 32 := fdiv q2 c16
def batR : IVec S4194304 32 := rem q2 c16

/-- Where the pixel number overflows the image (`q3 > 0`) or underflows it (`q3 < -1`). -/
def over : IVec S4194304 1 := cmpi .sgt q3 (rep (constantI S_ 32 0#32))
def under : IVec S4194304 1 := cmpi .slt q3 (rep (constantI S_ 32 4294967295#32))

/-- The clipped coordinates `b`, `y`, `x` of every pixel. -/
def bat : IVec S4194304 32 := pick over (constantI S_ 32 15#32) (pick under (constantI S_ 32 0#32) batR)
def row : IVec S4194304 32 := pick over (constantI S_ 32 511#32) (pick under (constantI S_ 32 0#32) rowR)
def col : IVec S4194304 32 := pick over (constantI S_ 32 511#32) (pick under (constantI S_ 32 0#32) colR)

/-- The patch number of every pixel: `b·1024 + (y // 16)·32 + x // 16`. -/
def seg : IVec S4194304 32 :=
  addi (addi (muli bat (rep (constantI S_ 32 1024#32))) (muli (fdiv row c16) (rep (constantI S_ 32 32#32)))) (fdiv col c16)

/-- The image channel-last, one row per pixel. -/
def fV {F : FTy → Type} (img : FVec F S16x3x512x512 .f32) : FVec F S4194304x3 .f32 :=
  shapeCast S4194304x3 (transpose S16x512x512x3 [0, 2, 3, 1] img transposes_S16x3x512x512_S16x512x512x3_0_2_3_1)
    shapeCasts_S16x512x512x3_S4194304x3

/-- The patch numbers as a column of scatter indices. -/
def segCol : IVec S4194304x1 32 := broadcastInDim S4194304x1 ![0] bcast_S4194304_S4194304x1_0 seg

/-- Per patch, the least / greatest of `u` over the patch's pixels (from the greatest / least word). -/
def segMin (u : IVec S4194304 32) : IVec S16384 32 :=
  Host.scatter scatter_S16384_S4194304x1_S4194304_n_0_0_1 IntOp.minsi
    (broadcastInDim S16384 ![] bcast_S_S16384 (constantI S_ 32 2147483647#32)) segCol u
def segMax (u : IVec S4194304 32) : IVec S16384 32 :=
  Host.scatter scatter_S16384_S4194304x1_S4194304_n_0_0_1 IntOp.maxsi
    (broadcastInDim S16384 ![] bcast_S_S16384 (constantI S_ 32 2147483648#32)) segCol u

/-- A vector kept as a one-row table. -/
abbrev asRow16384 (v : IVec S16384 32) : IVec S1x16384 32 := broadcastInDim S1x16384 ![1] bcast_S16384_S1x16384_1 v
abbrev asRowPix (v : IVec S4194304 32) : IVec S1x4194304 32 := broadcastInDim S1x4194304 ![1] bcast_S4194304_S1x4194304_1 v

/-- The four bounding-box rows. -/
def bbox : IVec S4x16384 32 :=
  concatenate S4x16384 0 [⟨S1x16384, asRow16384 (segMin row)⟩, ⟨S1x16384, asRow16384 (segMin col)⟩,
    ⟨S1x16384, asRow16384 (segMax row)⟩, ⟨S1x16384, asRow16384 (segMax col)⟩]
    concatenates_S1x16384_S1x16384_S1x16384_S1x16384_S4x16384_d0

/-- The three coordinate rows. -/
def byx : IVec S3x4194304 32 :=
  concatenate S3x4194304 0 [⟨S1x4194304, asRowPix bat⟩, ⟨S1x4194304, asRowPix row⟩, ⟨S1x4194304, asRowPix col⟩]
    concatenates_S1x4194304_S1x4194304_S1x4194304_S3x4194304_d0

end Cert.ReferenceIdeal.Hand

end
-- ==== Proof.RRunOps.lean ====
/-
  The reference program's host operations as lists, in the order @main runs them, the outlined functions' bodies
  written out at their call sites over the call's buffers: ten consecutive stages whose concatenation is the
  whole program.
-/
import proofs.«132806_j50629074485716_2_alg».proof.Proof.RTerms
import Idealize.ShloMosaic.Lib.StableHlo.Run

noncomputable section

namespace Cert.ReferenceIdeal.Hand.RunAux

open Cert.ReferenceIdeal Cert.ReferenceIdeal.Facts₀ Cert.ReferenceIdeal.Hand Idealize.ShloMosaic Idealize.ShloMosaic.TcCoe Idealize.SL.Sem Idealize.ShloMosaic.StableHlo

variable [Facts] {F : FTy → Type} [FloatOps F]

/-- Stage 1 (39 operations). The pixel numbers, the divisor `512`, and the first divmod: quotient `q1`, remainder the column. -/
def S1 : List (HloOp τ sig (Elt F)) :=
  [ StableHlo.nullary main_v0 (iotaInDim S4194304 32 0),
    StableHlo.nullary main_c (constantI S_ 32 512#32),
    TRef.unary (.of main_c : TRef sig ⟨S_, .i32⟩) main_call0.v0 id,
    TRef.unary main_call0.v0 main_call0.call0.v0 (broadcastInDim S4194304 ![] bcast_S_S4194304),
    TRef.binary (.of main_v0 : TRef sig ⟨S4194304, .i32⟩) main_call0.call0.v0 main_call0.call0.v1 Host.divsi,
    TRef.unary (.of main_v0 : TRef sig ⟨S4194304, .i32⟩) main_call0.call0.v2 signi,
    TRef.unary main_call0.v0 main_call0.call0.v3 signi,
    TRef.unary main_call0.call0.v3 main_call0.call0.v4 (broadcastInDim S4194304 ![] bcast_S_S4194304),
    TRef.binary main_call0.call0.v2 main_call0.call0.v4 main_call0.call0.v5 (cmpi .ne),
    TRef.unary main_call0.v0 main_call0.call0.v6 (broadcastInDim S4194304 ![] bcast_S_S4194304),
    TRef.binary (.of main_v0 : TRef sig ⟨S4194304, .i32⟩) main_call0.call0.v6 main_call0.call0.v7 Host.remsi,
    TRef.nullary main_call0.call0.c (constantI S_ 32 0#32),
    TRef.unary main_call0.call0.c main_call0.call0.v8 (broadcastInDim S4194304 ![] bcast_S_S4194304),
    TRef.binary main_call0.call0.v7 main_call0.call0.v8 main_call0.call0.v9 (cmpi .ne),
    TRef.binary main_call0.call0.v5 main_call0.call0.v9 main_call0.call0.v10 andi,
    TRef.nullary main_call0.call0.c_0 (constantI S_ 32 1#32),
    TRef.unary main_call0.call0.c_0 main_call0.call0.v11 (broadcastInDim S4194304 ![] bcast_S_S4194304),
    TRef.binary main_call0.call0.v1 main_call0.call0.v11 main_call0.call0.v12 subi,
    TRef.ternary main_call0.call0.v10 main_call0.call0.v12 main_call0.call0.v1 main_call0.call0.call0.v0 select,
    TRef.nullary main_call0.call1.c (constantI S_ 32 0#32),
    TRef.binary main_call0.v0 main_call0.call1.c main_call0.call1.v0 (cmpi .eq),
    TRef.nullary main_call0.call1.c_0 (constantI S_ 32 1#32),
    TRef.ternary main_call0.call1.v0 main_call0.call1.c_0 main_call0.v0 main_call0.call1.call0.v0 select,
    TRef.unary main_call0.call1.call0.v0 main_call0.call1.v2 (broadcastInDim S4194304 ![] bcast_S_S4194304),
    TRef.binary (.of main_v0 : TRef sig ⟨S4194304, .i32⟩) main_call0.call1.v2 main_call0.call1.v3 Host.remsi,
    TRef.nullary main_call0.call1.c_1 (constantI S_ 32 0#32),
    TRef.unary main_call0.call1.c_1 main_call0.call1.v4 (broadcastInDim S4194304 ![] bcast_S_S4194304),
    TRef.binary main_call0.call1.v3 main_call0.call1.v4 main_call0.call1.v5 (cmpi .ne),
    TRef.nullary main_call0.call1.c_2 (constantI S_ 32 0#32),
    TRef.unary main_call0.call1.c_2 main_call0.call1.v6 (broadcastInDim S4194304 ![] bcast_S_S4194304),
    TRef.binary main_call0.call1.v3 main_call0.call1.v6 main_call0.call1.v7 (cmpi .slt),
    TRef.nullary main_call0.call1.c_3 (constantI S_ 32 0#32),
    TRef.binary main_call0.call1.call0.v0 main_call0.call1.c_3 main_call0.call1.v8 (cmpi .slt),
    TRef.unary main_call0.call1.v8 main_call0.call1.v9 (broadcastInDim S4194304 ![] bcast_S_S4194304),
    TRef.binary main_call0.call1.v7 main_call0.call1.v9 main_call0.call1.v10 (cmpi .ne),
    TRef.binary main_call0.call1.v10 main_call0.call1.v5 main_call0.call1.v11 andi,
    TRef.unary main_call0.call1.call0.v0 main_call0.call1.v12 (broadcastInDim S4194304 ![] bcast_S_S4194304),
    TRef.binary main_call0.call1.v3 main_call0.call1.v12 main_call0.call1.v13 addi,
    TRef.ternary main_call0.call1.v11 main_call0.call1.v13 main_call0.call1.v3 main_call0.call1.v14 select ]

/-- Stage 2 (38 operations). The divisor `512` and the second divmod, of the first quotient: quotient `q2`, remainder the row. -/
def S2 : List (HloOp τ sig (Elt F)) :=
  [ StableHlo.nullary main_c_0 (constantI S_ 32 512#32),
    TRef.unary (.of main_c_0 : TRef sig ⟨S_, .i32⟩) main_call1.v0 id,
    TRef.unary main_call1.v0 main_call1.call0.v0 (broadcastInDim S4194304 ![] bcast_S_S4194304),
    TRef.binary (.of main_v1_0 : TRef sig ⟨S4194304, .i32⟩) main_call1.call0.v0 main_call1.call0.v1 Host.divsi,
    TRef.unary (.of main_v1_0 : TRef sig ⟨S4194304, .i32⟩) main_call1.call0.v2 signi,
    TRef.unary main_call1.v0 main_call1.call0.v3 signi,
    TRef.unary main_call1.call0.v3 main_call1.call0.v4 (broadcastInDim S4194304 ![] bcast_S_S4194304),
    TRef.binary main_call1.call0.v2 main_call1.call0.v4 main_call1.call0.v5 (cmpi .ne),
    TRef.unary main_call1.v0 main_call1.call0.v6 (broadcastInDim S4194304 ![] bcast_S_S4194304),
    TRef.binary (.of main_v1_0 : TRef sig ⟨S4194304, .i32⟩) main_call1.call0.v6 main_call1.call0.v7 Host.remsi,
    TRef.nullary main_call1.call0.c (constantI S_ 32 0#32),
    TRef.unary main_call1.call0.c main_call1.call0.v8 (broadcastInDim S4194304 ![] bcast_S_S4194304),
    TRef.binary main_call1.call0.v7 main_call1.call0.v8 main_call1.call0.v9 (cmpi .ne),
    TRef.binary main_call1.call0.v5 main_call1.call0.v9 main_call1.call0.v10 andi,
    TRef.nullary main_call1.call0.c_0 (constantI S_ 32 1#32),
    TRef.unary main_call1.call0.c_0 main_call1.call0.v11 (broadcastInDim S4194304 ![] bcast_S_S4194304),
    TRef.binary main_call1.call0.v1 main_call1.call0.v11 main_call1.call0.v12 subi,
    TRef.ternary main_call1.call0.v10 main_call1.call0.v12 main_call1.call0.v1 main_call1.call0.call0.v0 select,
    TRef.nullary main_call1.call1.c (constantI S_ 32 0#32),
    TRef.binary main_call1.v0 main_call1.call1.c main_call1.call1.v0 (cmpi .eq),
    TRef.nullary main_call1.call1.c_0 (constantI S_ 32 1#32),
    TRef.ternary main_call1.call1.v0 main_call1.call1.c_0 main_call1.v0 main_call1.call1.call0.v0 select,
    TRef.unary main_call1.call1.call0.v0 main_call1.call1.v2 (broadcastInDim S4194304 ![] bcast_S_S4194304),
    TRef.binary (.of main_v1_0 : TRef sig ⟨S4194304, .i32⟩) main_call1.call1.v2 main_call1.call1.v3 Host.remsi,
    TRef.nullary main_call1.call1.c_1 (constantI S_ 32 0#32),
    TRef.unary main_call1.call1.c_1 main_call1.call1.v4 (broadcastInDim S4194304 ![] bcast_S_S4194304),
    TRef.binary main_call1.call1.v3 main_call1.call1.v4 main_call1.call1.v5 (cmpi .ne),
    TRef.nullary main_call1.call1.c_2 (constantI S_ 32 0#32),
    TRef.unary main_call1.call1.c_2 main_call1.call1.v6 (broadcastInDim S4194304 ![] bcast_S_S4194304),
    TRef.binary main_call1.call1.v3 main_call1.call1.v6 main_call1.call1.v7 (cmpi .slt),
    TRef.nullary main_call1.call1.c_3 (constantI S_ 32 0#32),
    TRef.binary main_call1.call1.call0.v0 main_call1.call1.c_3 main_call1.call1.v8 (cmpi .slt),
    TRef.unary main_call1.call1.v8 main_call1.call1.v9 (broadcastInDim S4194304 ![] bcast_S_S4194304),
    TRef.binary main_call1.call1.v7 main_call1.call1.v9 main_call1.call1.v10 (cmpi .ne),
    TRef.binary main_call1.call1.v10 main_call1.call1.v5 main_call1.call1.v11 andi,
    TRef.unary main_call1.call1.call0.v0 main_call1.call1.v12 (broadcastInDim S4194304 ![] bcast_S_S4194304),
    TRef.binary main_call1.call1.v3 main_call1.call1.v12 main_call1.call1.v13 addi,
    TRef.ternary main_call1.call1.v11 main_call1.call1.v13 main_call1.call1.v3 main_call1.call1.v14 select ]

/-- Stage 3 (38 operations). The divisor `16` and the third divmod, of the second quotient: quotient `q3`, remainder the batch. -/
def S3 : List (HloOp τ sig (Elt F)) :=
  [ StableHlo.nullary main_c_1 (constantI S_ 32 16#32),
    TRef.unary (.of main_c_1 : TRef sig ⟨S_, .i32⟩) main_call2.v0 id,
    TRef.unary main_call2.v0 main_call2.call0.v0 (broadcastInDim S4194304 ![] bcast_S_S4194304),
    TRef.binary (.of main_v2_0 : TRef sig ⟨S4194304, .i32⟩) main_call2.call0.v0 main_call2.call0.v1 Host.divsi,
    TRef.unary (.of main_v2_0 : TRef sig ⟨S4194304, .i32⟩) main_call2.call0.v2 signi,
    TRef.unary main_call2.v0 main_call2.call0.v3 signi,
    TRef.unary main_call2.call0.v3 main_call2.call0.v4 (broadcastInDim S4194304 ![] bcast_S_S4194304),
    TRef.binary main_call2.call0.v2 main_call2.call0.v4 main_call2.call0.v5 (cmpi .ne),
    TRef.unary main_call2.v0 main_call2.call0.v6 (broadcastInDim S4194304 ![] bcast_S_S4194304),
    TRef.binary (.of main_v2_0 : TRef sig ⟨S4194304, .i32⟩) main_call2.call0.v6 main_call2.call0.v7 Host.remsi,
    TRef.nullary main_call2.call0.c (constantI S_ 32 0#32),
    TRef.unary main_call2.call0.c main_call2.call0.v8 (broadcastInDim S4194304 ![] bcast_S_S4194304),
    TRef.binary main_call2.call0.v7 main_call2.call0.v8 main_call2.call0.v9 (cmpi .ne),
    TRef.binary main_call2.call0.v5 main_call2.call0.v9 main_call2.call0.v10 andi,
    TRef.nullary main_call2.call0.c_0 (constantI S_ 32 1#32),
    TRef.unary main_call2.call0.c_0 main_call2.call0.v11 (broadcastInDim S4194304 ![] bcast_S_S4194304),
    TRef.binary main_call2.call0.v1 main_call2.call0.v11 main_call2.call0.v12 subi,
    TRef.ternary main_call2.call0.v10 main_call2.call0.v12 main_call2.call0.v1 main_call2.call0.call0.v0 select,
    TRef.nullary main_call2.call1.c (constantI S_ 32 0#32),
    TRef.binary main_call2.v0 main_call2.call1.c main_call2.call1.v0 (cmpi .eq),
    TRef.nullary main_call2.call1.c_0 (constantI S_ 32 1#32),
    TRef.ternary main_call2.call1.v0 main_call2.call1.c_0 main_call2.v0 main_call2.call1.call0.v0 select,
    TRef.unary main_call2.call1.call0.v0 main_call2.call1.v2 (broadcastInDim S4194304 ![] bcast_S_S4194304),
    TRef.binary (.of main_v2_0 : TRef sig ⟨S4194304, .i32⟩) main_call2.call1.v2 main_call2.call1.v3 Host.remsi,
    TRef.nullary main_call2.call1.c_1 (constantI S_ 32 0#32),
    TRef.unary main_call2.call1.c_1 main_call2.call1.v4 (broadcastInDim S4194304 ![] bcast_S_S4194304),
    TRef.binary main_call2.call1.v3 main_call2.call1.v4 main_call2.call1.v5 (cmpi .ne),
    TRef.nullary main_call2.call1.c_2 (constantI S_ 32 0#32),
    TRef.unary main_call2.call1.c_2 main_call2.call1.v6 (broadcastInDim S4194304 ![] bcast_S_S4194304),
    TRef.binary main_call2.call1.v3 main_call2.call1.v6 main_call2.call1.v7 (cmpi .slt),
    TRef.nullary main_call2.call1.c_3 (constantI S_ 32 0#32),
    TRef.binary main_call2.call1.call0.v0 main_call2.call1.c_3 main_call2.call1.v8 (cmpi .slt),
    TRef.unary main_call2.call1.v8 main_call2.call1.v9 (broadcastInDim S4194304 ![] bcast_S_S4194304),
    TRef.binary main_call2.call1.v7 main_call2.call1.v9 main_call2.call1.v10 (cmpi .ne),
    TRef.binary main_call2.call1.v10 main_call2.call1.v5 main_call2.call1.v11 andi,
    TRef.unary main_call2.call1.call0.v0 main_call2.call1.v12 (broadcastInDim S4194304 ![] bcast_S_S4194304),
    TRef.binary main_call2.call1.v3 main_call2.call1.v12 main_call2.call1.v13 addi,
    TRef.ternary main_call2.call1.v11 main_call2.call1.v13 main_call2.call1.v3 main_call2.call1.v14 select ]

/-- Stage 4 (30 operations). The two range tests on the last quotient and the six selections clipping batch, row and column. -/
def S4 : List (HloOp τ sig (Elt F)) :=
  [ StableHlo.nullary main_c_2 (constantI S_ 32 0#32),
    StableHlo.unary main_c_2 main_v4 (broadcastInDim S4194304 ![] bcast_S_S4194304 : (⟨S_, .i32⟩ : BufTy).Contents (Elt F) → (⟨S4194304, .i32⟩ : BufTy).Contents (Elt F)),
    StableHlo.binary main_v3_0 main_v4 main_v5 (cmpi .sgt : (⟨S4194304, .i32⟩ : BufTy).Contents (Elt F) → (⟨S4194304, .i32⟩ : BufTy).Contents (Elt F) → (⟨S4194304, .i1⟩ : BufTy).Contents (Elt F)),
    StableHlo.nullary main_c_3 (constantI S_ 32 4294967295#32),
    StableHlo.unary main_c_3 main_v6 (broadcastInDim S4194304 ![] bcast_S_S4194304 : (⟨S_, .i32⟩ : BufTy).Contents (Elt F) → (⟨S4194304, .i32⟩ : BufTy).Contents (Elt F)),
    StableHlo.binary main_v3_0 main_v6 main_v7 (cmpi .slt : (⟨S4194304, .i32⟩ : BufTy).Contents (Elt F) → (⟨S4194304, .i32⟩ : BufTy).Contents (Elt F) → (⟨S4194304, .i1⟩ : BufTy).Contents (Elt F)),
    StableHlo.nullary main_c_4 (constantI S_ 32 0#32),
    TRef.unary (.of main_c_4 : TRef sig ⟨S_, .i32⟩) main_call3.v0 id,
    TRef.unary main_call3.v0 main_call3.v1 (broadcastInDim S4194304 ![] bcast_S_S4194304),
    TRef.ternary (.of main_v7 : TRef sig ⟨S4194304, .i1⟩) main_call3.v1 (.of main_v3_1 : TRef sig ⟨S4194304, .i32⟩) main_call3.v2 select,
    StableHlo.nullary main_c_5 (constantI S_ 32 15#32),
    TRef.unary (.of main_c_5 : TRef sig ⟨S_, .i32⟩) main_call4.v0 id,
    TRef.unary main_call4.v0 main_call4.v1 (broadcastInDim S4194304 ![] bcast_S_S4194304),
    TRef.ternary (.of main_v5 : TRef sig ⟨S4194304, .i1⟩) main_call4.v1 (.of main_v8 : TRef sig ⟨S4194304, .i32⟩) main_call4.v2 select,
    StableHlo.nullary main_c_6 (constantI S_ 32 0#32),
    TRef.unary (.of main_c_6 : TRef sig ⟨S_, .i32⟩) main_call5.v0 id,
    TRef.unary main_call5.v0 main_call5.v1 (broadcastInDim S4194304 ![] bcast_S_S4194304),
    TRef.ternary (.of main_v7 : TRef sig ⟨S4194304, .i1⟩) main_call5.v1 (.of main_v2_1 : TRef sig ⟨S4194304, .i32⟩) main_call5.v2 select,
    StableHlo.nullary main_c_7 (constantI S_ 32 511#32),
    TRef.unary (.of main_c_7 : TRef sig ⟨S_, .i32⟩) main_call6.v0 id,
    TRef.unary main_call6.v0 main_call6.v1 (broadcastInDim S4194304 ![] bcast_S_S4194304),
    TRef.ternary (.of main_v5 : TRef sig ⟨S4194304, .i1⟩) main_call6.v1 (.of main_v10 : TRef sig ⟨S4194304, .i32⟩) main_call6.v2 select,
    StableHlo.nullary main_c_8 (constantI S_ 32 0#32),
    TRef.unary (.of main_c_8 : TRef sig ⟨S_, .i32⟩) main_call7.v0 id,
    TRef.unary main_call7.v0 main_call7.v1 (broadcastInDim S4194304 ![] bcast_S_S4194304),
    TRef.ternary (.of main_v7 : TRef sig ⟨S4194304, .i1⟩) main_call7.v1 (.of main_v1_1 : TRef sig ⟨S4194304, .i32⟩) main_call7.v2 select,
    StableHlo.nullary main_c_9 (constantI S_ 32 511#32),
    TRef.unary (.of main_c_9 : TRef sig ⟨S_, .i32⟩) main_call8.v0 id,
    TRef.unary main_call8.v0 main_call8.v1 (broadcastInDim S4194304 ![] bcast_S_S4194304),
    TRef.ternary (.of main_v5 : TRef sig ⟨S4194304, .i1⟩) main_call8.v1 (.of main_v12 : TRef sig ⟨S4194304, .i32⟩) main_call8.v2 select ]

/-- Stage 5 (44 operations). The patch number: the batch times `1024`, plus the row's floor quotient by `16` times `32`, plus the column's floor quotient by `16`. -/
def S5 : List (HloOp τ sig (Elt F)) :=
  [ StableHlo.nullary main_c_10 (constantI S_ 32 1024#32),
    StableHlo.unary main_c_10 main_v14 (broadcastInDim S4194304 ![] bcast_S_S4194304 : (⟨S_, .i32⟩ : BufTy).Contents (Elt F) → (⟨S4194304, .i32⟩ : BufTy).Contents (Elt F)),
    StableHlo.binary main_v9 main_v14 main_v15 (muli : (⟨S4194304, .i32⟩ : BufTy).Contents (Elt F) → (⟨S4194304, .i32⟩ : BufTy).Contents (Elt F) → (⟨S4194304, .i32⟩ : BufTy).Contents (Elt F)),
    StableHlo.nullary main_c_11 (constantI S_ 32 16#32),
    TRef.unary (.of main_c_11 : TRef sig ⟨S_, .i32⟩) main_call9.v0 id,
    TRef.unary main_call9.v0 main_call9.v1 (broadcastInDim S4194304 ![] bcast_S_S4194304),
    TRef.binary (.of main_v11 : TRef sig ⟨S4194304, .i32⟩) main_call9.v1 main_call9.v2 Host.divsi,
    TRef.unary (.of main_v11 : TRef sig ⟨S4194304, .i32⟩) main_call9.v3 signi,
    TRef.unary main_call9.v0 main_call9.v4 signi,
    TRef.unary main_call9.v4 main_call9.v5 (broadcastInDim S4194304 ![] bcast_S_S4194304),
    TRef.binary main_call9.v3 main_call9.v5 main_call9.v6 (cmpi .ne),
    TRef.unary main_call9.v0 main_call9.v7 (broadcastInDim S4194304 ![] bcast_S_S4194304),
    TRef.binary (.of main_v11 : TRef sig ⟨S4194304, .i32⟩) main_call9.v7 main_call9.v8 Host.remsi,
    TRef.nullary main_call9.c (constantI S_ 32 0#32),
    TRef.unary main_call9.c main_call9.v9 (broadcastInDim S4194304 ![] bcast_S_S4194304),
    TRef.binary main_call9.v8 main_call9.v9 main_call9.v10 (cmpi .ne),
    TRef.binary main_call9.v6 main_call9.v10 main_call9.v11 andi,
    TRef.nullary main_call9.c_0 (constantI S_ 32 1#32),
    TRef.unary main_call9.c_0 main_call9.v12 (broadcastInDim S4194304 ![] bcast_S_S4194304),
    TRef.binary main_call9.v2 main_call9.v12 main_call9.v13 subi,
    TRef.ternary main_call9.v11 main_call9.v13 main_call9.v2 main_call9.call0.v0 select,
    StableHlo.nullary main_c_12 (constantI S_ 32 32#32),
    StableHlo.unary main_c_12 main_v17 (broadcastInDim S4194304 ![] bcast_S_S4194304 : (⟨S_, .i32⟩ : BufTy).Contents (Elt F) → (⟨S4194304, .i32⟩ : BufTy).Contents (Elt F)),
    StableHlo.binary main_v16 main_v17 main_v18 (muli : (⟨S4194304, .i32⟩ : BufTy).Contents (Elt F) → (⟨S4194304, .i32⟩ : BufTy).Contents (Elt F) → (⟨S4194304, .i32⟩ : BufTy).Contents (Elt F)),
    StableHlo.binary main_v15 main_v18 main_v19 (addi : (⟨S4194304, .i32⟩ : BufTy).Contents (Elt F) → (⟨S4194304, .i32⟩ : BufTy).Contents (Elt F) → (⟨S4194304, .i32⟩ : BufTy).Contents (Elt F)),
    StableHlo.nullary main_c_13 (constantI S_ 32 16#32),
    TRef.unary (.of main_c_13 : TRef sig ⟨S_, .i32⟩) main_call10.v0 id,
    TRef.unary main_call10.v0 main_call10.v1 (broadcastInDim S4194304 ![] bcast_S_S4194304),
    TRef.binary (.of main_v13 : TRef sig ⟨S4194304, .i32⟩) main_call10.v1 main_call10.v2 Host.divsi,
    TRef.unary (.of main_v13 : TRef sig ⟨S4194304, .i32⟩) main_call10.v3 signi,
    TRef.unary main_call10.v0 main_call10.v4 signi,
    TRef.unary main_call10.v4 main_call10.v5 (broadcastInDim S4194304 ![] bcast_S_S4194304),
    TRef.binary main_call10.v3 main_call10.v5 main_call10.v6 (cmpi .ne),
    TRef.unary main_call10.v0 main_call10.v7 (broadcastInDim S4194304 ![] bcast_S_S4194304),
    TRef.binary (.of main_v13 : TRef sig ⟨S4194304, .i32⟩) main_call10.v7 main_call10.v8 Host.remsi,
    TRef.nullary main_call10.c (constantI S_ 32 0#32),
    TRef.unary main_call10.c main_call10.v9 (broadcastInDim S4194304 ![] bcast_S_S4194304),
    TRef.binary main_call10.v8 main_call10.v9 main_call10.v10 (cmpi .ne),
    TRef.binary main_call10.v6 main_call10.v10 main_call10.v11 andi,
    TRef.nullary main_call10.c_0 (constantI S_ 32 1#32),
    TRef.unary main_call10.c_0 main_call10.v12 (broadcastInDim S4194304 ![] bcast_S_S4194304),
    TRef.binary main_call10.v2 main_call10.v12 main_call10.v13 subi,
    TRef.ternary main_call10.v11 main_call10.v13 main_call10.v2 main_call10.call0.v0 select,
    StableHlo.binary main_v19 main_v20 main_v21 (addi : (⟨S4194304, .i32⟩ : BufTy).Contents (Elt F) → (⟨S4194304, .i32⟩ : BufTy).Contents (Elt F) → (⟨S4194304, .i32⟩ : BufTy).Contents (Elt F)) ]

/-- Stage 6 (2 operations). The image transposed channel-last and reshaped to one row per pixel. -/
def S6 : List (HloOp τ sig (Elt F)) :=
  [ StableHlo.unary main_arg0 main_v22 ((transpose S16x512x512x3 [0, 2, 3, 1] · transposes_S16x3x512x512_S16x512x512x3_0_2_3_1) : (⟨S16x3x512x512, .f32⟩ : BufTy).Contents (Elt F) → (⟨S16x512x512x3, .f32⟩ : BufTy).Contents (Elt F)),
    StableHlo.reshape main_v22 main_v23 rfl shapeCasts_S16x512x512x3_S4194304x3 ]

/-- Stage 7 (20 operations). The four scatters (least and greatest row and column per patch), each then kept as a one-row table. -/
def S7 : List (HloOp τ sig (Elt F)) :=
  [ StableHlo.nullary main_c_14 (constantI S_ 32 2147483647#32),
    StableHlo.unary main_c_14 main_v24 (broadcastInDim S16384 ![] bcast_S_S16384 : (⟨S_, .i32⟩ : BufTy).Contents (Elt F) → (⟨S16384, .i32⟩ : BufTy).Contents (Elt F)),
    StableHlo.unary main_v21 main_v25 (broadcastInDim S4194304x1 ![0] bcast_S4194304_S4194304x1_0 : (⟨S4194304, .i32⟩ : BufTy).Contents (Elt F) → (⟨S4194304x1, .i32⟩ : BufTy).Contents (Elt F)),
    StableHlo.ternary main_v24 main_v25 main_v11 main_v26 ((fun x i u => Host.scatter scatter_S16384_S4194304x1_S4194304_n_0_0_1 IntOp.minsi x i u) : (⟨S16384, .i32⟩ : BufTy).Contents (Elt F) → (⟨S4194304x1, .i32⟩ : BufTy).Contents (Elt F) → (⟨S4194304, .i32⟩ : BufTy).Contents (Elt F) → (⟨S16384, .i32⟩ : BufTy).Contents (Elt F)),
    StableHlo.nullary main_c_15 (constantI S_ 32 2147483647#32),
    StableHlo.unary main_c_15 main_v27 (broadcastInDim S16384 ![] bcast_S_S16384 : (⟨S_, .i32⟩ : BufTy).Contents (Elt F) → (⟨S16384, .i32⟩ : BufTy).Contents (Elt F)),
    StableHlo.unary main_v21 main_v28 (broadcastInDim S4194304x1 ![0] bcast_S4194304_S4194304x1_0 : (⟨S4194304, .i32⟩ : BufTy).Contents (Elt F) → (⟨S4194304x1, .i32⟩ : BufTy).Contents (Elt F)),
    StableHlo.ternary main_v27 main_v28 main_v13 main_v29 ((fun x i u => Host.scatter scatter_S16384_S4194304x1_S4194304_n_0_0_1 IntOp.minsi x i u) : (⟨S16384, .i32⟩ : BufTy).Contents (Elt F) → (⟨S4194304x1, .i32⟩ : BufTy).Contents (Elt F) → (⟨S4194304, .i32⟩ : BufTy).Contents (Elt F) → (⟨S16384, .i32⟩ : BufTy).Contents (Elt F)),
    StableHlo.nullary main_c_16 (constantI S_ 32 2147483648#32),
    StableHlo.unary main_c_16 main_v30 (broadcastInDim S16384 ![] bcast_S_S16384 : (⟨S_, .i32⟩ : BufTy).Contents (Elt F) → (⟨S16384, .i32⟩ : BufTy).Contents (Elt F)),
    StableHlo.unary main_v21 main_v31 (broadcastInDim S4194304x1 ![0] bcast_S4194304_S4194304x1_0 : (⟨S4194304, .i32⟩ : BufTy).Contents (Elt F) → (⟨S4194304x1, .i32⟩ : BufTy).Contents (Elt F)),
    StableHlo.ternary main_v30 main_v31 main_v11 main_v32 ((fun x i u => Host.scatter scatter_S16384_S4194304x1_S4194304_n_0_0_1 IntOp.maxsi x i u) : (⟨S16384, .i32⟩ : BufTy).Contents (Elt F) → (⟨S4194304x1, .i32⟩ : BufTy).Contents (Elt F) → (⟨S4194304, .i32⟩ : BufTy).Contents (Elt F) → (⟨S16384, .i32⟩ : BufTy).Contents (Elt F)),
    StableHlo.nullary main_c_17 (constantI S_ 32 2147483648#32),
    StableHlo.unary main_c_17 main_v33 (broadcastInDim S16384 ![] bcast_S_S16384 : (⟨S_, .i32⟩ : BufTy).Contents (Elt F) → (⟨S16384, .i32⟩ : BufTy).Contents (Elt F)),
    StableHlo.unary main_v21 main_v34 (broadcastInDim S4194304x1 ![0] bcast_S4194304_S4194304x1_0 : (⟨S4194304, .i32⟩ : BufTy).Contents (Elt F) → (⟨S4194304x1, .i32⟩ : BufTy).Contents (Elt F)),
    StableHlo.ternary main_v33 main_v34 main_v13 main_v35 ((fun x i u => Host.scatter scatter_S16384_S4194304x1_S4194304_n_0_0_1 IntOp.maxsi x i u) : (⟨S16384, .i32⟩ : BufTy).Contents (Elt F) → (⟨S4194304x1, .i32⟩ : BufTy).Contents (Elt F) → (⟨S4194304, .i32⟩ : BufTy).Contents (Elt F) → (⟨S16384, .i32⟩ : BufTy).Contents (Elt F)),
    StableHlo.unary main_v26 main_v36 (broadcastInDim S1x16384 ![1] bcast_S16384_S1x16384_1 : (⟨S16384, .i32⟩ : BufTy).Contents (Elt F) → (⟨S1x16384, .i32⟩ : BufTy).Contents (Elt F)),
    StableHlo.unary main_v29 main_v37 (broadcastInDim S1x16384 ![1] bcast_S16384_S1x16384_1 : (⟨S16384, .i32⟩ : BufTy).Contents (Elt F) → (⟨S1x16384, .i32⟩ : BufTy).Contents (Elt F)),
    StableHlo.unary main_v32 main_v38 (broadcastInDim S1x16384 ![1] bcast_S16384_S1x16384_1 : (⟨S16384, .i32⟩ : BufTy).Contents (Elt F) → (⟨S1x16384, .i32⟩ : BufTy).Contents (Elt F)),
    StableHlo.unary main_v35 main_v39 (broadcastInDim S1x16384 ![1] bcast_S16384_S1x16384_1 : (⟨S16384, .i32⟩ : BufTy).Contents (Elt F) → (⟨S1x16384, .i32⟩ : BufTy).Contents (Elt F)) ]

/-- Stage 8 (1 operation). The four one-row tables concatenated: the bounding boxes. -/
def S8 : List (HloOp τ sig (Elt F)) :=
  [ StableHlo.nary ![main_v36, main_v37, main_v38, main_v39] main_v40 (fun u => concatenate S4x16384 0 [⟨S1x16384, u 0⟩, ⟨S1x16384, u 1⟩, ⟨S1x16384, u 2⟩, ⟨S1x16384, u 3⟩] concatenates_S1x16384_S1x16384_S1x16384_S1x16384_S4x16384_d0) ]

/-- Stage 9 (3 operations). The three coordinate vectors kept as one-row tables. -/
def S9 : List (HloOp τ sig (Elt F)) :=
  [ StableHlo.unary main_v9 main_v41 (broadcastInDim S1x4194304 ![1] bcast_S4194304_S1x4194304_1 : (⟨S4194304, .i32⟩ : BufTy).Contents (Elt F) → (⟨S1x4194304, .i32⟩ : BufTy).Contents (Elt F)),
    StableHlo.unary main_v11 main_v42 (broadcastInDim S1x4194304 ![1] bcast_S4194304_S1x4194304_1 : (⟨S4194304, .i32⟩ : BufTy).Contents (Elt F) → (⟨S1x4194304, .i32⟩ : BufTy).Contents (Elt F)),
    StableHlo.unary main_v13 main_v43 (broadcastInDim S1x4194304 ![1] bcast_S4194304_S1x4194304_1 : (⟨S4194304, .i32⟩ : BufTy).Contents (Elt F) → (⟨S1x4194304, .i32⟩ : BufTy).Contents (Elt F)) ]

/-- Stage 10 (1 operation). The three one-row tables concatenated: the coordinate rows. -/
def S10 : List (HloOp τ sig (Elt F)) :=
  [ StableHlo.nary ![main_v41, main_v42, main_v43] main_v44 (fun u => concatenate S3x4194304 0 [⟨S1x4194304, u 0⟩, ⟨S1x4194304, u 1⟩, ⟨S1x4194304, u 2⟩] concatenates_S1x4194304_S1x4194304_S1x4194304_S3x4194304_d0) ]

/-- @main's 216 operations, in order: the ten stages one after the other. -/
def ops : List (HloOp τ sig (Elt F)) :=
  S1 ++ (S2 ++ (S3 ++ (S4 ++ (S5 ++ (S6 ++ (S7 ++ (S8 ++ (S9 ++ (S10)))))))))

end Cert.ReferenceIdeal.Hand.RunAux

end
-- ==== Proof.RRunLib.lean ====
/-
  Small general facts for reading a line of host operations: two lines run in a row, a typed reference's
  transport of contents there and back, and the reference's composite steps as functions of the values they read.
-/
import proofs.«132806_j50629074485716_2_alg».proof.Proof.RTerms
import Idealize.ShloMosaic.Lib.StableHlo.Run

noncomputable section

namespace Cert.ReferenceIdeal.Hand.RunAux

open Cert.ReferenceIdeal Cert.ReferenceIdeal.Facts₀ Cert.ReferenceIdeal.Hand Idealize.ShloMosaic Idealize.ShloMosaic.TcCoe Idealize.SL.Sem Idealize.ShloMosaic.StableHlo

variable [Facts] {F : FTy → Type} [FloatOps F]

/-- Two lines of operations run one after the other: the second runs from what the first left. -/
theorem after_app {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- Contents moved to a buffer's own type and back are the contents. -/
theorem ofBuf_toBuf {Val : EltTy → Type} {T : BufTy} (x : TRef sig T) (v : T.Contents Val) : x.ofBuf (x.toBuf v) = v := by
  obtain ⟨r, h, _, _⟩ := x; subst h; rfl

/-- unravel_index's clipping of a remainder `r` by the last quotient `q`: the bound `hi` where the pixel number
    overflows the image (`q > 0`), `0` where it underflows it (`q < -1`), else `r`. -/
def clip (q r : IVec S4194304 32) (hi : IVec S_ 32) : IVec S4194304 32 :=
  pick (cmpi .sgt q (rep (constantI S_ 32 0#32))) hi
    (pick (cmpi .slt q (rep (constantI S_ 32 4294967295#32))) (constantI S_ 32 0#32) r)

/-- The patch number from the clipped batch, row and column. -/
def segOf (b y x : IVec S4194304 32) : IVec S4194304 32 :=
  addi (addi (muli b (rep (constantI S_ 32 1024#32))) (muli (fdiv y c16) (rep (constantI S_ 32 32#32)))) (fdiv x c16)

/-- Per patch of the numbering `s`, the least / greatest of `u`. -/
def segMinOf (s u : IVec S4194304 32) : IVec S16384 32 :=
  Host.scatter scatter_S16384_S4194304x1_S4194304_n_0_0_1 IntOp.minsi
    (broadcastInDim S16384 ![] bcast_S_S16384 (constantI S_ 32 2147483647#32))
    (broadcastInDim S4194304x1 ![0] bcast_S4194304_S4194304x1_0 s) u
def segMaxOf (s u : IVec S4194304 32) : IVec S16384 32 :=
  Host.scatter scatter_S16384_S4194304x1_S4194304_n_0_0_1 IntOp.maxsi
    (broadcastInDim S16384 ![] bcast_S_S16384 (constantI S_ 32 2147483648#32))
    (broadcastInDim S4194304x1 ![0] bcast_S4194304_S4194304x1_0 s) u

/-- The named results are these steps at the named operands (each side unfolds to the other's text). -/
theorem clip_bat : clip q3 batR (constantI S_ 32 15#32) = bat := rfl
theorem clip_row : clip q3 rowR (constantI S_ 32 511#32) = row := rfl
theorem clip_col : clip q3 colR (constantI S_ 32 511#32) = col := rfl
theorem segOf_seg : segOf bat row col = seg := rfl

end Cert.ReferenceIdeal.Hand.RunAux

end
-- ==== Proof.RRunValA.lean ====
/-
  What each stage of the reference's operations leaves in the buffers later stages read: its results as the
  functions of RTerms applied to the contents it found, and every other live buffer unchanged.
-/
import proofs.«132806_j50629074485716_2_alg».proof.Proof.RRunOps
import proofs.«132806_j50629074485716_2_alg».proof.Proof.RRunLib

noncomputable section

namespace Cert.ReferenceIdeal.Hand.RunAux

open Cert.ReferenceIdeal Cert.ReferenceIdeal.Facts₀ Cert.ReferenceIdeal.Hand Idealize.ShloMosaic Idealize.ShloMosaic.TcCoe Idealize.SL.Sem Idealize.ShloMosaic.StableHlo

variable [Facts] {F : FTy → Type} [FloatOps F]

/-! ### Stage 1 -/

theorem s1_v1_0 (W : Valuation τ sig (Elt F)) :
    after S1 W (main_v1_0 : DevRef τ sig) = q1 := by
  unfold S1
  after_results_simp <;> (try simp only [ofBuf_toBuf, id_eq]) <;> rfl

theorem s1_v1_1 (W : Valuation τ sig (Elt F)) :
    after S1 W (main_v1_1 : DevRef τ sig) = colR := by
  unfold S1
  after_results_simp <;> (try simp only [ofBuf_toBuf, id_eq]) <;> rfl

theorem s1_f_arg0 (W : Valuation τ sig (Elt F)) :
    after S1 W (main_arg0 : DevRef τ sig) = W (main_arg0 : DevRef τ sig) := by
  unfold S1
  after_results_simp

/-! ### Stage 2 -/

theorem s2_v2_0 (W : Valuation τ sig (Elt F)) {x : IVec S4194304 32} (hx : W (main_v1_0 : DevRef τ sig) = x) :
    after S2 W (main_v2_0 : DevRef τ sig) = fdiv x c512 := by
  subst hx
  unfold S2
  after_results_simp <;> (try simp only [ofBuf_toBuf, id_eq]) <;> rfl

theorem s2_v2_1 (W : Valuation τ sig (Elt F)) {x : IVec S4194304 32} (hx : W (main_v1_0 : DevRef τ sig) = x) :
    after S2 W (main_v2_1 : DevRef τ sig) = rem x c512 := by
  subst hx
  unfold S2
  after_results_simp <;> (try simp only [ofBuf_toBuf, id_eq]) <;> rfl

theorem s2_f_v1_1 (W : Valuation τ sig (Elt F)) :
    after S2 W (main_v1_1 : DevRef τ sig) = W (main_v1_1 : DevRef τ sig) := by
  unfold S2
  after_results_simp

theorem s2_f_arg0 (W : Valuation τ sig (Elt F)) :
    after S2 W (main_arg0 : DevRef τ sig) = W (main_arg0 : DevRef τ sig) := by
  unfold S2
  after_results_simp

/-! ### Stage 3 -/

theorem s3_v3_0 (W : Valuation τ sig (Elt F)) {x : IVec S4194304 32} (hx : W (main_v2_0 : DevRef τ sig) = x) :
    after S3 W (main_v3_0 : DevRef τ sig) = fdiv x c16 := by
  subst hx
  unfold S3
  after_results_simp <;> (try simp only [ofBuf_toBuf, id_eq]) <;> rfl

theorem s3_v3_1 (W : Valuation τ sig (Elt F)) {x : IVec S4194304 32} (hx : W (main_v2_0 : DevRef τ sig) = x) :
    after S3 W (main_v3_1 : DevRef τ sig) = rem x c16 := by
  subst hx
  unfold S3
  after_results_simp <;> (try simp only [ofBuf_toBuf, id_eq]) <;> rfl

theorem s3_f_v1_1 (W : Valuation τ sig (Elt F)) :
    after S3 W (main_v1_1 : DevRef τ sig) = W (main_v1_1 : DevRef τ sig) := by
  unfold S3
  after_results_simp

theorem s3_f_v2_1 (W : Valuation τ sig (Elt F)) :
    after S3 W (main_v2_1 : DevRef τ sig) = W (main_v2_1 : DevRef τ sig) := by
  unfold S3
  after_results_simp

theorem s3_f_arg0 (W : Valuation τ sig (Elt F)) :
    after S3 W (main_arg0 : DevRef τ sig) = W (main_arg0 : DevRef τ sig) := by
  unfold S3
  after_results_simp

end Cert.ReferenceIdeal.Hand.RunAux

end
-- ==== Proof.RRunValB.lean ====
/-
  What each stage of the reference's operations leaves in the buffers later stages read: its results as the
  functions of RTerms applied to the contents it found, and every other live buffer unchanged.
-/
import proofs.«132806_j50629074485716_2_alg».proof.Proof.RRunOps
import proofs.«132806_j50629074485716_2_alg».proof.Proof.RRunLib

noncomputable section

namespace Cert.ReferenceIdeal.Hand.RunAux

open Cert.ReferenceIdeal Cert.ReferenceIdeal.Facts₀ Cert.ReferenceIdeal.Hand Idealize.ShloMosaic Idealize.ShloMosaic.TcCoe Idealize.SL.Sem Idealize.ShloMosaic.StableHlo

variable [Facts] {F : FTy → Type} [FloatOps F]

/-! ### Stage 4 -/

theorem s4_v9 (W : Valuation τ sig (Elt F)) {q : IVec S4194304 32} (hq : W (main_v3_0 : DevRef τ sig) = q) {r : IVec S4194304 32} (hr : W (main_v3_1 : DevRef τ sig) = r) :
    after S4 W (main_v9 : DevRef τ sig) = clip q r (constantI S_ 32 15#32) := by
  subst hq; subst hr
  unfold S4
  after_results_simp <;> (try simp only [ofBuf_toBuf, id_eq]) <;> rfl

theorem s4_v11 (W : Valuation τ sig (Elt F)) {q : IVec S4194304 32} (hq : W (main_v3_0 : DevRef τ sig) = q) {r : IVec S4194304 32} (hr : W (main_v2_1 : DevRef τ sig) = r) :
    after S4 W (main_v11 : DevRef τ sig) = clip q r (constantI S_ 32 511#32) := by
  subst hq; subst hr
  unfold S4
  after_results_simp <;> (try simp only [ofBuf_toBuf, id_eq]) <;> rfl

theorem s4_v13 (W : Valuation τ sig (Elt F)) {q : IVec S4194304 32} (hq : W (main_v3_0 : DevRef τ sig) = q) {r : IVec S4194304 32} (hr : W (main_v1_1 : DevRef τ sig) = r) :
    after S4 W (main_v13 : DevRef τ sig) = clip q r (constantI S_ 32 511#32) := by
  subst hq; subst hr
  unfold S4
  after_results_simp <;> (try simp only [ofBuf_toBuf, id_eq]) <;> rfl

theorem s4_f_arg0 (W : Valuation τ sig (Elt F)) :
    after S4 W (main_arg0 : DevRef τ sig) = W (main_arg0 : DevRef τ sig) := by
  unfold S4
  after_results_simp

/-! ### Stage 5 -/

theorem s5_v21 (W : Valuation τ sig (Elt F)) {b : IVec S4194304 32} (hb : W (main_v9 : DevRef τ sig) = b) {y : IVec S4194304 32} (hy : W (main_v11 : DevRef τ sig) = y) {x : IVec S4194304 32} (hx : W (main_v13 : DevRef τ sig) = x) :
    after S5 W (main_v21 : DevRef τ sig) = segOf b y x := by
  subst hb; subst hy; subst hx
  unfold S5
  after_results_simp <;> (try simp only [ofBuf_toBuf, id_eq]) <;> rfl

theorem s5_f_v9 (W : Valuation τ sig (Elt F)) :
    after S5 W (main_v9 : DevRef τ sig) = W (main_v9 : DevRef τ sig) := by
  unfold S5
  after_results_simp

theorem s5_f_v11 (W : Valuation τ sig (Elt F)) :
    after S5 W (main_v11 : DevRef τ sig) = W (main_v11 : DevRef τ sig) := by
  unfold S5
  after_results_simp

theorem s5_f_v13 (W : Valuation τ sig (Elt F)) :
    after S5 W (main_v13 : DevRef τ sig) = W (main_v13 : DevRef τ sig) := by
  unfold S5
  after_results_simp

theorem s5_f_arg0 (W : Valuation τ sig (Elt F)) :
    after S5 W (main_arg0 : DevRef τ sig) = W (main_arg0 : DevRef τ sig) := by
  unfold S5
  after_results_simp

end Cert.ReferenceIdeal.Hand.RunAux

end
-- ==== Proof.RRunValC.lean ====
/-
  What each stage of the reference's operations leaves in the buffers later stages read: its results as the
  functions of RTerms applied to the contents it found, and every other live buffer unchanged.
-/
import proofs.«132806_j50629074485716_2_alg».proof.Proof.RRunOps
import proofs.«132806_j50629074485716_2_alg».proof.Proof.RRunLib

noncomputable section

namespace Cert.ReferenceIdeal.Hand.RunAux

open Cert.ReferenceIdeal Cert.ReferenceIdeal.Facts₀ Cert.ReferenceIdeal.Hand Idealize.ShloMosaic Idealize.ShloMosaic.TcCoe Idealize.SL.Sem Idealize.ShloMosaic.StableHlo

variable [Facts] {F : FTy → Type} [FloatOps F]

/-! ### Stage 6 -/

theorem s6_v23 (W : Valuation τ sig (Elt F)) {img : FVec F S16x3x512x512 .f32} (himg : W (main_arg0 : DevRef τ sig) = img) :
    after S6 W (main_v23 : DevRef τ sig) = fV img := by
  subst himg
  unfold S6
  after_results_simp <;> (try simp only [ofBuf_toBuf, id_eq]) <;> rfl

theorem s6_f_v9 (W : Valuation τ sig (Elt F)) :
    after S6 W (main_v9 : DevRef τ sig) = W (main_v9 : DevRef τ sig) := by
  unfold S6
  after_results_simp

theorem s6_f_v11 (W : Valuation τ sig (Elt F)) :
    after S6 W (main_v11 : DevRef τ sig) = W (main_v11 : DevRef τ sig) := by
  unfold S6
  after_results_simp

theorem s6_f_v13 (W : Valuation τ sig (Elt F)) :
    after S6 W (main_v13 : DevRef τ sig) = W (main_v13 : DevRef τ sig) := by
  unfold S6
  after_results_simp

theorem s6_f_v21 (W : Valuation τ sig (Elt F)) :
    after S6 W (main_v21 : DevRef τ sig) = W (main_v21 : DevRef τ sig) := by
  unfold S6
  after_results_simp

theorem s6_f_arg0 (W : Valuation τ sig (Elt F)) :
    after S6 W (main_arg0 : DevRef τ sig) = W (main_arg0 : DevRef τ sig) := by
  unfold S6
  after_results_simp

/-! ### Stage 7 -/

theorem s7_v36 (W : Valuation τ sig (Elt F)) {s : IVec S4194304 32} (hs : W (main_v21 : DevRef τ sig) = s) {y : IVec S4194304 32} (hy : W (main_v11 : DevRef τ sig) = y) :
    after S7 W (main_v36 : DevRef τ sig) = asRow16384 (segMinOf s y) := by
  subst hs; subst hy
  unfold S7
  after_results_simp <;> (try simp only [ofBuf_toBuf, id_eq]) <;> rfl

theorem s7_v37 (W : Valuation τ sig (Elt F)) {s : IVec S4194304 32} (hs : W (main_v21 : DevRef τ sig) = s) {x : IVec S4194304 32} (hx : W (main_v13 : DevRef τ sig) = x) :
    after S7 W (main_v37 : DevRef τ sig) = asRow16384 (segMinOf s x) := by
  subst hs; subst hx
  unfold S7
  after_results_simp <;> (try simp only [ofBuf_toBuf, id_eq]) <;> rfl

theorem s7_v38 (W : Valuation τ sig (Elt F)) {s : IVec S4194304 32} (hs : W (main_v21 : DevRef τ sig) = s) {y : IVec S4194304 32} (hy : W (main_v11 : DevRef τ sig) = y) :
    after S7 W (main_v38 : DevRef τ sig) = asRow16384 (segMaxOf s y) := by
  subst hs; subst hy
  unfold S7
  after_results_simp <;> (try simp only [ofBuf_toBuf, id_eq]) <;> rfl

theorem s7_v39 (W : Valuation τ sig (Elt F)) {s : IVec S4194304 32} (hs : W (main_v21 : DevRef τ sig) = s) {x : IVec S4194304 32} (hx : W (main_v13 : DevRef τ sig) = x) :
    after S7 W (main_v39 : DevRef τ sig) = asRow16384 (segMaxOf s x) := by
  subst hs; subst hx
  unfold S7
  after_results_simp <;> (try simp only [ofBuf_toBuf, id_eq]) <;> rfl

theorem s7_f_v9 (W : Valuation τ sig (Elt F)) :
    after S7 W (main_v9 : DevRef τ sig) = W (main_v9 : DevRef τ sig) := by
  unfold S7
  after_results_simp

theorem s7_f_v11 (W : Valuation τ sig (Elt F)) :
    after S7 W (main_v11 : DevRef τ sig) = W (main_v11 : DevRef τ sig) := by
  unfold S7
  after_results_simp

theorem s7_f_v13 (W : Valuation τ sig (Elt F)) :
    after S7 W (main_v13 : DevRef τ sig) = W (main_v13 : DevRef τ sig) := by
  unfold S7
  after_results_simp

theorem s7_f_v21 (W : Valuation τ sig (Elt F)) :
    after S7 W (main_v21 : DevRef τ sig) = W (main_v21 : DevRef τ sig) := by
  unfold S7
  after_results_simp

theorem s7_f_v23 (W : Valuation τ sig (Elt F)) :
    after S7 W (main_v23 : DevRef τ sig) = W (main_v23 : DevRef τ sig) := by
  unfold S7
  after_results_simp

theorem s7_f_arg0 (W : Valuation τ sig (Elt F)) :
    after S7 W (main_arg0 : DevRef τ sig) = W (main_arg0 : DevRef τ sig) := by
  unfold S7
  after_results_simp

/-! ### Stage 8 -/

theorem s8_v40 (W : Valuation τ sig (Elt F)) {a : IVec S1x16384 32} (ha : W (main_v36 : DevRef τ sig) = a) {b : IVec S1x16384 32} (hb : W (main_v37 : DevRef τ sig) = b) {c : IVec S1x16384 32} (hc : W (main_v38 : DevRef τ sig) = c) {d : IVec S1x16384 32} (hd : W (main_v39 : DevRef τ sig) = d) :
    after S8 W (main_v40 : DevRef τ sig) = concatenate S4x16384 0 [⟨S1x16384, a⟩, ⟨S1x16384, b⟩, ⟨S1x16384, c⟩, ⟨S1x16384, d⟩] concatenates_S1x16384_S1x16384_S1x16384_S1x16384_S4x16384_d0 := by
  subst ha; subst hb; subst hc; subst hd
  unfold S8
  simp only [after_cons, after_nil]
  refine (nary_result _ _ _ _ _ W).trans ?_
  rfl

theorem s8_f_v9 (W : Valuation τ sig (Elt F)) :
    after S8 W (main_v9 : DevRef τ sig) = W (main_v9 : DevRef τ sig) := by
  unfold S8
  after_results_simp

theorem s8_f_v11 (W : Valuation τ sig (Elt F)) :
    after S8 W (main_v11 : DevRef τ sig) = W (main_v11 : DevRef τ sig) := by
  unfold S8
  after_results_simp

theorem s8_f_v13 (W : Valuation τ sig (Elt F)) :
    after S8 W (main_v13 : DevRef τ sig) = W (main_v13 : DevRef τ sig) := by
  unfold S8
  after_results_simp

theorem s8_f_v21 (W : Valuation τ sig (Elt F)) :
    after S8 W (main_v21 : DevRef τ sig) = W (main_v21 : DevRef τ sig) := by
  unfold S8
  after_results_simp

theorem s8_f_v23 (W : Valuation τ sig (Elt F)) :
    after S8 W (main_v23 : DevRef τ sig) = W (main_v23 : DevRef τ sig) := by
  unfold S8
  after_results_simp

theorem s8_f_arg0 (W : Valuation τ sig (Elt F)) :
    after S8 W (main_arg0 : DevRef τ sig) = W (main_arg0 : DevRef τ sig) := by
  unfold S8
  after_results_simp

/-! ### Stage 9 -/

theorem s9_v41 (W : Valuation τ sig (Elt F)) {b : IVec S4194304 32} (hb : W (main_v9 : DevRef τ sig) = b) :
    after S9 W (main_v41 : DevRef τ sig) = asRowPix b := by
  subst hb
  unfold S9
  after_results_simp <;> (try simp only [ofBuf_toBuf, id_eq]) <;> rfl

theorem s9_v42 (W : Valuation τ sig (Elt F)) {y : IVec S4194304 32} (hy : W (main_v11 : DevRef τ sig) = y) :
    after S9 W (main_v42 : DevRef τ sig) = asRowPix y := by
  subst hy
  unfold S9
  after_results_simp <;> (try simp only [ofBuf_toBuf, id_eq]) <;> rfl

theorem s9_v43 (W : Valuation τ sig (Elt F)) {x : IVec S4194304 32} (hx : W (main_v13 : DevRef τ sig) = x) :
    after S9 W (main_v43 : DevRef τ sig) = asRowPix x := by
  subst hx
  unfold S9
  after_results_simp <;> (try simp only [ofBuf_toBuf, id_eq]) <;> rfl

theorem s9_f_v21 (W : Valuation τ sig (Elt F)) :
    after S9 W (main_v21 : DevRef τ sig) = W (main_v21 : DevRef τ sig) := by
  unfold S9
  after_results_simp

theorem s9_f_v23 (W : Valuation τ sig (Elt F)) :
    after S9 W (main_v23 : DevRef τ sig) = W (main_v23 : DevRef τ sig) := by
  unfold S9
  after_results_simp

theorem s9_f_v40 (W : Valuation τ sig (Elt F)) :
    after S9 W (main_v40 : DevRef τ sig) = W (main_v40 : DevRef τ sig) := by
  unfold S9
  after_results_simp

theorem s9_f_arg0 (W : Valuation τ sig (Elt F)) :
    after S9 W (main_arg0 : DevRef τ sig) = W (main_arg0 : DevRef τ sig) := by
  unfold S9
  after_results_simp

/-! ### Stage 10 -/

theorem s10_v44 (W : Valuation τ sig (Elt F)) {a : IVec S1x4194304 32} (ha : W (main_v41 : DevRef τ sig) = a) {b : IVec S1x4194304 32} (hb : W (main_v42 : DevRef τ sig) = b) {c : IVec S1x4194304 32} (hc : W (main_v43 : DevRef τ sig) = c) :
    after S10 W (main_v44 : DevRef τ sig) = concatenate S3x4194304 0 [⟨S1x4194304, a⟩, ⟨S1x4194304, b⟩, ⟨S1x4194304, c⟩] concatenates_S1x4194304_S1x4194304_S1x4194304_S3x4194304_d0 := by
  subst ha; subst hb; subst hc
  unfold S10
  simp only [after_cons, after_nil]
  refine (nary_result _ _ _ _ _ W).trans ?_
  rfl

theorem s10_f_v21 (W : Valuation τ sig (Elt F)) :
    after S10 W (main_v21 : DevRef τ sig) = W (main_v21 : DevRef τ sig) := by
  unfold S10
  after_results_simp

theorem s10_f_v23 (W : Valuation τ sig (Elt F)) :
    after S10 W (main_v23 : DevRef τ sig) = W (main_v23 : DevRef τ sig) := by
  unfold S10
  after_results_simp

theorem s10_f_v40 (W : Valuation τ sig (Elt F)) :
    after S10 W (main_v40 : DevRef τ sig) = W (main_v40 : DevRef τ sig) := by
  unfold S10
  after_results_simp

theorem s10_f_arg0 (W : Valuation τ sig (Elt F)) :
    after S10 W (main_arg0 : DevRef τ sig) = W (main_arg0 : DevRef τ sig) := by
  unfold S10
  after_results_simp

end Cert.ReferenceIdeal.Hand.RunAux

end
-- ==== Proof.RRunSide.lean ====
/-
  The side conditions of the run over the operation lists: every operation touches TensorCore buffers only and
  determines all it writes; the signature scopes no buffer and no semaphore.
-/
import proofs.«132806_j50629074485716_2_alg».proof.Proof.RRunOps

noncomputable section

namespace Cert.ReferenceIdeal.Hand.RunAux

open Cert.ReferenceIdeal Cert.ReferenceIdeal.Facts₀ Cert.ReferenceIdeal.Hand Idealize.ShloMosaic Idealize.ShloMosaic.TcCoe Idealize.SL.Sem Idealize.ShloMosaic.StableHlo

variable [Facts] {F : FTy → Type} [FloatOps F]

theorem S1_sub : (S1 (F := F)).Forall fun op => op.bufs ⊆ tcRefs τ sig := by
  unfold S1
  exact ⟨nullary_bufs_sub .., nullary_bufs_sub .., unary_bufs_sub .., unary_bufs_sub .., binary_bufs_sub .., unary_bufs_sub ..,
    unary_bufs_sub .., unary_bufs_sub .., binary_bufs_sub .., unary_bufs_sub .., binary_bufs_sub .., nullary_bufs_sub ..,
    unary_bufs_sub .., binary_bufs_sub .., binary_bufs_sub .., nullary_bufs_sub .., unary_bufs_sub .., binary_bufs_sub ..,
    ternary_bufs_sub .., nullary_bufs_sub .., binary_bufs_sub .., nullary_bufs_sub .., ternary_bufs_sub .., unary_bufs_sub ..,
    binary_bufs_sub .., nullary_bufs_sub .., unary_bufs_sub .., binary_bufs_sub .., nullary_bufs_sub .., unary_bufs_sub ..,
    binary_bufs_sub .., nullary_bufs_sub .., binary_bufs_sub .., unary_bufs_sub .., binary_bufs_sub .., binary_bufs_sub ..,
    unary_bufs_sub .., binary_bufs_sub .., ternary_bufs_sub ..⟩

theorem S1_fresh : (S1 (F := F)).Forall fun op => op.fresh = ∅ := by
  unfold S1
  exact ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl⟩

theorem S2_sub : (S2 (F := F)).Forall fun op => op.bufs ⊆ tcRefs τ sig := by
  unfold S2
  exact ⟨nullary_bufs_sub .., unary_bufs_sub .., unary_bufs_sub .., binary_bufs_sub .., unary_bufs_sub .., unary_bufs_sub ..,
    unary_bufs_sub .., binary_bufs_sub .., unary_bufs_sub .., binary_bufs_sub .., nullary_bufs_sub .., unary_bufs_sub ..,
    binary_bufs_sub .., binary_bufs_sub .., nullary_bufs_sub .., unary_bufs_sub .., binary_bufs_sub .., ternary_bufs_sub ..,
    nullary_bufs_sub .., binary_bufs_sub .., nullary_bufs_sub .., ternary_bufs_sub .., unary_bufs_sub .., binary_bufs_sub ..,
    nullary_bufs_sub .., unary_bufs_sub .., binary_bufs_sub .., nullary_bufs_sub .., unary_bufs_sub .., binary_bufs_sub ..,
    nullary_bufs_sub .., binary_bufs_sub .., unary_bufs_sub .., binary_bufs_sub .., binary_bufs_sub .., unary_bufs_sub ..,
    binary_bufs_sub .., ternary_bufs_sub ..⟩

theorem S2_fresh : (S2 (F := F)).Forall fun op => op.fresh = ∅ := by
  unfold S2
  exact ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl⟩

theorem S3_sub : (S3 (F := F)).Forall fun op => op.bufs ⊆ tcRefs τ sig := by
  unfold S3
  exact ⟨nullary_bufs_sub .., unary_bufs_sub .., unary_bufs_sub .., binary_bufs_sub .., unary_bufs_sub .., unary_bufs_sub ..,
    unary_bufs_sub .., binary_bufs_sub .., unary_bufs_sub .., binary_bufs_sub .., nullary_bufs_sub .., unary_bufs_sub ..,
    binary_bufs_sub .., binary_bufs_sub .., nullary_bufs_sub .., unary_bufs_sub .., binary_bufs_sub .., ternary_bufs_sub ..,
    nullary_bufs_sub .., binary_bufs_sub .., nullary_bufs_sub .., ternary_bufs_sub .., unary_bufs_sub .., binary_bufs_sub ..,
    nullary_bufs_sub .., unary_bufs_sub .., binary_bufs_sub .., nullary_bufs_sub .., unary_bufs_sub .., binary_bufs_sub ..,
    nullary_bufs_sub .., binary_bufs_sub .., unary_bufs_sub .., binary_bufs_sub .., binary_bufs_sub .., unary_bufs_sub ..,
    binary_bufs_sub .., ternary_bufs_sub ..⟩

theorem S3_fresh : (S3 (F := F)).Forall fun op => op.fresh = ∅ := by
  unfold S3
  exact ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl⟩

theorem S4_sub : (S4 (F := F)).Forall fun op => op.bufs ⊆ tcRefs τ sig := by
  unfold S4
  exact ⟨nullary_bufs_sub .., unary_bufs_sub .., binary_bufs_sub .., nullary_bufs_sub .., unary_bufs_sub .., binary_bufs_sub ..,
    nullary_bufs_sub .., unary_bufs_sub .., unary_bufs_sub .., ternary_bufs_sub .., nullary_bufs_sub .., unary_bufs_sub ..,
    unary_bufs_sub .., ternary_bufs_sub .., nullary_bufs_sub .., unary_bufs_sub .., unary_bufs_sub .., ternary_bufs_sub ..,
    nullary_bufs_sub .., unary_bufs_sub .., unary_bufs_sub .., ternary_bufs_sub .., nullary_bufs_sub .., unary_bufs_sub ..,
    unary_bufs_sub .., ternary_bufs_sub .., nullary_bufs_sub .., unary_bufs_sub .., unary_bufs_sub .., ternary_bufs_sub ..⟩

theorem S4_fresh : (S4 (F := F)).Forall fun op => op.fresh = ∅ := by
  unfold S4
  exact ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl⟩

theorem S5_sub : (S5 (F := F)).Forall fun op => op.bufs ⊆ tcRefs τ sig := by
  unfold S5
  exact ⟨nullary_bufs_sub .., unary_bufs_sub .., binary_bufs_sub .., nullary_bufs_sub .., unary_bufs_sub .., unary_bufs_sub ..,
    binary_bufs_sub .., unary_bufs_sub .., unary_bufs_sub .., unary_bufs_sub .., binary_bufs_sub .., unary_bufs_sub ..,
    binary_bufs_sub .., nullary_bufs_sub .., unary_bufs_sub .., binary_bufs_sub .., binary_bufs_sub .., nullary_bufs_sub ..,
    unary_bufs_sub .., binary_bufs_sub .., ternary_bufs_sub .., nullary_bufs_sub .., unary_bufs_sub .., binary_bufs_sub ..,
    binary_bufs_sub .., nullary_bufs_sub .., unary_bufs_sub .., unary_bufs_sub .., binary_bufs_sub .., unary_bufs_sub ..,
    unary_bufs_sub .., unary_bufs_sub .., binary_bufs_sub .., unary_bufs_sub .., binary_bufs_sub .., nullary_bufs_sub ..,
    unary_bufs_sub .., binary_bufs_sub .., binary_bufs_sub .., nullary_bufs_sub .., unary_bufs_sub .., binary_bufs_sub ..,
    ternary_bufs_sub .., binary_bufs_sub ..⟩

theorem S5_fresh : (S5 (F := F)).Forall fun op => op.fresh = ∅ := by
  unfold S5
  exact ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl⟩

theorem S6_sub : (S6 (F := F)).Forall fun op => op.bufs ⊆ tcRefs τ sig := by
  unfold S6
  exact ⟨unary_bufs_sub .., reshape_bufs_sub ..⟩

theorem S6_fresh : (S6 (F := F)).Forall fun op => op.fresh = ∅ := by
  unfold S6
  exact ⟨rfl, rfl⟩

theorem S7_sub : (S7 (F := F)).Forall fun op => op.bufs ⊆ tcRefs τ sig := by
  unfold S7
  exact ⟨nullary_bufs_sub .., unary_bufs_sub .., unary_bufs_sub .., ternary_bufs_sub .., nullary_bufs_sub .., unary_bufs_sub ..,
    unary_bufs_sub .., ternary_bufs_sub .., nullary_bufs_sub .., unary_bufs_sub .., unary_bufs_sub .., ternary_bufs_sub ..,
    nullary_bufs_sub .., unary_bufs_sub .., unary_bufs_sub .., ternary_bufs_sub .., unary_bufs_sub .., unary_bufs_sub ..,
    unary_bufs_sub .., unary_bufs_sub ..⟩

theorem S7_fresh : (S7 (F := F)).Forall fun op => op.fresh = ∅ := by
  unfold S7
  exact ⟨rfl, rfl, rfl, rfl, rfl, rfl, rfl, rfl, rfl, rfl, rfl, rfl, rfl, rfl, rfl, rfl, rfl, rfl, rfl, rfl⟩

theorem S8_sub : (S8 (F := F)).Forall fun op => op.bufs ⊆ tcRefs τ sig := by
  unfold S8
  exact nary_bufs_sub ..

theorem S8_fresh : (S8 (F := F)).Forall fun op => op.fresh = ∅ := by
  unfold S8
  exact rfl

theorem S9_sub : (S9 (F := F)).Forall fun op => op.bufs ⊆ tcRefs τ sig := by
  unfold S9
  exact ⟨unary_bufs_sub .., unary_bufs_sub .., unary_bufs_sub ..⟩

theorem S9_fresh : (S9 (F := F)).Forall fun op => op.fresh = ∅ := by
  unfold S9
  exact ⟨rfl, rfl, rfl⟩

theorem S10_sub : (S10 (F := F)).Forall fun op => op.bufs ⊆ tcRefs τ sig := by
  unfold S10
  exact nary_bufs_sub ..

theorem S10_fresh : (S10 (F := F)).Forall fun op => op.fresh = ∅ := by
  unfold S10
  exact rfl

theorem ops_sub : (ops (F := F)).Forall fun op => op.bufs ⊆ tcRefs τ sig := by
  unfold ops
  simp only [List.forall_append]
  exact ⟨S1_sub, S2_sub, S3_sub, S4_sub, S5_sub, S6_sub, S7_sub, S8_sub, S9_sub, S10_sub⟩

theorem ops_fresh : ∀ op ∈ ops (F := F), op.fresh = ∅ := by
  have h : (ops (F := F)).Forall fun op => op.fresh = ∅ := by
    unfold ops
    simp only [List.forall_append]
    exact ⟨S1_fresh, S2_fresh, S3_fresh, S4_fresh, S5_fresh, S6_fresh, S7_fresh, S8_fresh, S9_fresh, S10_fresh⟩
  exact List.forall_iff_forall_mem.1 h

theorem scopedRefs_eq : (Finset.univ.filter fun b : Ref sig .tc => b.isScoped) = ∅ := by decide
theorem scopedSems_eq : (Finset.univ.filter fun sm : SemLoc sig => sm.isScoped .tc) = ∅ := by decide

end Cert.ReferenceIdeal.Hand.RunAux

end
-- ==== Proof.RRunEq.lean ====
/-
  @main is the straight line of its operations: the outlined functions' definitions unfolded at their calls and the
  call records at their fields, both sides are one chain of host steps once sequencing is reassociated.
-/
import proofs.«132806_j50629074485716_2_alg».proof.Proof.RRunOps

noncomputable section

namespace Cert.ReferenceIdeal.Hand.RunAux

open Cert.ReferenceIdeal Cert.ReferenceIdeal.Facts₀ Cert.ReferenceIdeal.Hand Idealize.ShloMosaic Idealize.ShloMosaic.TcCoe Idealize.SL.Sem Idealize.ShloMosaic.StableHlo

variable [Facts] {F : FTy → Type} [FloatOps F]

set_option maxRecDepth 65536 in
set_option maxHeartbeats 8000000 in
theorem main_eq (c : Dev nD) : main (F := F) c = seq ops := by
  simp only [main, main_part0, main_part1, fn_divmod.body, fn_floor_divide.body, fn_remainder.body, fn_where.body,
    fn_where_0.body, fn_where_1.body, fn_floor_divide_2.body, ops, S1, S2, S3, S4, S5, S6, S7, S8, S9, S10,
    List.cons_append, List.nil_append, seq, bind_assoc, pure_bind]

end Cert.ReferenceIdeal.Hand.RunAux

end
-- ==== Proof.RRun.lean ====
/-
  The reference's run: every weakly fair execution of its @main terminates with the four results at the terms of
  RTerms and the image unchanged. The operations are read stage by stage — each stage's results as functions of
  what the stage before left, each named term from the named terms before it — and the run itself is the
  library's for a straight line of host operations.
-/
import proofs.«132806_j50629074485716_2_alg».proof.Proof.RRunOps
import proofs.«132806_j50629074485716_2_alg».proof.Proof.RRunLib
import proofs.«132806_j50629074485716_2_alg».proof.Proof.RRunValA
import proofs.«132806_j50629074485716_2_alg».proof.Proof.RRunValB
import proofs.«132806_j50629074485716_2_alg».proof.Proof.RRunValC
import proofs.«132806_j50629074485716_2_alg».proof.Proof.RRunSide
import proofs.«132806_j50629074485716_2_alg».proof.Proof.RRunEq
import Idealize.ShloMosaic.PureOps.Ideal

noncomputable section

namespace Cert.ReferenceIdeal.Hand.RunAux

open Cert.ReferenceIdeal Cert.ReferenceIdeal.Facts₀ Cert.ReferenceIdeal.Hand Idealize.ShloMosaic Idealize.ShloMosaic.TcCoe Idealize.SL.Sem Idealize.ShloMosaic.StableHlo

variable [Facts] {F : FTy → Type} [FloatOps F]

/-! ## The buffers after each stage -/

/-- The buffers after stages 1 … k, from contents `V`. -/
abbrev P1 (V : Valuation τ sig (Elt F)) : Valuation τ sig (Elt F) := after S1 V
abbrev P2 (V : Valuation τ sig (Elt F)) : Valuation τ sig (Elt F) := after S2 (P1 V)
abbrev P3 (V : Valuation τ sig (Elt F)) : Valuation τ sig (Elt F) := after S3 (P2 V)
abbrev P4 (V : Valuation τ sig (Elt F)) : Valuation τ sig (Elt F) := after S4 (P3 V)
abbrev P5 (V : Valuation τ sig (Elt F)) : Valuation τ sig (Elt F) := after S5 (P4 V)
abbrev P6 (V : Valuation τ sig (Elt F)) : Valuation τ sig (Elt F) := after S6 (P5 V)
abbrev P7 (V : Valuation τ sig (Elt F)) : Valuation τ sig (Elt F) := after S7 (P6 V)
abbrev P8 (V : Valuation τ sig (Elt F)) : Valuation τ sig (Elt F) := after S8 (P7 V)
abbrev P9 (V : Valuation τ sig (Elt F)) : Valuation τ sig (Elt F) := after S9 (P8 V)
abbrev P10 (V : Valuation τ sig (Elt F)) : Valuation τ sig (Elt F) := after S10 (P9 V)

/-- The whole line is the ten stages in turn. -/
theorem after_ops (V : Valuation τ sig (Elt F)) : after ops V = P10 V := by
  unfold ops
  simp only [after_app]

theorem p1_v1_0 (V : Valuation τ sig (Elt F)) : P1 V (main_v1_0 : DevRef τ sig) = q1 := s1_v1_0 V
theorem p1_v1_1 (V : Valuation τ sig (Elt F)) : P1 V (main_v1_1 : DevRef τ sig) = colR := s1_v1_1 V
theorem p1_arg0 (V : Valuation τ sig (Elt F)) : P1 V (main_arg0 : DevRef τ sig) = V (main_arg0 : DevRef τ sig) := s1_f_arg0 V

theorem p2_v2_0 (V : Valuation τ sig (Elt F)) : P2 V (main_v2_0 : DevRef τ sig) = q2 := s2_v2_0 (P1 V) (p1_v1_0 V)
theorem p2_v2_1 (V : Valuation τ sig (Elt F)) : P2 V (main_v2_1 : DevRef τ sig) = rowR := s2_v2_1 (P1 V) (p1_v1_0 V)
theorem p2_v1_1 (V : Valuation τ sig (Elt F)) : P2 V (main_v1_1 : DevRef τ sig) = colR := (s2_f_v1_1 (P1 V)).trans (p1_v1_1 V)
theorem p2_arg0 (V : Valuation τ sig (Elt F)) : P2 V (main_arg0 : DevRef τ sig) = V (main_arg0 : DevRef τ sig) := (s2_f_arg0 (P1 V)).trans (p1_arg0 V)

theorem p3_v3_0 (V : Valuation τ sig (Elt F)) : P3 V (main_v3_0 : DevRef τ sig) = q3 := s3_v3_0 (P2 V) (p2_v2_0 V)
theorem p3_v3_1 (V : Valuation τ sig (Elt F)) : P3 V (main_v3_1 : DevRef τ sig) = batR := s3_v3_1 (P2 V) (p2_v2_0 V)
theorem p3_v1_1 (V : Valuation τ sig (Elt F)) : P3 V (main_v1_1 : DevRef τ sig) = colR := (s3_f_v1_1 (P2 V)).trans (p2_v1_1 V)
theorem p3_v2_1 (V : Valuation τ sig (Elt F)) : P3 V (main_v2_1 : DevRef τ sig) = rowR := (s3_f_v2_1 (P2 V)).trans (p2_v2_1 V)
theorem p3_arg0 (V : Valuation τ sig (Elt F)) : P3 V (main_arg0 : DevRef τ sig) = V (main_arg0 : DevRef τ sig) := (s3_f_arg0 (P2 V)).trans (p2_arg0 V)

theorem p4_v9 (V : Valuation τ sig (Elt F)) : P4 V (main_v9 : DevRef τ sig) = bat := (s4_v9 (P3 V) (p3_v3_0 V) (p3_v3_1 V)).trans clip_bat
theorem p4_v11 (V : Valuation τ sig (Elt F)) : P4 V (main_v11 : DevRef τ sig) = row := (s4_v11 (P3 V) (p3_v3_0 V) (p3_v2_1 V)).trans clip_row
theorem p4_v13 (V : Valuation τ sig (Elt F)) : P4 V (main_v13 : DevRef τ sig) = col := (s4_v13 (P3 V) (p3_v3_0 V) (p3_v1_1 V)).trans clip_col
theorem p4_arg0 (V : Valuation τ sig (Elt F)) : P4 V (main_arg0 : DevRef τ sig) = V (main_arg0 : DevRef τ sig) := (s4_f_arg0 (P3 V)).trans (p3_arg0 V)

theorem p5_v21 (V : Valuation τ sig (Elt F)) : P5 V (main_v21 : DevRef τ sig) = seg := (s5_v21 (P4 V) (p4_v9 V) (p4_v11 V) (p4_v13 V)).trans segOf_seg
theorem p5_v9 (V : Valuation τ sig (Elt F)) : P5 V (main_v9 : DevRef τ sig) = bat := (s5_f_v9 (P4 V)).trans (p4_v9 V)
theorem p5_v11 (V : Valuation τ sig (Elt F)) : P5 V (main_v11 : DevRef τ sig) = row := (s5_f_v11 (P4 V)).trans (p4_v11 V)
theorem p5_v13 (V : Valuation τ sig (Elt F)) : P5 V (main_v13 : DevRef τ sig) = col := (s5_f_v13 (P4 V)).trans (p4_v13 V)
theorem p5_arg0 (V : Valuation τ sig (Elt F)) : P5 V (main_arg0 : DevRef τ sig) = V (main_arg0 : DevRef τ sig) := (s5_f_arg0 (P4 V)).trans (p4_arg0 V)

theorem p6_v23 (V : Valuation τ sig (Elt F)) : P6 V (main_v23 : DevRef τ sig) = fV (F := F) (V (main_arg0 : DevRef τ sig)) := s6_v23 (P5 V) (p5_arg0 V)
theorem p6_v9 (V : Valuation τ sig (Elt F)) : P6 V (main_v9 : DevRef τ sig) = bat := (s6_f_v9 (P5 V)).trans (p5_v9 V)
theorem p6_v11 (V : Valuation τ sig (Elt F)) : P6 V (main_v11 : DevRef τ sig) = row := (s6_f_v11 (P5 V)).trans (p5_v11 V)
theorem p6_v13 (V : Valuation τ sig (Elt F)) : P6 V (main_v13 : DevRef τ sig) = col := (s6_f_v13 (P5 V)).trans (p5_v13 V)
theorem p6_v21 (V : Valuation τ sig (Elt F)) : P6 V (main_v21 : DevRef τ sig) = seg := (s6_f_v21 (P5 V)).trans (p5_v21 V)
theorem p6_arg0 (V : Valuation τ sig (Elt F)) : P6 V (main_arg0 : DevRef τ sig) = V (main_arg0 : DevRef τ sig) := (s6_f_arg0 (P5 V)).trans (p5_arg0 V)

theorem p7_v36 (V : Valuation τ sig (Elt F)) : P7 V (main_v36 : DevRef τ sig) = asRow16384 (segMin row) := s7_v36 (P6 V) (p6_v21 V) (p6_v11 V)
theorem p7_v37 (V : Valuation τ sig (Elt F)) : P7 V (main_v37 : DevRef τ sig) = asRow16384 (segMin col) := s7_v37 (P6 V) (p6_v21 V) (p6_v13 V)
theorem p7_v38 (V : Valuation τ sig (Elt F)) : P7 V (main_v38 : DevRef τ sig) = asRow16384 (segMax row) := s7_v38 (P6 V) (p6_v21 V) (p6_v11 V)
theorem p7_v39 (V : Valuation τ sig (Elt F)) : P7 V (main_v39 : DevRef τ sig) = asRow16384 (segMax col) := s7_v39 (P6 V) (p6_v21 V) (p6_v13 V)
theorem p7_v9 (V : Valuation τ sig (Elt F)) : P7 V (main_v9 : DevRef τ sig) = bat := (s7_f_v9 (P6 V)).trans (p6_v9 V)
theorem p7_v11 (V : Valuation τ sig (Elt F)) : P7 V (main_v11 : DevRef τ sig) = row := (s7_f_v11 (P6 V)).trans (p6_v11 V)
theorem p7_v13 (V : Valuation τ sig (Elt F)) : P7 V (main_v13 : DevRef τ sig) = col := (s7_f_v13 (P6 V)).trans (p6_v13 V)
theorem p7_v21 (V : Valuation τ sig (Elt F)) : P7 V (main_v21 : DevRef τ sig) = seg := (s7_f_v21 (P6 V)).trans (p6_v21 V)
theorem p7_v23 (V : Valuation τ sig (Elt F)) : P7 V (main_v23 : DevRef τ sig) = fV (F := F) (V (main_arg0 : DevRef τ sig)) := (s7_f_v23 (P6 V)).trans (p6_v23 V)
theorem p7_arg0 (V : Valuation τ sig (Elt F)) : P7 V (main_arg0 : DevRef τ sig) = V (main_arg0 : DevRef τ sig) := (s7_f_arg0 (P6 V)).trans (p6_arg0 V)

theorem p8_v40 (V : Valuation τ sig (Elt F)) : P8 V (main_v40 : DevRef τ sig) = bbox := s8_v40 (P7 V) (p7_v36 V) (p7_v37 V) (p7_v38 V) (p7_v39 V)
theorem p8_v9 (V : Valuation τ sig (Elt F)) : P8 V (main_v9 : DevRef τ sig) = bat := (s8_f_v9 (P7 V)).trans (p7_v9 V)
theorem p8_v11 (V : Valuation τ sig (Elt F)) : P8 V (main_v11 : DevRef τ sig) = row := (s8_f_v11 (P7 V)).trans (p7_v11 V)
theorem p8_v13 (V : Valuation τ sig (Elt F)) : P8 V (main_v13 : DevRef τ sig) = col := (s8_f_v13 (P7 V)).trans (p7_v13 V)
theorem p8_v21 (V : Valuation τ sig (Elt F)) : P8 V (main_v21 : DevRef τ sig) = seg := (s8_f_v21 (P7 V)).trans (p7_v21 V)
theorem p8_v23 (V : Valuation τ sig (Elt F)) : P8 V (main_v23 : DevRef τ sig) = fV (F := F) (V (main_arg0 : DevRef τ sig)) := (s8_f_v23 (P7 V)).trans (p7_v23 V)
theorem p8_arg0 (V : Valuation τ sig (Elt F)) : P8 V (main_arg0 : DevRef τ sig) = V (main_arg0 : DevRef τ sig) := (s8_f_arg0 (P7 V)).trans (p7_arg0 V)

theorem p9_v41 (V : Valuation τ sig (Elt F)) : P9 V (main_v41 : DevRef τ sig) = asRowPix bat := s9_v41 (P8 V) (p8_v9 V)
theorem p9_v42 (V : Valuation τ sig (Elt F)) : P9 V (main_v42 : DevRef τ sig) = asRowPix row := s9_v42 (P8 V) (p8_v11 V)
theorem p9_v43 (V : Valuation τ sig (Elt F)) : P9 V (main_v43 : DevRef τ sig) = asRowPix col := s9_v43 (P8 V) (p8_v13 V)
theorem p9_v21 (V : Valuation τ sig (Elt F)) : P9 V (main_v21 : DevRef τ sig) = seg := (s9_f_v21 (P8 V)).trans (p8_v21 V)
theorem p9_v23 (V : Valuation τ sig (Elt F)) : P9 V (main_v23 : DevRef τ sig) = fV (F := F) (V (main_arg0 : DevRef τ sig)) := (s9_f_v23 (P8 V)).trans (p8_v23 V)
theorem p9_v40 (V : Valuation τ sig (Elt F)) : P9 V (main_v40 : DevRef τ sig) = bbox := (s9_f_v40 (P8 V)).trans (p8_v40 V)
theorem p9_arg0 (V : Valuation τ sig (Elt F)) : P9 V (main_arg0 : DevRef τ sig) = V (main_arg0 : DevRef τ sig) := (s9_f_arg0 (P8 V)).trans (p8_arg0 V)

theorem p10_v44 (V : Valuation τ sig (Elt F)) : P10 V (main_v44 : DevRef τ sig) = byx := s10_v44 (P9 V) (p9_v41 V) (p9_v42 V) (p9_v43 V)
theorem p10_v21 (V : Valuation τ sig (Elt F)) : P10 V (main_v21 : DevRef τ sig) = seg := (s10_f_v21 (P9 V)).trans (p9_v21 V)
theorem p10_v23 (V : Valuation τ sig (Elt F)) : P10 V (main_v23 : DevRef τ sig) = fV (F := F) (V (main_arg0 : DevRef τ sig)) := (s10_f_v23 (P9 V)).trans (p9_v23 V)
theorem p10_v40 (V : Valuation τ sig (Elt F)) : P10 V (main_v40 : DevRef τ sig) = bbox := (s10_f_v40 (P9 V)).trans (p9_v40 V)
theorem p10_arg0 (V : Valuation τ sig (Elt F)) : P10 V (main_arg0 : DevRef τ sig) = V (main_arg0 : DevRef τ sig) := (s10_f_arg0 (P9 V)).trans (p9_arg0 V)

end Cert.ReferenceIdeal.Hand.RunAux

namespace Cert.ReferenceIdeal.Hand

open Cert.ReferenceIdeal Cert.ReferenceIdeal.Facts₀ Idealize.ShloMosaic Idealize.ShloMosaic.TcCoe Idealize.SL.Sem Idealize.ShloMosaic.StableHlo
open Cert.ReferenceIdeal.Hand.RunAux

variable [Facts]

/-- On every device, from any memory with zero counters: every weakly fair execution of the reference's @main
    terminates with the channel-last image, the patch numbers, the coordinate rows and the bounding boxes at the
    terms of RTerms, and the image unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v23) = fV (F := Ideal) (m ((c.tc : Thread nD τ).loc main_arg0))
      ∧ r.2.mem ((c.tc : Thread nD τ).loc main_v21) = seg
      ∧ r.2.mem ((c.tc : Thread nD τ).loc main_v44) = byx
      ∧ r.2.mem ((c.tc : Thread nD τ).loc main_v40) = bbox
      ∧ r.2.mem ((c.tc : Thread nD τ).loc main_arg0) = m ((c.tc : Thread nD τ).loc main_arg0)) :=
  (θ_run defs _ _).mono (fun _ h c =>
      ⟨(h c main_v23).trans ((congrFun (after_ops _) _).trans (p10_v23 _)),
       (h c main_v21).trans ((congrFun (after_ops _) _).trans (p10_v21 _)),
       (h c main_v44).trans ((congrFun (after_ops _) _).trans (p10_v44 _)),
       (h c main_v40).trans ((congrFun (after_ops _) _).trans (p10_v40 _)),
       (h c main_arg0).trans ((congrFun (after_ops _) _).trans (p10_arg0 _))⟩)
    (run_seq scopedRefs_eq scopedSems_eq defs main (fun _ => ops) main_eq (fun _ => ops_sub) m ρ (fun _ => ops_fresh))

end Cert.ReferenceIdeal.Hand

end
-- ==== Proof.LibWordDiv.lean ====
/-
  Floor division and remainder of small non-negative 32-bit words.

  Floor division `x // c` and the remainder `x % c` of the divisor's sign, on 32-bit integers, are spelt with
  the machine's truncating signed division and remainder, a sign comparison and a correction (the quotient
  less one, the remainder plus the divisor, where the signs differ and the remainder is not zero). On words that denote
  numbers below 2^31 — the dividend non-negative, the divisor positive — none of that matters: the signed
  quotient and remainder are the ones on natural numbers, no division corner (a zero divisor, INT_MIN / -1)
  is met, the signs never differ where the remainder is not zero, and the corrections are never taken.
  This file proves that, word by word: `fdivW x c` denotes `x.toNat / c.toNat` and `remW x c` denotes
  `x.toNat % c.toNat`.
-/
import Idealize.ShloMosaic.Lib.ValueIdx

open Idealize.ShloMosaic

namespace Cert.WordDiv

/-! ### Small words -/

/-- A word below 2^31 has its sign bit clear. -/
theorem msb_of_lt {x : BitVec 32} (h : x.toNat < 2 ^ 31) : x.msb = false := by
  rw [BitVec.msb_eq_false_iff_two_mul_lt]; omega

/-- A number below 2^32, as a word, denotes itself. -/
theorem toNat_ofNat_of_lt {k : Nat} (hk : k < 2 ^ 32) : (BitVec.ofNat 32 k).toNat = k := by
  rw [BitVec.toNat_ofNat, Nat.mod_eq_of_lt hk]

/-- A word is the word of the number it denotes. -/
theorem eq_ofNat_toNat (x : BitVec 32) : x = BitVec.ofNat 32 x.toNat := by
  apply BitVec.eq_of_toNat_eq; rw [BitVec.toNat_ofNat, Nat.mod_eq_of_lt x.isLt]

/-- A word that denotes a positive number is not the zero word. -/
theorem ne_zero_of_pos {c : BitVec 32} (hc : 0 < c.toNat) : c ≠ 0 := by
  intro h; rw [h] at hc; simp at hc

/-! ### The machine's signed division and remainder off the corner -/

/-- Non-negative dividend, positive divisor: no division corner. -/
theorem not_corner {x c : BitVec 32} (hx : x.toNat < 2 ^ 31) (hc : 0 < c.toNat) : ¬ IntOp.SDivCorner x c := by
  rintro (h | ⟨h, -⟩)
  · exact ne_zero_of_pos hc h
  · rw [h] at hx; simp [BitVec.toNat_intMin] at hx

/-- The signed quotient of a non-negative word by a positive one is the quotient of the numbers. -/
theorem divsi_host {x c : BitVec 32} (hx : x.toNat < 2 ^ 31) (hc0 : 0 < c.toNat) (hc : c.toNat < 2 ^ 31) :
    IntOp.divsi .host x c = BitVec.ofNat 32 (x.toNat / c.toNat) := by
  unfold IntOp.divsi
  rw [if_neg (not_corner hx hc0), BitVec.sdiv_eq, msb_of_lt hx, msb_of_lt hc]
  show x.udiv c = _
  rw [BitVec.udiv_eq]
  apply BitVec.eq_of_toNat_eq
  rw [BitVec.toNat_udiv, toNat_ofNat_of_lt]
  exact lt_of_le_of_lt (Nat.div_le_self _ _) (by omega)

/-- The signed remainder of a non-negative word by a positive one is the remainder of the numbers. -/
theorem remsi_host {x c : BitVec 32} (hx : x.toNat < 2 ^ 31) (hc0 : 0 < c.toNat) (hc : c.toNat < 2 ^ 31) :
    IntOp.remsi .host x c = BitVec.ofNat 32 (x.toNat % c.toNat) := by
  unfold IntOp.remsi
  rw [if_neg (not_corner hx hc0), BitVec.srem_eq, msb_of_lt hx, msb_of_lt hc]
  show x % c = _
  apply BitVec.eq_of_toNat_eq
  rw [BitVec.toNat_umod, toNat_ofNat_of_lt]
  exact lt_of_le_of_lt (Nat.mod_le _ _) (by omega)

/-! ### Signs and comparisons of small words -/

/-- The sign word: 0, -1 or 1. -/
def sgnW (x : BitVec 32) : BitVec 32 := if x = 0 then 0 else if x.msb then -1 else 1

/-- The sign of a positive small word is one. -/
theorem sgnW_pos {c : BitVec 32} (hc0 : 0 < c.toNat) (hc : c.toNat < 2 ^ 31) : sgnW c = 1 := by
  unfold sgnW; rw [if_neg (ne_zero_of_pos hc0), msb_of_lt hc]; rfl

/-- A small word is not below zero. -/
theorem cmpi_slt_zero {x : BitVec 32} (hx : x.toNat < 2 ^ 31) : IntOp.cmpi .slt x 0#32 = 0#1 := by
  have hs : x.slt 0#32 = false := by
    rw [BitVec.slt_eq_decide, BitVec.toInt_eq_toNat_of_msb (msb_of_lt hx)]; simp
  simp [IntOp.cmpi, hs]

/-- A word does not differ from itself. -/
theorem cmpi_ne_self {w : Nat} (a : BitVec w) : IntOp.cmpi .ne a a = 0#1 := by simp [IntOp.cmpi]

/-- Two different words are not equal. -/
theorem cmpi_eq_of_ne {w : Nat} {a b : BitVec w} (h : a ≠ b) : IntOp.cmpi .eq a b = 0#1 := by
  have hb : (a == b) = false := by simpa using h
  simp [IntOp.cmpi, hb]

theorem andi_zero_left (y : BitVec 1) : IntOp.andi 0#1 y = 0#1 := by simp [IntOp.andi]
theorem andi_zero_right (y : BitVec 1) : IntOp.andi y 0#1 = 0#1 := by simp [IntOp.andi]

/-! ### Floor division and remainder, at one word -/

/-- Floor division at one word: the truncated quotient, less one where the signs differ and the
    remainder is not zero. -/
def fdivW (x c : BitVec 32) : BitVec 32 :=
  Scalar.select
    (IntOp.andi (IntOp.cmpi .ne (sgnW x) (sgnW c)) (IntOp.cmpi .ne (IntOp.remsi .host x c) 0#32))
    (IntOp.subi (IntOp.divsi .host x c) 1#32)
    (IntOp.divsi .host x c)

/-- The divisor the remainder really divides by: one in place of zero. -/
def safeW (c : BitVec 32) : BitVec 32 := Scalar.select (IntOp.cmpi .eq c 0#32) 1#32 c

/-- The floor remainder at one word: the truncated remainder, plus the divisor where it is not zero and its
    sign differs from the divisor's. -/
def remW (x c : BitVec 32) : BitVec 32 :=
  Scalar.select
    (IntOp.andi (IntOp.cmpi .ne (IntOp.cmpi .slt (IntOp.remsi .host x (safeW c)) 0#32) (IntOp.cmpi .slt (safeW c) 0#32))
                (IntOp.cmpi .ne (IntOp.remsi .host x (safeW c)) 0#32))
    (IntOp.addi (IntOp.remsi .host x (safeW c)) (safeW c))
    (IntOp.remsi .host x (safeW c))

/-- A positive divisor is kept. -/
theorem safeW_pos {c : BitVec 32} (hc0 : 0 < c.toNat) : safeW c = c := by
  unfold safeW; rw [cmpi_eq_of_ne (b := 0#32) (ne_zero_of_pos hc0)]; exact ValueIdx.select_zero _ _

/-- Floor division of a non-negative small word by a positive small word is the quotient of the numbers. -/
theorem fdivW_eq {x c : BitVec 32} (hx : x.toNat < 2 ^ 31) (hc0 : 0 < c.toNat) (hc : c.toNat < 2 ^ 31) :
    fdivW x c = BitVec.ofNat 32 (x.toNat / c.toNat) := by
  unfold fdivW
  have hsel : IntOp.andi (IntOp.cmpi .ne (sgnW x) (sgnW c)) (IntOp.cmpi .ne (IntOp.remsi .host x c) 0#32) = 0#1 := by
    by_cases h0 : x = 0#32
    · subst h0
      rw [remsi_host (by simp) hc0 hc]
      simp [IntOp.cmpi, IntOp.andi]
    · have hx0 : 0 < x.toNat := by
        rcases Nat.eq_zero_or_pos x.toNat with h | h
        · exact absurd (BitVec.eq_of_toNat_eq (by simpa using h)) h0
        · exact h
      rw [sgnW_pos hx0 hx, sgnW_pos hc0 hc, cmpi_ne_self]; exact andi_zero_left _
  rw [hsel, ValueIdx.select_zero, divsi_host hx hc0 hc]

/-- The remainder of a non-negative small word by a positive small word is the remainder of the numbers. -/
theorem remW_eq {x c : BitVec 32} (hx : x.toNat < 2 ^ 31) (hc0 : 0 < c.toNat) (hc : c.toNat < 2 ^ 31) :
    remW x c = BitVec.ofNat 32 (x.toNat % c.toNat) := by
  unfold remW
  rw [safeW_pos hc0, remsi_host hx hc0 hc]
  have hr : (BitVec.ofNat 32 (x.toNat % c.toNat)).toNat < 2 ^ 31 := by
    rw [toNat_ofNat_of_lt (lt_of_le_of_lt (Nat.mod_le _ _) (by omega))]
    exact lt_trans (Nat.mod_lt _ hc0) hc
  rw [cmpi_slt_zero hr, cmpi_slt_zero hc, cmpi_ne_self, andi_zero_left, ValueIdx.select_zero]

/-- The quotient's denotation. -/
theorem toNat_fdivW {x c : BitVec 32} (hx : x.toNat < 2 ^ 31) (hc0 : 0 < c.toNat) (hc : c.toNat < 2 ^ 31) :
    (fdivW x c).toNat = x.toNat / c.toNat := by
  rw [fdivW_eq hx hc0 hc, toNat_ofNat_of_lt (lt_of_le_of_lt (Nat.div_le_self _ _) (by omega))]

/-- The remainder's denotation. -/
theorem toNat_remW {x c : BitVec 32} (hx : x.toNat < 2 ^ 31) (hc0 : 0 < c.toNat) (hc : c.toNat < 2 ^ 31) :
    (remW x c).toNat = x.toNat % c.toNat := by
  rw [remW_eq hx hc0 hc, toNat_ofNat_of_lt (lt_of_le_of_lt (Nat.mod_le _ _) (by omega))]

end Cert.WordDiv
-- ==== Proof.RValCoord.lean ====
/-
  The reference's coordinates and patch number at one pixel.

  The pixel numbers 0 … 16·512·512 − 1 are 32-bit words that denote numbers below 2^23; unravelling one into
  (batch, row, column) does three floor divisions with remainder, by 512, 512 and 16, and clips. Every word
  met on the way is a small non-negative number, so each floor division is the division of the numbers
  (LibWordDiv), the last quotient is zero, and nothing is clipped: the three coordinates of pixel `e` are
  `e / 512²`, `(e / 512) % 512` and `e % 512`, and its patch number is the number `Spec.segN e`.
-/
import proofs.«132806_j50629074485716_2_alg».proof.Proof.RTerms
import proofs.«132806_j50629074485716_2_alg».proof.Proof.Spec
import proofs.«132806_j50629074485716_2_alg».proof.Proof.LibWordDiv

noncomputable section

namespace Cert.ReferenceIdeal.Hand

open Idealize.ShloMosaic Idealize.ShloMosaic.ValueIdx Cert.ReferenceIdeal Cert.ReferenceIdeal.Facts₀ Cert.WordDiv

variable [Facts]

/-! ### The outlined functions at one pixel -/

/-- A repeated scalar word, at any pixel, is the word. -/
theorem rep_apply (c : IVec S_ 32) (i : S4194304.Idx) : rep c i = c ix0 :=
  congrArg c (funext fun a => a.elim0)

/-- Floor division by a scalar, at one pixel, is the floor division of the two words. -/
theorem fdiv_apply (x : IVec S4194304 32) (c : IVec S_ 32) (i : S4194304.Idx) : fdiv x c i = fdivW (x i) (c ix0) := by
  rw [← rep_apply c i]; rfl

/-- The remainder by a scalar, at one pixel, is the remainder of the two words. -/
theorem rem_apply (x : IVec S4194304 32) (c : IVec S_ 32) (i : S4194304.Idx) : rem x c i = remW (x i) (c ix0) := by
  rw [← rep_apply c i]; rfl

/-- `where p, c, x` at one pixel. -/
theorem pick_apply (p : IVec S4194304 1) (c : IVec S_ 32) (x : IVec S4194304 32) (i : S4194304.Idx) :
    pick p c x i = Scalar.select (p i) (c ix0) (x i) := by
  rw [← rep_apply c i]; rfl

/-- Pixel number `e` as a word. -/
theorem pix_apply (e : Fin 4194304) : pix (ix1 e) = BitVec.ofNat 32 e.val := rfl

/-! ### The three divisions with remainder -/

theorem toNat_pix (e : Fin 4194304) : (BitVec.ofNat 32 e.val).toNat = e.val :=
  toNat_ofNat_of_lt (by have := e.isLt; omega)

theorem q1_apply (e : Fin 4194304) : q1 (ix1 e) = BitVec.ofNat 32 (e.val / 512) := by
  unfold q1; rw [fdiv_apply, pix_apply]
  show fdivW _ 512#32 = _
  rw [fdivW_eq (by rw [toNat_pix]; have := e.isLt; omega) (by decide) (by decide), toNat_pix]; rfl

theorem colR_apply (e : Fin 4194304) : colR (ix1 e) = BitVec.ofNat 32 (e.val % 512) := by
  unfold colR; rw [rem_apply, pix_apply]
  show remW _ 512#32 = _
  rw [remW_eq (by rw [toNat_pix]; have := e.isLt; omega) (by decide) (by decide), toNat_pix]; rfl

theorem toNat_q1 (e : Fin 4194304) : (BitVec.ofNat 32 (e.val / 512)).toNat = e.val / 512 :=
  toNat_ofNat_of_lt (by have := e.isLt; omega)

theorem q2_apply (e : Fin 4194304) : q2 (ix1 e) = BitVec.ofNat 32 (e.val / 512 / 512) := by
  unfold q2; rw [fdiv_apply, q1_apply]
  show fdivW _ 512#32 = _
  rw [fdivW_eq (by rw [toNat_q1]; have := e.isLt; omega) (by decide) (by decide), toNat_q1]; rfl

theorem rowR_apply (e : Fin 4194304) : rowR (ix1 e) = BitVec.ofNat 32 (e.val / 512 % 512) := by
  unfold rowR; rw [rem_apply, q1_apply]
  show remW _ 512#32 = _
  rw [remW_eq (by rw [toNat_q1]; have := e.isLt; omega) (by decide) (by decide), toNat_q1]; rfl

theorem toNat_q2 (e : Fin 4194304) : (BitVec.ofNat 32 (e.val / 512 / 512)).toNat = e.val / 512 / 512 :=
  toNat_ofNat_of_lt (by have := e.isLt; omega)

/-- The last quotient is zero: a pixel number is inside the image. -/
theorem q3_apply (e : Fin 4194304) : q3 (ix1 e) = 0#32 := by
  unfold q3; rw [fdiv_apply, q2_apply]
  show fdivW _ 16#32 = _
  rw [fdivW_eq (by rw [toNat_q2]; have := e.isLt; omega) (by decide) (by decide), toNat_q2]
  have h : e.val / 512 / 512 / (16#32 : BitVec 32).toNat = 0 := by
    show e.val / 512 / 512 / 16 = 0
    have := e.isLt; omega
  rw [h]

theorem batR_apply (e : Fin 4194304) : batR (ix1 e) = BitVec.ofNat 32 (e.val / 512 / 512) := by
  unfold batR; rw [rem_apply, q2_apply]
  show remW _ 16#32 = _
  rw [remW_eq (by rw [toNat_q2]; have := e.isLt; omega) (by decide) (by decide), toNat_q2]
  have h : e.val / 512 / 512 % (16#32 : BitVec 32).toNat = e.val / 512 / 512 := by
    show e.val / 512 / 512 % 16 = e.val / 512 / 512
    have := e.isLt; omega
  rw [h]

/-! ### Nothing is clipped -/

theorem over_apply (e : Fin 4194304) : over (ix1 e) = 0#1 := by
  show IntOp.cmpi .sgt (q3 (ix1 e)) (rep (constantI S_ 32 0#32) (ix1 e)) = 0#1
  rw [q3_apply, rep_apply]; decide

theorem under_apply (e : Fin 4194304) : under (ix1 e) = 0#1 := by
  show IntOp.cmpi .slt (q3 (ix1 e)) (rep (constantI S_ 32 4294967295#32) (ix1 e)) = 0#1
  rw [q3_apply, rep_apply]; decide

theorem bat_apply (e : Fin 4194304) : bat (ix1 e) = BitVec.ofNat 32 (Cert.Spec.pb e.val) := by
  unfold bat
  rw [pick_apply, pick_apply, over_apply, under_apply, select_zero, select_zero, batR_apply]
  refine congrArg (BitVec.ofNat 32) ?_
  unfold Cert.Spec.pb; omega

theorem row_apply (e : Fin 4194304) : row (ix1 e) = BitVec.ofNat 32 (Cert.Spec.py e.val) := by
  unfold row
  rw [pick_apply, pick_apply, over_apply, under_apply, select_zero, select_zero, rowR_apply]
  rfl

theorem col_apply (e : Fin 4194304) : col (ix1 e) = BitVec.ofNat 32 (Cert.Spec.px e.val) := by
  unfold col
  rw [pick_apply, pick_apply, over_apply, under_apply, select_zero, select_zero, colR_apply]
  rfl

/-! ### The patch number -/

theorem toNat_small {k : Nat} (hk : k < 2 ^ 31) : (BitVec.ofNat 32 k).toNat = k := toNat_ofNat_of_lt (by omega)

theorem seg_apply (e : Fin 4194304) : seg (ix1 e) = BitVec.ofNat 32 (Cert.Spec.segN e.val) := by
  have hy := Cert.Spec.py_lt e.val
  have hx := Cert.Spec.px_lt e.val
  have hrow : fdiv row c16 (ix1 e) = BitVec.ofNat 32 (Cert.Spec.py e.val / 16) := by
    rw [fdiv_apply, row_apply]
    show fdivW _ 16#32 = _
    rw [fdivW_eq (by rw [toNat_small (by omega)]; omega) (by decide) (by decide), toNat_small (by omega)]; rfl
  have hcol : fdiv col c16 (ix1 e) = BitVec.ofNat 32 (Cert.Spec.px e.val / 16) := by
    rw [fdiv_apply, col_apply]
    show fdivW _ 16#32 = _
    rw [fdivW_eq (by rw [toNat_small (by omega)]; omega) (by decide) (by decide), toNat_small (by omega)]; rfl
  show (bat (ix1 e) * rep (constantI S_ 32 1024#32) (ix1 e) + fdiv row c16 (ix1 e) * rep (constantI S_ 32 32#32) (ix1 e))
      + fdiv col c16 (ix1 e) = _
  rw [bat_apply, hrow, hcol, rep_apply, rep_apply]
  show (BitVec.ofNat 32 _ * BitVec.ofNat 32 1024 + BitVec.ofNat 32 _ * BitVec.ofNat 32 32) + BitVec.ofNat 32 _ = _
  rw [← BitVec.ofNat_mul, ← BitVec.ofNat_mul, ← BitVec.ofNat_add, ← BitVec.ofNat_add]
  rfl

theorem seg_eq : seg = Cert.Spec.G2 := by
  funext i
  rw [eq_ix1 i]
  exact seg_apply (i 0)

end Cert.ReferenceIdeal.Hand

end
-- ==== Proof.RValByx.lean ====
/-
  The reference's coordinate table: three one-row tables — the batch, the row and the column of every pixel —
  stacked along axis 0. Row `r` of the stack, at pixel `e`, is piece `r` at `(0, e)`, which is the piece's
  vector at `e`; the three vectors at `e` are the three coordinates of pixel `e` (RValCoord).
-/
import proofs.«132806_j50629074485716_2_alg».proof.Proof.RValCoord
import Idealize.ShloMosaic.Lib.Pipeline.Value

noncomputable section

namespace Cert.ReferenceIdeal.Hand

open Idealize.ShloMosaic Idealize.ShloMosaic.ValueIdx Cert.ReferenceIdeal Cert.ReferenceIdeal.Facts₀

variable [Facts]

/-- A vector kept as a one-row table, read at `(0, e)`, is the vector at `e`. -/
theorem asRowPix_apply (v : IVec S4194304 32) (e : Fin 4194304) : asRowPix v (ix2 (0 : Fin 1) e) = v (ix1 e) :=
  broadcastInDim_apply _ _ v (ix2 (0 : Fin 1) e) (ix1 e) fun a => match a with
    | ⟨0, _⟩ => by
      show e.val = if (4194304 : Nat) = 1 then 0 else e.val
      rw [if_neg (by decide)]

/-- Three vectors as three one-row tables, each with its shape. -/
abbrev rows3 (v0 v1 v2 : IVec S4194304 32) : List ((s : Shape) × (s.Idx → BitVec 32)) :=
  [⟨S1x4194304, asRowPix v0⟩, ⟨S1x4194304, asRowPix v1⟩, ⟨S1x4194304, asRowPix v2⟩]

/-- Row `k` of a stack of three one-row tables is the `k`-th table's vector. -/
theorem stack3_apply (v0 v1 v2 : IVec S4194304 32) (k : Nat) (hk : k < 3) (v : IVec S4194304 32)
    (hv : (rows3 v0 v1 v2)[k] = ⟨S1x4194304, asRowPix v⟩)
    (hpre : ((((rows3 v0 v1 v2).take k).map (·.1)).map
        (fun s => if h : s.rank = S3x4194304.rank then s.size ((0 : Fin S3x4194304.rank).cast h.symm) else 0)).sum = k)
    (e : Fin 4194304) :
    concatenate S3x4194304 0 (rows3 v0 v1 v2)
      concatenates_S1x4194304_S1x4194304_S1x4194304_S3x4194304_d0 (ix2 (⟨k, hk⟩ : Fin 3) e) = v (ix1 e) := by
  refine (concatenate_apply_piece (0 : Fin S3x4194304.rank) (rows3 v0 v1 v2) _ (ix2 (⟨k, hk⟩ : Fin 3) e) k hk
    S1x4194304 (asRowPix v) hv rfl k hpre (ix2 (0 : Fin 1) e) (fun b hb => ?_) ?_).trans (asRowPix_apply v e)
  · match b with
    | ⟨0, _⟩ => exact absurd rfl hb
    | ⟨1, _⟩ => rfl
  · show k + 0 = k
    rfl

theorem byx_apply (r : Fin 3) (e : Fin 4194304) : byx (ix2 r e) = Cert.Spec.G3 (ix2 r e) := by
  unfold byx
  match r with
  | ⟨0, h⟩ => exact (stack3_apply bat row col 0 h bat rfl rfl e).trans (bat_apply e)
  | ⟨1, h⟩ => exact (stack3_apply bat row col 1 h row rfl rfl e).trans (row_apply e)
  | ⟨2, h⟩ => exact (stack3_apply bat row col 2 h col rfl rfl e).trans (col_apply e)
  | ⟨n + 3, h⟩ => exact absurd h (by omega)

theorem byx_eq : byx = Cert.Spec.G3 := by
  funext j
  rw [eq_ix2 j]
  exact byx_apply (j 0) (j 1)

end Cert.ReferenceIdeal.Hand

end
-- ==== Proof.RValImage.lean ====
/-
  The reference's channel-last image: the image [16, 3, 512, 512] with its channel axis moved last, then read
  as one row of three channels per pixel. Entry `(e, ch)` of the result has row-major position `3 e + ch`,
  which in the shape [16, 512, 512, 3] is the index (batch, row, column, channel) of pixel `e`; the
  transposition reads the image there at (batch, channel, row, column).
-/
import proofs.«132806_j50629074485716_2_alg».proof.Proof.RTerms
import proofs.«132806_j50629074485716_2_alg».proof.Proof.Spec
import Idealize.ShloMosaic.Lib.Pipeline.Value

noncomputable section

namespace Cert.ReferenceIdeal.Hand

open Idealize.ShloMosaic Idealize.ShloMosaic.ValueIdx Cert.ReferenceIdeal Cert.ReferenceIdeal.Facts₀

variable [Facts]

theorem fV_apply {F : FTy → Type} (img : FVec F S16x3x512x512 .f32) (e : Fin 4194304) (ch : Fin 3) :
    fV img (ix2 e ch) = Cert.Spec.G1 img (ix2 e ch) := by
  unfold fV
  -- the pixel's coordinates
  let b : Fin 16 := ⟨Cert.Spec.pb e.val, Cert.Spec.pb_lt e.isLt⟩
  let y : Fin 512 := ⟨Cert.Spec.py e.val, Cert.Spec.py_lt _⟩
  let x : Fin 512 := ⟨Cert.Spec.px e.val, Cert.Spec.px_lt _⟩
  refine (shapeCast_apply _ shapeCasts_S16x512x512x3_S4194304x3 (ix2 e ch) (ix4 b y x ch) ?_).trans ?_
  · rw [Shape.rowMajor_val_four, Shape.rowMajor_val_two]
    show ((Cert.Spec.pb e.val * 512 + Cert.Spec.py e.val) * 512 + Cert.Spec.px e.val) * 3 + ch.val = e.val * 3 + ch.val
    have := Cert.Spec.pix_eq e.val
    omega
  · refine (transpose_apply _ img transposes_S16x3x512x512_S16x512x512x3_0_2_3_1 (ix4 b y x ch) (ix4 b ch y x) ?_).trans rfl
    intro c
    match c with
    | ⟨0, _⟩ => rfl
    | ⟨1, _⟩ => rfl
    | ⟨2, _⟩ => rfl
    | ⟨3, _⟩ => rfl

theorem fV_eq {F : FTy → Type} (img : FVec F S16x3x512x512 .f32) : fV img = Cert.Spec.G1 img := by
  funext j
  rw [eq_ix2 j]
  exact fV_apply img (j 0) (j 1)

end Cert.ReferenceIdeal.Hand

end
-- ==== Proof.LibFlatAdd.lean ====
/-
  Adding numbers into a one-axis array at a column of index words.

  What a count, or a sum, by destination lowers to, for an operand [N], a column of index words [R, 1] and
  updates [R]: an accumulating scatter of single elements.

  The scatter sends update e to the operand position idx[e, 0], read as a signed integer and not clamped; an
  update whose word is not a position of the operand is dropped. So the accumulated result at p is the operand's
  element plus the sum, over the updates e whose word denotes p, of the update's element e.
-/
import Idealize.ShloMosaic.Lib.ValueIdx

noncomputable section

open scoped BigOperators

namespace Cert.FlatAdd

open Idealize.ShloMosaic Idealize.ShloMosaic.ValueIdx

/-- A one-axis index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The scatter's dimension numbers for an operand [N], scatter indices [R, 1] and updates [R]: one index
    component per update, naming operand axis 0, which is inserted; the updates have no window axis. -/
abbrev flatScatterDims (N R : Nat)
    (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

/-- The window of update e starts at the word idx[e, 0], read signed. -/
private theorem start_flat {N R w : Nat} (wf : ScatterDims.WF ⟨1, ![N]⟩ ⟨2, ![R, 1]⟩ ⟨1, ![R]⟩ [] [0] [0] 1)
    (idx : IVec ⟨2, ![R, 1]⟩ w) (e : Fin R) :
    (flatScatterDims N R wf).start (ix1 e) idx 0 = (idx (ix2 e (0 : Fin 1))).toInt := by
  unfold ScatterDims.start
  rw [dif_pos (show (0 : Fin 1) ∈ (flatScatterDims N R wf).scatterDimsToOperandDims from List.mem_singleton.mpr rfl)]
  have hsi : (flatScatterDims N R wf).siIdx (ix1 e) ⟨List.idxOf (0 : Fin 1) (flatScatterDims N R wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The operand's one axis is inserted: its window coordinate is 0. -/
private theorem window_flat {N R : Nat} (wf : ScatterDims.WF ⟨1, ![N]⟩ ⟨2, ![R, 1]⟩ ⟨1, ![R]⟩ [] [0] [0] 1)
    (e : Fin R) :
    (flatScatterDims N R wf).window (ix1 e) 0 = 0 := by
  unfold ScatterDims.window
  rw [dif_neg]
  intro h
  have := (List.mem_filter.1 h).2
  simp at this

/-- Where update e lands: at p exactly when the word idx[e, 0], read signed, is the position p. -/
theorem resultIdx_flat_iff {N R w : Nat} (wf : ScatterDims.WF ⟨1, ![N]⟩ ⟨2, ![R, 1]⟩ ⟨1, ![R]⟩ [] [0] [0] 1)
    (idx : IVec ⟨2, ![R, 1]⟩ w) (e : Fin R) (p : Fin N) :
    (flatScatterDims N R wf).resultIdx? (ix1 e) idx = some (ix1 p)
      ↔ (idx (ix2 e (0 : Fin 1))).toInt = (p.val : Int) := by
  have h0 : (flatScatterDims N R wf).start (ix1 e) idx 0 + (((flatScatterDims N R wf).window (ix1 e) 0 : Nat) : Int)
      = (idx (ix2 e (0 : Fin 1))).toInt := by
    rw [start_flat, window_flat]; simp
  unfold ScatterDims.resultIdx?
  constructor
  · intro h
    split at h
    · rename_i hin
      have hf := Option.some.inj h
      have e0 : ((flatScatterDims N R wf).start (ix1 e) idx 0
          + (((flatScatterDims N R wf).window (ix1 e) 0 : Nat) : Int)).toNat = p.val :=
        congrArg (fun f : (⟨1, ![N]⟩ : Shape).Idx => (f 0).val) hf
      have hn := (hin 0).1
      rw [h0] at e0 hn
      omega
    · exact absurd h (by simp)
  · intro hv
    have hin : ∀ a, 0 ≤ (flatScatterDims N R wf).start (ix1 e) idx a + ((flatScatterDims N R wf).window (ix1 e) a : Int)
        ∧ (flatScatterDims N R wf).start (ix1 e) idx a + ((flatScatterDims N R wf).window (ix1 e) a : Int)
          < ((⟨1, ![N]⟩ : Shape).size a : Int) := by
      intro a
      match a with
      | ⟨0, _⟩ =>
        show 0 ≤ (flatScatterDims N R wf).start (ix1 e) idx 0 + (((flatScatterDims N R wf).window (ix1 e) 0 : Nat) : Int)
          ∧ (flatScatterDims N R wf).start (ix1 e) idx 0 + (((flatScatterDims N R wf).window (ix1 e) 0 : Nat) : Int)
            < ((N : Nat) : Int)
        rw [h0, hv]
        have := p.isLt
        omega
    rw [dif_pos hin]
    refine congrArg some ?_
    funext a
    refine Fin.ext ?_
    match a with
    | ⟨0, _⟩ =>
      show ((flatScatterDims N R wf).start (ix1 e) idx 0
        + (((flatScatterDims N R wf).window (ix1 e) 0 : Nat) : Int)).toNat = p.val
      rw [h0, hv]
      exact Int.toNat_natCast _

/-- The accumulating scatter read at p: the operand's element plus the sum, over the updates e whose word
    idx[e, 0] read signed is the position p, of the update's element e. -/
theorem scatterAdd_flat_apply {N R w : Nat} {φ : FTy} (wf : ScatterDims.WF ⟨1, ![N]⟩ ⟨2, ![R, 1]⟩ ⟨1, ![R]⟩ [] [0] [0] 1)
    (x : FVec Ideal ⟨1, ![N]⟩ φ) (idx : IVec ⟨2, ![R, 1]⟩ w) (upd : FVec Ideal ⟨1, ![R]⟩ φ) (p : Fin N) :
    Host.scatterAdd (F := Ideal) (flatScatterDims N R wf) x idx upd (ix1 p)
      = x (ix1 p) + ∑ e ∈ Finset.univ.filter
          (fun e : Fin R => (idx (ix2 e (0 : Fin 1))).toInt = (p.val : Int)), upd (ix1 e) := by
  show Ideal.hostScatterAdd (flatScatterDims N R wf) x idx upd (ix1 p) = _
  unfold Ideal.hostScatterAdd
  refine congrArg (fun t => x (ix1 p) + t) ?_
  rw [Finset.sum_filter, Finset.sum_filter, sum_idx1]
  refine Finset.sum_congr rfl fun e _ => ?_
  exact if_congr (resultIdx_flat_iff wf idx e p) rfl rfl

end Cert.FlatAdd

end
-- ==== Proof.LibFoldMinMax.lean ====
/-
  Folding a selecting function over a list: the least (or greatest) member.

  A function f of two arguments SELECTS when f a b is always a or b. Give every value a key in the integers,
  and suppose f never raises the key: key (f a b) ≤ key a and key (f a b) ≤ key b. Then the left fold of f over
  any list, from a start value,
    (a) is the start value or a member of the list, and
    (b) has a key at most the start's and at most every member's.
  So when the keys tell values apart, and some member m has a key at most the start's and at most every
  member's, the fold IS m: nothing about the order of the list, or about how often a value repeats, matters.

  The signed minimum of two words selects and never raises the signed reading; the signed maximum selects
  and never raises the NEGATED signed reading. So a fold of the signed minimum is the member that is least as
  a signed integer, and a fold of the signed maximum the greatest.
-/
import Idealize.ShloMosaic.PureOps.Float

namespace Cert.FoldMinMax

open Idealize.ShloMosaic

section General
variable {α : Type}

/-- (b) The fold never ends above where it started, nor above any member: its key is at most the start's and
    at most every member's. -/
theorem key_foldl_le (f : α → α → α) (key : α → ℤ)
    (hle : ∀ a b, key (f a b) ≤ key a ∧ key (f a b) ≤ key b) :
    ∀ (l : List α) (a : α), key (l.foldl f a) ≤ key a ∧ ∀ x ∈ l, key (l.foldl f a) ≤ key x
  | [], a => ⟨le_refl _, fun x hx => absurd hx List.not_mem_nil⟩
  | b :: l, a => by
    rw [List.foldl_cons]
    obtain ⟨h1, h2⟩ := key_foldl_le f key hle l (f a b)
    refine ⟨h1.trans (hle a b).1, fun x hx => ?_⟩
    rcases List.mem_cons.1 hx with rfl | hx
    · exact h1.trans (hle a x).2
    · exact h2 x hx

/-- (a) The fold of a selecting function is the start value or a member of the list. -/
theorem foldl_eq_init_or_mem (f : α → α → α) (hsel : ∀ a b, f a b = a ∨ f a b = b) :
    ∀ (l : List α) (a : α), l.foldl f a = a ∨ l.foldl f a ∈ l
  | [], a => Or.inl rfl
  | b :: l, a => by
    rw [List.foldl_cons]
    rcases foldl_eq_init_or_mem f hsel l (f a b) with h | h
    · rw [h]
      rcases hsel a b with h' | h'
      · exact Or.inl h'
      · exact Or.inr (by rw [h']; exact List.mem_cons_self)
    · exact Or.inr (List.mem_cons_of_mem _ h)

/-- The fold is the least member: when keys tell values apart and the member m has a key at most the start's
    and at most every member's, the fold of a selecting, key-lowering function is m. -/
theorem foldl_eq_of_least (f : α → α → α) (key : α → ℤ) (hsel : ∀ a b, f a b = a ∨ f a b = b)
    (hle : ∀ a b, key (f a b) ≤ key a ∧ key (f a b) ≤ key b) (hinj : ∀ a b, key a = key b → a = b)
    (l : List α) (a m : α) (hm : m ∈ l) (hma : key m ≤ key a) (hml : ∀ x ∈ l, key m ≤ key x) :
    l.foldl f a = m := by
  apply hinj
  apply le_antisymm
  · exact (key_foldl_le f key hle l a).2 m hm
  · rcases foldl_eq_init_or_mem f hsel l a with h | h
    · rw [h]; exact hma
    · exact hml _ h

end General

section Words
variable {w : Nat}

/-- The signed minimum of two words is one of them. -/
theorem minsi_sel (x y : BitVec w) : IntOp.minsi x y = x ∨ IntOp.minsi x y = y := by
  unfold IntOp.minsi
  by_cases h : x.slt y = true
  · rw [if_pos h]; exact Or.inl rfl
  · rw [if_neg h]; exact Or.inr rfl

/-- The signed minimum of two words reads, signed, at most as either. -/
theorem minsi_le (x y : BitVec w) :
    (IntOp.minsi x y).toInt ≤ x.toInt ∧ (IntOp.minsi x y).toInt ≤ y.toInt := by
  unfold IntOp.minsi
  by_cases h : x.slt y = true
  · rw [if_pos h]
    have : x.toInt < y.toInt := by simpa [BitVec.slt] using h
    exact ⟨le_refl _, le_of_lt this⟩
  · rw [if_neg h]
    have : ¬ x.toInt < y.toInt := by simpa [BitVec.slt] using h
    exact ⟨not_lt.1 this, le_refl _⟩

/-- The signed maximum of two words is one of them. -/
theorem maxsi_sel (x y : BitVec w) : IntOp.maxsi x y = x ∨ IntOp.maxsi x y = y := by
  unfold IntOp.maxsi
  by_cases h : y.slt x = true
  · rw [if_pos h]; exact Or.inl rfl
  · rw [if_neg h]; exact Or.inr rfl

/-- The signed maximum of two words reads, signed, at least as either (stated on the negated readings). -/
theorem maxsi_le (x y : BitVec w) :
    -(IntOp.maxsi x y).toInt ≤ -x.toInt ∧ -(IntOp.maxsi x y).toInt ≤ -y.toInt := by
  unfold IntOp.maxsi
  by_cases h : y.slt x = true
  · rw [if_pos h]
    have : y.toInt < x.toInt := by simpa [BitVec.slt] using h
    exact ⟨le_refl _, by omega⟩
  · rw [if_neg h]
    have : ¬ y.toInt < x.toInt := by simpa [BitVec.slt] using h
    exact ⟨by omega, le_refl _⟩

/-- A fold of the signed minimum is the member that is least as a signed integer, when that member is also
    at most the start. -/
theorem foldl_minsi_eq (l : List (BitVec w)) (a m : BitVec w) (hm : m ∈ l) (hma : m.toInt ≤ a.toInt)
    (hml : ∀ x ∈ l, m.toInt ≤ x.toInt) : l.foldl IntOp.minsi a = m :=
  foldl_eq_of_least IntOp.minsi (fun x => x.toInt) minsi_sel minsi_le (fun _ _ h => BitVec.eq_of_toInt_eq h)
    l a m hm hma hml

/-- A fold of the signed maximum is the member that is greatest as a signed integer, when that member is also
    at least the start. -/
theorem foldl_maxsi_eq (l : List (BitVec w)) (a m : BitVec w) (hm : m ∈ l) (hma : a.toInt ≤ m.toInt)
    (hml : ∀ x ∈ l, x.toInt ≤ m.toInt) : l.foldl IntOp.maxsi a = m :=
  foldl_eq_of_least IntOp.maxsi (fun x => -x.toInt) maxsi_sel maxsi_le
    (fun _ _ h => BitVec.eq_of_toInt_eq (by omega)) l a m hm (by omega)
    (fun x hx => by have := hml x hx; omega)

/-- A number below 2^31, as a 32-bit word, reads signed as itself. -/
theorem toInt_ofNat_of_lt {k : ℕ} (hk : k < 2 ^ 31) : (BitVec.ofNat 32 k).toInt = (k : ℤ) := by
  rw [BitVec.toInt_eq_toNat_cond, BitVec.toNat_ofNat, Nat.mod_eq_of_lt (by omega : k < 2 ^ 32),
    if_pos (by omega : 2 * k < 2 ^ 32)]

end Words

end Cert.FoldMinMax
-- ==== Proof.LibScatterFold.lean ====
/-
  A scatter with a combining function, read at one position of the operand.

  The host's scatter is a left fold over the update indices in row-major order: the update index n either names
  a position i of the operand (and then the entry at i becomes f (entry at i) (update n), the others stay), or
  names none (the update is dropped). Reading the whole fold at ONE position i' therefore only sees the updates
  that land at i': the result at i' is the left fold of f, from the operand's entry at i', over the updates that
  land at i', in row-major order. This is proved for any list of steps, with the fold's accumulator general,
  and never by running over a list of a particular length.

  When f selects the lesser (or the greater) of its two arguments for some integer key, the fold is the least
  member, whatever the order: the scatter read at i' is then the update of least key among those landing at
  i', as soon as that key is also at most the operand's entry's.
-/
import Idealize.ShloMosaic.PureOps.ShapeOps
import proofs.«132806_j50629074485716_2_alg».proof.Proof.LibFoldMinMax

namespace Cert.ScatterFold

open Idealize.ShloMosaic

/-- A fold of single-position updates, read at one position. Step k has a target R k (or none): with a target i
    it replaces the entry at i by f (entry at i) (v k) and leaves the others alone, with no target it leaves
    everything alone. Read at i', the fold over a list is the fold of f, from the start's entry at i', over
    the values v k of the steps k of the list whose target is i', in the list's order. -/
theorem foldl_update_apply {ι κ α : Type} (R : κ → Option ι) (f : α → α → α) (v : κ → α)
    (step : (ι → α) → κ → ι → α)
    (h_hit : ∀ r k i, R k = some i → step r k i = f (r i) (v k))
    (h_miss : ∀ r k i i', R k = some i → i' ≠ i → step r k i' = r i')
    (h_none : ∀ r k, R k = none → step r k = r) (i' : ι) (p : κ → Bool)
    (hp : ∀ k, p k = true ↔ R k = some i') :
    ∀ (l : List κ) (r : ι → α), l.foldl step r i' = ((l.filter p).map v).foldl f (r i')
  | [], r => rfl
  | k :: l, r => by
    rw [List.foldl_cons, foldl_update_apply R f v step h_hit h_miss h_none i' p hp l (step r k)]
    by_cases hk : R k = some i'
    · rw [List.filter_cons_of_pos ((hp k).2 hk), List.map_cons, List.foldl_cons, h_hit r k i' hk]
    · rw [List.filter_cons_of_neg (fun h => hk ((hp k).1 h))]
      cases hR : R k with
      | none => rw [h_none r k hR]
      | some i => rw [h_miss r k i i' hR (fun e => hk (by rw [hR, e]))]

variable {s si u : Shape} {α : Type} {w : Nat}

/-- The host's scatter with the combining function f, read at the operand position i': the left fold of f, from
    the operand's entry at i', over the updates that land at i', in row-major order of the update indices. -/
theorem scatter_apply_foldl (d : ScatterDims s si u) (f : α → α → α) (x : s.Idx → α) (idx : IVec si w)
    (upd : u.Idx → α) (i' : s.Idx) :
    Host.scatter d f x idx upd i'
      = (((List.finRange u.numel).filter
            (fun n => decide (d.resultIdx? (u.rowMajor.symm n) idx = some i'))).map
          (fun n => upd (u.rowMajor.symm n))).foldl f (x i') := by
  unfold Host.scatter
  refine foldl_update_apply (fun n => d.resultIdx? (u.rowMajor.symm n) idx) f
    (fun n => upd (u.rowMajor.symm n)) _ ?_ ?_ ?_ i' _ (fun k => decide_eq_true_iff) _ x
  · intro r k i hk
    beta_reduce at hk ⊢
    rw [hk]
    dsimp only
    rw [if_pos rfl]
  · intro r k i i'' hk hi
    beta_reduce at hk ⊢
    rw [hk]
    dsimp only
    rw [if_neg hi]
  · intro r k hk
    beta_reduce at hk ⊢
    rw [hk]

/-- A scatter whose combining function selects the argument of lesser key, read at the operand position i': if
    the update index j0 lands at i', its update's key is at most the operand's entry's at i', and at most the
    key of every update landing at i', then the result at i' is the update at j0. -/
theorem scatter_sel_apply (d : ScatterDims s si u) (f : α → α → α) (key : α → ℤ)
    (hsel : ∀ a b, f a b = a ∨ f a b = b) (hle : ∀ a b, key (f a b) ≤ key a ∧ key (f a b) ≤ key b)
    (hinj : ∀ a b, key a = key b → a = b) (x : s.Idx → α) (idx : IVec si w) (upd : u.Idx → α) (i' : s.Idx)
    (j0 : u.Idx) (h0 : d.resultIdx? j0 idx = some i') (hx : key (upd j0) ≤ key (x i'))
    (hall : ∀ j : u.Idx, d.resultIdx? j idx = some i' → key (upd j0) ≤ key (upd j)) :
    Host.scatter d f x idx upd i' = upd j0 := by
  rw [scatter_apply_foldl]
  refine FoldMinMax.foldl_eq_of_least f key hsel hle hinj _ _ _ ?_ hx ?_
  · refine List.mem_map.2 ⟨u.rowMajor j0, List.mem_filter.2 ⟨List.mem_finRange _, ?_⟩, ?_⟩
    · rw [decide_eq_true_iff, Equiv.symm_apply_apply]; exact h0
    · show upd (u.rowMajor.symm (u.rowMajor j0)) = upd j0
      rw [Equiv.symm_apply_apply]
  · intro y hy
    obtain ⟨n, hn, rfl⟩ := List.mem_map.1 hy
    exact hall _ (of_decide_eq_true (List.mem_filter.1 hn).2)

end Cert.ScatterFold
-- ==== Proof.RBox.lean ====
/-
  The bounding boxes: per patch, the least and the greatest row and column of the patch's pixels.

  Each of the four is a scatter of a coordinate of every pixel into its patch's entry, combining by the signed
  minimum from the greatest word, or by the signed maximum from the least word. Update e lands at the patch its
  patch word names, segN e. Read at the patch s = b * 1024 + hp * 32 + wp, the scatter is the fold of the
  minimum (maximum) over the coordinates of the pixels of batch b, rows 16 hp ... 16 hp + 15, columns
  16 wp ... 16 wp + 15, so it is the coordinate of the corner pixel (b, 16 hp, 16 wp) for the minimum and of
  (b, 16 hp + 15, 16 wp + 15) for the maximum: a member whose coordinate bounds every member's. The four
  results, each kept as a one-row table, are laid one under the other.
-/
import proofs.«132806_j50629074485716_2_alg».proof.Proof.RTerms
import proofs.«132806_j50629074485716_2_alg».proof.Proof.Spec
import proofs.«132806_j50629074485716_2_alg».proof.Proof.LibFlatAdd
import proofs.«132806_j50629074485716_2_alg».proof.Proof.LibScatterFold
import Idealize.ShloMosaic.Lib.Pipeline.Value
import Idealize.ShloMosaic.Lib.IdealHost

noncomputable section

namespace Cert.ReferenceIdeal.Hand

open Idealize.ShloMosaic Idealize.ShloMosaic.ValueIdx Cert.ReferenceIdeal Cert.ReferenceIdeal.Facts₀

variable [Facts]

/-- The column of scatter indices at pixel e is the patch word of pixel e. -/
theorem segCol_apply (e : Fin 4194304) : segCol (ix2 e (0 : Fin 1)) = seg (ix1 e) := by
  unfold segCol
  refine broadcastInDim_apply _ _ _ _ (ix1 e) (fun a => ?_)
  match a with
  | ⟨0, _⟩ =>
    show e.val = if (4194304 : ℕ) = 1 then 0 else e.val
    rw [if_neg (by omega)]

/-- Update e lands at patch p exactly when the patch number of pixel e is p. -/
theorem lands_iff (hseg : seg = Cert.Spec.G2) (e : Fin 4194304) (p : Fin 16384) :
    scatter_S16384_S4194304x1_S4194304_n_0_0_1.resultIdx? (ix1 e) segCol = some (ix1 p)
      ↔ Cert.Spec.segN e.val = p.val := by
  refine (Cert.FlatAdd.resultIdx_flat_iff scatter_S16384_S4194304x1_S4194304_n_0_0_1_wf segCol e p).trans ?_
  rw [segCol_apply, hseg]
  show (BitVec.ofNat 32 (Cert.Spec.segN e.val)).toInt = (p.val : ℤ) ↔ _
  have hlt := Cert.Spec.segN_lt e.isLt
  rw [Cert.FoldMinMax.toInt_ofNat_of_lt (by omega)]
  exact Nat.cast_inj

/-- The least of a coordinate over a patch: if every pixel's word u is the number uN of the pixel (below 2^31),
    pixel e0 lies in patch p and its number is at most that of every pixel of patch p, the scatter-minimum of u
    read at p is the word of uN e0. -/
theorem segMin_apply (hseg : seg = Cert.Spec.G2) (u : IVec S4194304 32) (uN : ℕ → ℕ)
    (hu : ∀ e : Fin 4194304, u (ix1 e) = BitVec.ofNat 32 (uN e.val)) (huN : ∀ e : ℕ, uN e < 2 ^ 31)
    (p : Fin 16384) (e0 : Fin 4194304) (h0 : Cert.Spec.segN e0.val = p.val)
    (hmin : ∀ e : Fin 4194304, Cert.Spec.segN e.val = p.val → uN e0.val ≤ uN e.val) :
    segMin u (ix1 p) = BitVec.ofNat 32 (uN e0.val) := by
  unfold segMin
  rw [← hu e0]
  refine Cert.ScatterFold.scatter_sel_apply _ IntOp.minsi (fun x => x.toInt) Cert.FoldMinMax.minsi_sel
    Cert.FoldMinMax.minsi_le (fun _ _ h => BitVec.eq_of_toInt_eq h) _ _ _ _ (ix1 e0)
    ((lands_iff hseg e0 p).2 h0) ?_ ?_
  · rw [broadcastInDim_scalar_apply]
    show (u (ix1 e0)).toInt ≤ (2147483647#32 : BitVec 32).toInt
    rw [hu e0, Cert.FoldMinMax.toInt_ofNat_of_lt (huN _)]
    have := huN e0.val
    have h2 : (2147483647#32 : BitVec 32).toInt = 2147483647 := by decide
    rw [h2]; omega
  · intro j hj
    obtain ⟨e, rfl⟩ : ∃ e : Fin 4194304, j = ix1 e := ⟨j 0, eq_ix1 j⟩
    show (u (ix1 e0)).toInt ≤ (u (ix1 e)).toInt
    rw [hu e0, hu e, Cert.FoldMinMax.toInt_ofNat_of_lt (huN _), Cert.FoldMinMax.toInt_ofNat_of_lt (huN _)]
    exact_mod_cast hmin e ((lands_iff hseg e p).1 hj)

/-- The greatest of a coordinate over a patch: as for the least, with pixel e0's number at least that of every
    pixel of patch p. -/
theorem segMax_apply (hseg : seg = Cert.Spec.G2) (u : IVec S4194304 32) (uN : ℕ → ℕ)
    (hu : ∀ e : Fin 4194304, u (ix1 e) = BitVec.ofNat 32 (uN e.val)) (huN : ∀ e : ℕ, uN e < 2 ^ 31)
    (p : Fin 16384) (e0 : Fin 4194304) (h0 : Cert.Spec.segN e0.val = p.val)
    (hmax : ∀ e : Fin 4194304, Cert.Spec.segN e.val = p.val → uN e.val ≤ uN e0.val) :
    segMax u (ix1 p) = BitVec.ofNat 32 (uN e0.val) := by
  unfold segMax
  rw [← hu e0]
  refine Cert.ScatterFold.scatter_sel_apply _ IntOp.maxsi (fun x => -x.toInt) Cert.FoldMinMax.maxsi_sel
    Cert.FoldMinMax.maxsi_le (fun _ _ h => BitVec.eq_of_toInt_eq (by omega)) _ _ _ _ (ix1 e0)
    ((lands_iff hseg e0 p).2 h0) ?_ ?_
  · rw [broadcastInDim_scalar_apply]
    show -(u (ix1 e0)).toInt ≤ -(2147483648#32 : BitVec 32).toInt
    rw [hu e0, Cert.FoldMinMax.toInt_ofNat_of_lt (huN _)]
    have h2 : (2147483648#32 : BitVec 32).toInt = -2147483648 := by decide
    rw [h2]; omega
  · intro j hj
    obtain ⟨e, rfl⟩ : ∃ e : Fin 4194304, j = ix1 e := ⟨j 0, eq_ix1 j⟩
    show -(u (ix1 e0)).toInt ≤ -(u (ix1 e)).toInt
    rw [hu e0, hu e, Cert.FoldMinMax.toInt_ofNat_of_lt (huN _), Cert.FoldMinMax.toInt_ofNat_of_lt (huN _)]
    have := hmax e ((lands_iff hseg e p).1 hj)
    omega

/-- A vector kept as a one-row table, read at (0, p), is the vector at p. -/
theorem asRow16384_apply (v : IVec S16384 32) (p : Fin 16384) :
    asRow16384 v (ix2 (0 : Fin 1) p) = v (ix1 p) := by
  refine broadcastInDim_apply _ _ _ _ (ix1 p) (fun a => ?_)
  match a with
  | ⟨0, _⟩ =>
    show p.val = if (16384 : ℕ) = 1 then 0 else p.val
    rw [if_neg (by omega)]

/-! ### The two corner pixels of a patch -/

/-- The first pixel of patch p: batch p / 1024, row 16 (p / 32 % 32), column 16 (p % 32). -/
def lowPix (p : Fin 16384) : Fin 4194304 :=
  ⟨p.val / 1024 * 262144 + Cert.Spec.php p.val * 16 * 512 + Cert.Spec.pwp p.val * 16, by
    have := p.isLt; unfold Cert.Spec.php Cert.Spec.pwp; omega⟩

/-- The last pixel of patch p: batch p / 1024, row 16 (p / 32 % 32) + 15, column 16 (p % 32) + 15. -/
def highPix (p : Fin 16384) : Fin 4194304 :=
  ⟨p.val / 1024 * 262144 + (Cert.Spec.php p.val * 16 + 15) * 512 + (Cert.Spec.pwp p.val * 16 + 15), by
    have := p.isLt; unfold Cert.Spec.php Cert.Spec.pwp; omega⟩

theorem segN_lowPix (p : Fin 16384) : Cert.Spec.segN (lowPix p).val = p.val := by
  have := p.isLt
  unfold lowPix Cert.Spec.segN Cert.Spec.pb Cert.Spec.py Cert.Spec.px Cert.Spec.php Cert.Spec.pwp
  dsimp only
  omega

theorem segN_highPix (p : Fin 16384) : Cert.Spec.segN (highPix p).val = p.val := by
  have := p.isLt
  unfold highPix Cert.Spec.segN Cert.Spec.pb Cert.Spec.py Cert.Spec.px Cert.Spec.php Cert.Spec.pwp
  dsimp only
  omega

theorem py_lowPix (p : Fin 16384) : Cert.Spec.py (lowPix p).val = Cert.Spec.php p.val * 16 := by
  have := p.isLt
  unfold lowPix Cert.Spec.py Cert.Spec.php Cert.Spec.pwp
  dsimp only
  omega

theorem px_lowPix (p : Fin 16384) : Cert.Spec.px (lowPix p).val = Cert.Spec.pwp p.val * 16 := by
  have := p.isLt
  unfold lowPix Cert.Spec.px Cert.Spec.php Cert.Spec.pwp
  dsimp only
  omega

theorem py_highPix (p : Fin 16384) : Cert.Spec.py (highPix p).val = Cert.Spec.php p.val * 16 + 15 := by
  have := p.isLt
  unfold highPix Cert.Spec.py Cert.Spec.php Cert.Spec.pwp
  dsimp only
  omega

theorem px_highPix (p : Fin 16384) : Cert.Spec.px (highPix p).val = Cert.Spec.pwp p.val * 16 + 15 := by
  have := p.isLt
  unfold highPix Cert.Spec.px Cert.Spec.php Cert.Spec.pwp
  dsimp only
  omega

/-- A pixel of patch p has its row in 16 hp ... 16 hp + 15 and its column in 16 wp ... 16 wp + 15. -/
theorem patch_bounds (e : Fin 4194304) (p : Fin 16384) (h : Cert.Spec.segN e.val = p.val) :
    Cert.Spec.php p.val * 16 ≤ Cert.Spec.py e.val ∧ Cert.Spec.py e.val ≤ Cert.Spec.php p.val * 16 + 15
      ∧ Cert.Spec.pwp p.val * 16 ≤ Cert.Spec.px e.val ∧ Cert.Spec.px e.val ≤ Cert.Spec.pwp p.val * 16 + 15 := by
  have := p.isLt
  have := e.isLt
  unfold Cert.Spec.segN Cert.Spec.pb Cert.Spec.py Cert.Spec.px at h
  unfold Cert.Spec.py Cert.Spec.px Cert.Spec.php Cert.Spec.pwp
  omega

/-! ### The four rows laid one under the other -/

/-- The bounding-box table: row 0 the least row, row 1 the least column, row 2 the greatest row, row 3 the
    greatest column of each patch. The table is the four one-row tables laid end to end along axis 0, so row r
    at patch p is piece r at (0, p); each piece is a scatter-minimum or -maximum read at p, whose value is the
    coordinate of a corner pixel of the patch. -/
theorem bbox_eq (hrow : ∀ e : Fin 4194304, row (ix1 e) = BitVec.ofNat 32 (Cert.Spec.py e.val))
    (hcol : ∀ e : Fin 4194304, col (ix1 e) = BitVec.ofNat 32 (Cert.Spec.px e.val))
    (hseg : seg = Cert.Spec.G2) : bbox = Cert.Spec.G4 := by
  funext j
  obtain ⟨r, p, rfl⟩ : ∃ (r : Fin 4) (p : Fin 16384), j = ix2 r p := ⟨j 0, j 1, eq_ix2 j⟩
  have hpy : ∀ e : ℕ, Cert.Spec.py e < 2 ^ 31 := fun e => by have := Cert.Spec.py_lt e; omega
  have hpx : ∀ e : ℕ, Cert.Spec.px e < 2 ^ 31 := fun e => by have := Cert.Spec.px_lt e; omega
  have hi : ∀ (r : Fin 4) (b : Fin S1x16384.rank),
      b.cast (rfl : S1x16384.rank = S4x16384.rank) ≠ (0 : Fin S4x16384.rank) →
        ((ix2 (0 : Fin 1) p) b).val = ((ix2 r p) (b.cast (rfl : S1x16384.rank = S4x16384.rank))).val := by
    intro r b hb
    match b with
    | ⟨0, _⟩ => exact absurd rfl hb
    | ⟨1, _⟩ => rfl
  unfold bbox
  match r with
  | ⟨0, _⟩ =>
    refine (concatenate_apply_piece (0 : Fin S4x16384.rank) _ _ _ 0 (by show (0 : ℕ) < 4; omega) S1x16384
      (asRow16384 (segMin row)) rfl rfl 0 rfl (ix2 (0 : Fin 1) p) (hi _) rfl).trans ?_
    rw [asRow16384_apply, segMin_apply hseg row Cert.Spec.py hrow hpy p (lowPix p) (segN_lowPix p)
      (fun e he => by rw [py_lowPix]; exact (patch_bounds e p he).1), py_lowPix]
    rfl
  | ⟨1, _⟩ =>
    refine (concatenate_apply_piece (0 : Fin S4x16384.rank) _ _ _ 1 (by show (1 : ℕ) < 4; omega) S1x16384
      (asRow16384 (segMin col)) rfl rfl 1 rfl (ix2 (0 : Fin 1) p) (hi _) rfl).trans ?_
    rw [asRow16384_apply, segMin_apply hseg col Cert.Spec.px hcol hpx p (lowPix p) (segN_lowPix p)
      (fun e he => by rw [px_lowPix]; exact (patch_bounds e p he).2.2.1), px_lowPix]
    rfl
  | ⟨2, _⟩ =>
    refine (concatenate_apply_piece (0 : Fin S4x16384.rank) _ _ _ 2 (by show (2 : ℕ) < 4; omega) S1x16384
      (asRow16384 (segMax row)) rfl rfl 2 rfl (ix2 (0 : Fin 1) p) (hi _) rfl).trans ?_
    rw [asRow16384_apply, segMax_apply hseg row Cert.Spec.py hrow hpy p (highPix p) (segN_highPix p)
      (fun e he => by rw [py_highPix]; exact (patch_bounds e p he).2.1), py_highPix]
    rfl
  | ⟨3, _⟩ =>
    refine (concatenate_apply_piece (0 : Fin S4x16384.rank) _ _ _ 3 (by show (3 : ℕ) < 4; omega) S1x16384
      (asRow16384 (segMax col)) rfl rfl 3 rfl (ix2 (0 : Fin 1) p) (hi _) rfl).trans ?_
    rw [asRow16384_apply, segMax_apply hseg col Cert.Spec.px hcol hpx p (highPix p) (segN_highPix p)
      (fun e he => by rw [px_highPix]; exact (patch_bounds e p he).2.2.2), px_highPix]
    rfl

end Cert.ReferenceIdeal.Hand

end
-- ==== Proof.lean ====
/-
  The certificate of the patch tokenizer: a Pallas kernel on the grid (batch, 64-row tile) that re-lays each image
  tile channel-last, numbers its pixels' 16×16 patches and writes their (batch, row, column) coordinates, followed by
  host operations that flatten the three outputs and write every patch's bounding box in closed form — against a jnp
  reference that unravels the pixel numbers, numbers the patches, transposes the image, and finds the bounding boxes
  by four segment minimum / maximum reductions over all pixels.

  The two programs agree because (Proof/Spec.lean): pixel number e is (e / 512², (e / 512) % 512, e % 512), its patch
  is b·32² + (y / 16)·32 + x / 16, and patch (b, hp, wp) holds exactly the rows 16hp … 16hp + 15 and the columns
  16wp … 16wp + 15, so the least / greatest row and column over it are the closed forms the kernel's program writes.
  Each side is shown equal to the specification index by index: the kernel's arrays block by block from what the body
  stores at each grid point (Proof/KVal*.lean) and through the final reshapes (Proof/KTail*.lean), the reference from
  its run (Proof/RRun*.lean) read one operation at a time (Proof/RVal*.lean, Proof/RBox.lean). Nothing here needs the
  inputs to be finite: the image entries are only moved, never computed with.
-/
import proofs.«132806_j50629074485716_2_alg».proof.Defs
import proofs.«132806_j50629074485716_2_alg».proof.Proof.Gen.Kernel
import proofs.«132806_j50629074485716_2_alg».proof.Proof.Gen.KernelIdeal
import proofs.«132806_j50629074485716_2_alg».proof.Proof.Gen.ReferenceIdeal
import proofs.«132806_j50629074485716_2_alg».proof.Proof.Gen.Pre_finite_inputs
import proofs.«132806_j50629074485716_2_alg».proof.Proof.KFrame
import proofs.«132806_j50629074485716_2_alg».proof.Proof.KFrameBits
import proofs.«132806_j50629074485716_2_alg».proof.Proof.KValFV
import proofs.«132806_j50629074485716_2_alg».proof.Proof.KValSeg
import proofs.«132806_j50629074485716_2_alg».proof.Proof.KValByx
import proofs.«132806_j50629074485716_2_alg».proof.Proof.KTail
import proofs.«132806_j50629074485716_2_alg».proof.Proof.RRun
import proofs.«132806_j50629074485716_2_alg».proof.Proof.RValCoord
import proofs.«132806_j50629074485716_2_alg».proof.Proof.RValByx
import proofs.«132806_j50629074485716_2_alg».proof.Proof.RValImage
import proofs.«132806_j50629074485716_2_alg».proof.Proof.RBox
import Idealize.ShloMosaic.Adequacy
import Idealize.ShloMosaic.Init

noncomputable section

namespace Cert.Proof

open Idealize.ShloMosaic Idealize.SL.Sem

/-- The word-level kernel program runs to the end and leaves the image as launched. -/
theorem frame_k : Cert.frame_Kernel := fun m ρ _ => Cert.Kernel.Hand.frame m ρ

/-- So does its idealization. -/
theorem frame_ki : Cert.frame_KernelIdeal := fun m ρ _ => Cert.KernelIdeal.Hand.frame m ρ

/-- The reference runs to the end and leaves the image as launched: its run with the results dropped. -/
theorem frame_ri : Cert.frame_ReferenceIdeal := fun m ρ _ =>
  (θ_run Cert.ReferenceIdeal.defs _ _).mono (fun _ h c => (h c).2.2.2.2) (Cert.ReferenceIdeal.Hand.run m ρ)

/-- Both programs end with the four results at the specification's functions of the image. -/
theorem algebraic : Cert.algebraic_KernelIdeal_ReferenceIdeal := by
  intro m ρ m' ρ' _ hagree
  refine ⟨fun c => Cert.Spec.G1 (m ((c.tc : Thread Cert.KernelIdeal.nD Cert.KernelIdeal.τ).loc Cert.KernelIdeal.main_arg0)),
    fun _ => Cert.Spec.G2, fun _ => Cert.Spec.G3, fun _ => Cert.Spec.G4, ?_, ?_⟩
  · exact Cert.KernelIdeal.Hand.krun_of m ρ (Cert.KernelIdeal.Hand.run_main m ρ)
      (Cert.KernelIdeal.Hand.final1 m) (Cert.KernelIdeal.Hand.final2 m) (Cert.KernelIdeal.Hand.final3 m)
  · refine (θ_run Cert.ReferenceIdeal.defs _ _).mono (fun _ h c => ⟨(h c).1.trans ?_,
        (h c).2.1.trans Cert.ReferenceIdeal.Hand.seg_eq, (h c).2.2.1.trans Cert.ReferenceIdeal.Hand.byx_eq,
        (h c).2.2.2.1.trans (Cert.ReferenceIdeal.Hand.bbox_eq Cert.ReferenceIdeal.Hand.row_apply
          Cert.ReferenceIdeal.Hand.col_apply Cert.ReferenceIdeal.Hand.seg_eq),
        (h c).2.2.2.2⟩) (Cert.ReferenceIdeal.Hand.run m' ρ')
    rw [Cert.ReferenceIdeal.Hand.fV_eq, hagree c]

theorem claim : Cert.Claim := ⟨Cert.Kernel.Gen.facts, Cert.KernelIdeal.Gen.facts, Cert.ReferenceIdeal.Gen.facts,
  Cert.Pre_finite_inputs.Gen.facts, frame_k, frame_ki, frame_ri, trivial, algebraic⟩

end Cert.Proof

end
